-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x3 : Shape := ⟨2, ![131072, 3]⟩
abbrev S256x39 : Shape := ⟨2, ![256, 39]⟩
abbrev S256 : Shape := ⟨1, ![256]⟩
abbrev S256x256 : Shape := ⟨2, ![256, 256]⟩
abbrev S217x256 : Shape := ⟨2, ![217, 256]⟩
abbrev S217 : Shape := ⟨1, ![217]⟩
abbrev S260x256 : Shape := ⟨2, ![260, 256]⟩
abbrev S260 : Shape := ⟨1, ![260]⟩
abbrev S_ : Shape := ⟨0, ![]⟩

class Facts : Prop where
  bcast_S_S131072x3 : S_.BroadcastsInDim S131072x3 (![] : Fin 0 → Fin S131072x3.rank)
  reducesTo_S131072x3_S_d0_1 : S131072x3.ReducesTo [0, 1] S_
  h_S_ : 0 < S_.numel
  bcast_S_S256x39 : S_.BroadcastsInDim S256x39 (![] : Fin 0 → Fin S256x39.rank)
  reducesTo_S256x39_S_d0_1 : S256x39.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S217x256 : S_.BroadcastsInDim S217x256 (![] : Fin 0 → Fin S217x256.rank)
  reducesTo_S217x256_S_d0_1 : S217x256.ReducesTo [0, 1] S_
  bcast_S_S217 : S_.BroadcastsInDim S217 (![] : Fin 0 → Fin S217.rank)
  reducesTo_S217_S_d0 : S217.ReducesTo [0] S_
  bcast_S_S260x256 : S_.BroadcastsInDim S260x256 (![] : Fin 0 → Fin S260x256.rank)
  reducesTo_S260x256_S_d0_1 : S260x256.ReducesTo [0, 1] S_
  bcast_S_S260 : S_.BroadcastsInDim S260 (![] : Fin 0 → Fin S260.rank)
  reducesTo_S260_S_d0 : S260.ReducesTo [0] S_

variable [Facts]

def fn_part8 {F : FTy → Type} [FloatOps F] (main_v133 : IVec S_ 1) (main_v136 : IVec S260 1) : IVec S_ 1 :=
  let main_c_53 : IVec S_ 1 := constantI S_ 1 1#1
  let main_v137 : IVec S_ 1 := (fun x v => Host.reduce IntOp.andi x v reducesTo_S260_S_d0 h_S_) main_v136 main_c_53
  let main_v138 : IVec S_ 1 := andi main_v133 main_v137
  main_v138

def fn_part7 {F : FTy → Type} [FloatOps F] (main_arg25 : FVec F S260x256 .f32) (main_arg26 : FVec F S260 .f32) (main_arg27 : FVec F S260 .f32) (main_v118 : IVec S_ 1) (main_v119 : FVec F S256 .f32) : IVec S_ 1 :=
  let main_cst_46 : FVec F S_ .f32 := constant S_ .f32 0x7F800000#32
  let main_v120 : FVec F S256 .f32 := broadcastInDim S256 ![] bcast_S_S256 main_cst_46
  let main_v121 : IVec S256 1 := cmpf .olt main_v119 main_v120
  let main_c_47 : IVec S_ 1 := constantI S_ 1 1#1
  let main_v122 : IVec S_ 1 := (fun x v => Host.reduce IntOp.andi x v reducesTo_S256_S_d0 h_S_) main_v121 main_c_47
  let main_v123 : IVec S_ 1 := andi main_v118 main_v122
  let main_v124 : FVec F S260x256 .f32 := Host.absf main_arg25
  let main_cst_48 : FVec F S_ .f32 := constant S_ .f32 0x7F800000#32
  let main_v125 : FVec F S260x256 .f32 := broadcastInDim S260x256 ![] bcast_S_S260x256 main_cst_48
  let main_v126 : IVec S260x256 1 := cmpf .olt main_v124 main_v125
  let main_c_49 : IVec S_ 1 := constantI S_ 1 1#1
  let main_v127 : IVec S_ 1 := (fun x v => Host.reduce IntOp.andi x v reducesTo_S260x256_S_d0_1 h_S_) main_v126 main_c_49
  let main_v128 : IVec S_ 1 := andi main_v123 main_v127
  let main_v129 : FVec F S260 .f32 := Host.absf main_arg26
  let main_cst_50 : FVec F S_ .f32 := constant S_ .f32 0x7F800000#32
  let main_v130 : FVec F S260 .f32 := broadcastInDim S260 ![] bcast_S_S260 main_cst_50
  let main_v131 : IVec S260 1 := cmpf .olt main_v129 main_v130
  let main_c_51 : IVec S_ 1 := constantI S_ 1 1#1
  let main_v132 : IVec S_ 1 := (fun x v => Host.reduce IntOp.andi x v reducesTo_S260_S_d0 h_S_) main_v131 main_c_51
  let main_v133 : IVec S_ 1 := andi main_v128 main_v132
  let main_v134 : FVec F S260 .f32 := Host.absf main_arg27
  let main_cst_52 : FVec F S_ .f32 := constant S_ .f32 0x7F800000#32
  let main_v135 : FVec F S260 .f32 := broadcastInDim S260 ![] bcast_S_S260 main_cst_52
  let main_v136 : IVec S260 1 := cmpf .olt main_v134 main_v135
  fn_part8 (F := F) main_v133 main_v136

def fn_part6 {F : FTy → Type} [FloatOps F] (main_arg21 : FVec F S256 .f32) (main_arg22 : FVec F S256x256 .f32) (main_arg23 : FVec F S256 .f32) (main_arg24 : FVec F S256 .f32) (main_arg25 : FVec F S260x256 .f32) (main_arg26 : FVec F S260 .f32) (main_arg27 : FVec F S260 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256 .f32 := Host.absf main_arg21
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256x256 .f32 := Host.absf main_arg22
  let main_cst_42 : FVec F S_ .f32 := constant S_ .f32 0x7F800000#32
  let main_v110 : FVec F S256x256 .f32 := broadcastInDim S256x256 ![] bcast_S_S256x256 main_cst_42
  let main_v111 : IVec S256x256 1 := cmpf .olt main_v109 main_v110
  let main_c_43 : IVec S_ 1 := constantI S_ 1 1#1
  let main_v112 : IVec S_ 1 := (fun x v => Host.reduce IntOp.andi x v reducesTo_S256x256_S_d0_1 h_S_) main_v111 main_c_43
  let main_v113 : IVec S_ 1 := andi main_v108 main_v112
  let main_v114 : FVec F S256 .f32 := Host.absf main_arg23
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S256 .f32 := Host.absf main_arg24
  fn_part7 (F := F) main_arg25 main_arg26 main_arg27 main_v118 main_v119

def fn_part5 {F : FTy → Type} [FloatOps F] (main_arg18 : FVec F S256 .f32) (main_arg19 : FVec F S256x256 .f32) (main_arg20 : FVec F S256 .f32) (main_arg21 : FVec F S256 .f32) (main_arg22 : FVec F S256x256 .f32) (main_arg23 : FVec F S256 .f32) (main_arg24 : FVec F S256 .f32) (main_arg25 : FVec F S260x256 .f32) (main_arg26 : FVec F S260 .f32) (main_arg27 : FVec F S260 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256 .f32 := Host.absf main_arg18
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x256 .f32 := Host.absf main_arg19
  let main_cst_36 : FVec F S_ .f32 := constant S_ .f32 0x7F800000#32
  let main_v95 : FVec F S256x256 .f32 := broadcastInDim S256x256 ![] bcast_S_S256x256 main_cst_36
  let main_v96 : IVec S256x256 1 := cmpf .olt main_v94 main_v95
  let main_c_37 : IVec S_ 1 := constantI S_ 1 1#1
  let main_v97 : IVec S_ 1 := (fun x v => Host.reduce IntOp.andi x v reducesTo_S256x256_S_d0_1 h_S_) main_v96 main_c_37
  let main_v98 : IVec S_ 1 := andi main_v93 main_v97
  let main_v99 : FVec F S256 .f32 := Host.absf main_arg20
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg21 main_arg22 main_arg23 main_arg24 main_arg25 main_arg26 main_arg27 main_v98 main_v101 main_c_39

def fn_part4 {F : FTy → Type} [FloatOps F] (main_arg14 : FVec F S256 .f32) (main_arg15 : FVec F S256 .f32) (main_arg16 : FVec F S256x256 .f32) (main_arg17 : FVec F S256 .f32) (main_arg18 : FVec F S256 .f32) (main_arg19 : FVec F S256x256 .f32) (main_arg20 : FVec F S256 .f32) (main_arg21 : FVec F S256 .f32) (main_arg22 : FVec F S256x256 .f32) (main_arg23 : FVec F S256 .f32) (main_arg24 : FVec F S256 .f32) (main_arg25 : FVec F S260x256 .f32) (main_arg26 : FVec F S260 .f32) (main_arg27 : FVec F S260 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg16
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_v83 main_v84 main_cst_32

def fn_part3 {F : FTy → Type} [FloatOps F] (main_arg11 : FVec F S217 .f32) (main_arg12 : FVec F S217 .f32) (main_arg13 : FVec F S256x256 .f32) (main_arg14 : FVec F S256 .f32) (main_arg15 : FVec F S256 .f32) (main_arg16 : FVec F S256x256 .f32) (main_arg17 : FVec F S256 .f32) (main_arg18 : FVec F S256 .f32) (main_arg19 : FVec F S256x256 .f32) (main_arg20 : FVec F S256 .f32) (main_arg21 : FVec F S256 .f32) (main_arg22 : FVec F S256x256 .f32) (main_arg23 : FVec F S256 .f32) (main_arg24 : FVec F S256 .f32) (main_arg25 : FVec F S260x256 .f32) (main_arg26 : FVec F S260 .f32) (main_arg27 : FVec F S260 .f32) (main_v48 : IVec S_ 1) (main_v49 : FVec F S217x256 .f32) (main_v50 : FVec F S217x256 .f32) : IVec S_ 1 :=
  let main_v51 : IVec S217x256 1 := cmpf .olt main_v49 main_v50
  let main_c_19 : IVec S_ 1 := constantI S_ 1 1#1
  let main_v52 : IVec S_ 1 := (fun x v => Host.reduce IntOp.andi x v reducesTo_S217x256_S_d0_1 h_S_) main_v51 main_c_19
  let main_v53 : IVec S_ 1 := andi main_v48 main_v52
  let main_v54 : FVec F S217 .f32 := Host.absf main_arg11
  let main_cst_20 : FVec F S_ .f32 := constant S_ .f32 0x7F800000#32
  let main_v55 : FVec F S217 .f32 := broadcastInDim S217 ![] bcast_S_S217 main_cst_20
  let main_v56 : IVec S217 1 := cmpf .olt main_v54 main_v55
  let main_c_21 : IVec S_ 1 := constantI S_ 1 1#1
  let main_v57 : IVec S_ 1 := (fun x v => Host.reduce IntOp.andi x v reducesTo_S217_S_d0 h_S_) main_v56 main_c_21
  let main_v58 : IVec S_ 1 := andi main_v53 main_v57
  let main_v59 : FVec F S217 .f32 := Host.absf main_arg12
  let main_cst_22 : FVec F S_ .f32 := constant S_ .f32 0x7F800000#32
  let main_v60 : FVec F S217 .f32 := broadcastInDim S217 ![] bcast_S_S217 main_cst_22
  let main_v61 : IVec S217 1 := cmpf .olt main_v59 main_v60
  let main_c_23 : IVec S_ 1 := constantI S_ 1 1#1
  let main_v62 : IVec S_ 1 := (fun x v => Host.reduce IntOp.andi x v reducesTo_S217_S_d0 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_arg15 main_arg16 main_arg17 main_arg18 main_arg19 main_arg20 main_arg21 main_arg22 main_arg23 main_arg24 main_arg25 main_arg26 main_arg27 main_v63 main_v67

def fn_part2 {F : FTy → Type} [FloatOps F] (main_arg7 : FVec F S256x256 .f32) (main_arg8 : FVec F S256 .f32) (main_arg9 : FVec F S256 .f32) (main_arg10 : FVec F S217x256 .f32) (main_arg11 : FVec F S217 .f32) (main_arg12 : FVec F S217 .f32) (main_arg13 : FVec F S256x256 .f32) (main_arg14 : FVec F S256 .f32) (main_arg15 : FVec F S256 .f32) (main_arg16 : FVec F S256x256 .f32) (main_arg17 : FVec F S256 .f32) (main_arg18 : FVec F S256 .f32) (main_arg19 : FVec F S256x256 .f32) (main_arg20 : FVec F S256 .f32) (main_arg21 : FVec F S256 .f32) (main_arg22 : FVec F S256x256 .f32) (main_arg23 : FVec F S256 .f32) (main_arg24 : FVec F S256 .f32) (main_arg25 : FVec F S260x256 .f32) (main_arg26 : FVec F S260 .f32) (main_arg27 : FVec F S260 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S217x256 .f32 := Host.absf main_arg10
  let main_cst_18 : FVec F S_ .f32 := constant S_ .f32 0x7F800000#32
  let main_v50 : FVec F S217x256 .f32 := broadcastInDim S217x256 ![] bcast_S_S217x256 main_cst_18
  fn_part3 (F := F) main_arg11 main_arg12 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg4 : FVec F S256x256 .f32) (main_arg5 : FVec F S256 .f32) (main_arg6 : FVec F S256 .f32) (main_arg7 : FVec F S256x256 .f32) (main_arg8 : FVec F S256 .f32) (main_arg9 : FVec F S256 .f32) (main_arg10 : FVec F S217x256 .f32) (main_arg11 : FVec F S217 .f32) (main_arg12 : FVec F S217 .f32) (main_arg13 : FVec F S256x256 .f32) (main_arg14 : FVec F S256 .f32) (main_arg15 : FVec F S256 .f32) (main_arg16 : FVec F S256x256 .f32) (main_arg17 : FVec F S256 .f32) (main_arg18 : FVec F S256 .f32) (main_arg19 : FVec F S256x256 .f32) (main_arg20 : FVec F S256 .f32) (main_arg21 : FVec F S256 .f32) (main_arg22 : FVec F S256x256 .f32) (main_arg23 : FVec F S256 .f32) (main_arg24 : FVec F S256 .f32) (main_arg25 : FVec F S260x256 .f32) (main_arg26 : FVec F S260 .f32) (main_arg27 : FVec F S260 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S131072x3 .f32) (main_arg1 : FVec F S256x39 .f32) (main_arg2 : FVec F S256 .f32) (main_arg3 : FVec F S256 .f32) (main_arg4 : FVec F S256x256 .f32) (main_arg5 : FVec F S256 .f32) (main_arg6 : FVec F S256 .f32) (main_arg7 : FVec F S256x256 .f32) (main_arg8 : FVec F S256 .f32) (main_arg9 : FVec F S256 .f32) (main_arg10 : FVec F S217x256 .f32) (main_arg11 : FVec F S217 .f32) (main_arg12 : FVec F S217 .f32) (main_arg13 : FVec F S256x256 .f32) (main_arg14 : FVec F S256 .f32) (main_arg15 : FVec F S256 .f32) (main_arg16 : FVec F S256x256 .f32) (main_arg17 : FVec F S256 .f32) (main_arg18 : FVec F S256 .f32) (main_arg19 : FVec F S256x256 .f32) (main_arg20 : FVec F S256 .f32) (main_arg21 : FVec F S256 .f32) (main_arg22 : FVec F S256x256 .f32) (main_arg23 : FVec F S256 .f32) (main_arg24 : FVec F S256 .f32) (main_arg25 : FVec F S260x256 .f32) (main_arg26 : FVec F S260 .f32) (main_arg27 : FVec F S260 .f32) : IVec S_ 1 :=
  let main_v0 : FVec F S131072x3 .f32 := Host.absf main_arg0
  let main_cst : FVec F S_ .f32 := constant S_ .f32 0x7F800000#32
  let main_v1 : FVec F S131072x3 .f32 := broadcastInDim S131072x3 ![] bcast_S_S131072x3 main_cst
  let main_v2 : IVec S131072x3 1 := cmpf .olt main_v0 main_v1
  let main_c : IVec S_ 1 := constantI S_ 1 1#1
  let main_v3 : IVec S_ 1 := (fun x v => Host.reduce IntOp.andi x v reducesTo_S131072x3_S_d0_1 h_S_) main_v2 main_c
  let main_v4 : FVec F S256x39 .f32 := Host.absf main_arg1
  let main_cst_0 : FVec F S_ .f32 := constant S_ .f32 0x7F800000#32
  let main_v5 : FVec F S256x39 .f32 := broadcastInDim S256x39 ![] bcast_S_S256x39 main_cst_0
  let main_v6 : IVec S256x39 1 := cmpf .olt main_v4 main_v5
  let main_c_1 : IVec S_ 1 := constantI S_ 1 1#1
  let main_v7 : IVec S_ 1 := (fun x v => Host.reduce IntOp.andi x v reducesTo_S256x39_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S131072x3 : Shape := ⟨2, ![131072, 3]⟩
abbrev S256x39 : Shape := ⟨2, ![256, 39]⟩
abbrev S256 : Shape := ⟨1, ![256]⟩
abbrev S256x256 : Shape := ⟨2, ![256, 256]⟩
abbrev S217x256 : Shape := ⟨2, ![217, 256]⟩
abbrev S217 : Shape := ⟨1, ![217]⟩
abbrev S260x256 : Shape := ⟨2, ![260, 256]⟩
abbrev S260 : Shape := ⟨1, ![260]⟩
abbrev S6 : Shape := ⟨1, ![6]⟩
abbrev S_ : Shape := ⟨0, ![]⟩
abbrev S131072x1x3 : Shape := ⟨3, ![131072, 1, 3]⟩
abbrev S1x6x1 : Shape := ⟨3, ![1, 6, 1]⟩
abbrev S131072x6x3 : Shape := ⟨3, ![131072, 6, 3]⟩
abbrev S131072x6x1x3 : Shape := ⟨4, ![131072, 6, 1, 3]⟩
abbrev S131072x6x2x3 : Shape := ⟨4, ![131072, 6, 2, 3]⟩
abbrev S131072x36 : Shape := ⟨2, ![131072, 36]⟩
abbrev S131072x39 : Shape := ⟨2, ![131072, 39]⟩
abbrev S256x1 : Shape := ⟨2, ![256, 1]⟩
abbrev S39x256 : Shape := ⟨2, ![39, 256]⟩
abbrev S1x256 : Shape := ⟨2, ![1, 256]⟩
abbrev S217x1 : Shape := ⟨2, ![217, 1]⟩
abbrev S256x217 : Shape := ⟨2, ![256, 217]⟩
abbrev S1x217 : Shape := ⟨2, ![1, 217]⟩
abbrev S260x1 : Shape := ⟨2, ![260, 1]⟩
abbrev S256x260 : Shape := ⟨2, ![256, 260]⟩
abbrev S1x260 : Shape := ⟨2, ![1, 260]⟩
abbrev S131072x260 : Shape := ⟨2, ![131072, 260]⟩
abbrev S4096x39 : Shape := ⟨2, ![4096, 39]⟩
abbrev S4096x260 : Shape := ⟨2, ![4096, 260]⟩
abbrev S4096x256 : Shape := ⟨2, ![4096, 256]⟩
abbrev S4096x217 : Shape := ⟨2, ![4096, 217]⟩

abbrev nBuf : Space → Nat
  | .hbm => 155
  | .vmem => 22
  | .smem => 0
  | _ => 0

abbrev hbmTy0_0 (i : Nat) : BufTy := match i % 128 with
  | 0 => ⟨S131072x3, .f32⟩
  | 1 => ⟨S256x39, .f32⟩
  | 2 => ⟨S256, .f32⟩
  | 3 => ⟨S256, .f32⟩
  | 4 => ⟨S256x256, .f32⟩
  | 5 => ⟨S256, .f32⟩
  | 6 => ⟨S256, .f32⟩
  | 7 => ⟨S256x256, .f32⟩
  | 8 => ⟨S256, .f32⟩
  | 9 => ⟨S256, .f32⟩
  | 10 => ⟨S217x256, .f32⟩
  | 11 => ⟨S217, .f32⟩
  | 12 => ⟨S217, .f32⟩
  | 13 => ⟨S256x256, .f32⟩
  | 14 => ⟨S256, .f32⟩
  | 15 => ⟨S256, .f32⟩
  | 16 => ⟨S256x256, .f32⟩
  | 17 => ⟨S256, .f32⟩
  | 18 => ⟨S256, .f32⟩
  | 19 => ⟨S256x256, .f32⟩
  | 20 => ⟨S256, .f32⟩
  | 21 => ⟨S256, .f32⟩
  | 22 => ⟨S256x256, .f32⟩
  | 23 => ⟨S256, .f32⟩
  | 24 => ⟨S256, .f32⟩
  | 25 => ⟨S260x256, .f32⟩
  | 26 => ⟨S260, .f32⟩
  | 27 => ⟨S260, .f32⟩
  | 28 => ⟨S6, .i32⟩
  | 29 => ⟨S6, .f32⟩
  | 30 => ⟨S_, .f32⟩
  | 31 => ⟨S6, .f32⟩
  | 32 => ⟨S6, .f32⟩
  | 33 => ⟨S6, .f32⟩
  | 34 => ⟨S131072x1x3, .f32⟩
  | 35 => ⟨S1x6x1, .f32⟩
  | 36 => ⟨S131072x6x3, .f32⟩
  | 37 => ⟨S131072x6x3, .f32⟩
  | 38 => ⟨S131072x6x3, .f32⟩
  | 39 => ⟨S131072x6x3, .f32⟩
  | 40 => ⟨S131072x6x3, .f32⟩
  | 41 => ⟨S131072x6x1x3, .f32⟩
  | 42 => ⟨S131072x6x1x3, .f32⟩
  | 43 => ⟨S131072x6x2x3, .f32⟩
  | 44 => ⟨S131072x36, .f32⟩
  | 45 => ⟨S131072x39, .f32⟩
  | 46 => ⟨S256x1, .f32⟩
  | 47 => ⟨S256x39, .f32⟩
  | 48 => ⟨S_, .f32⟩
  | 49 => ⟨S256, .f32⟩
  | 50 => ⟨S256x1, .f32⟩
  | 51 => ⟨S256x1, .f32⟩
  | 52 => ⟨S256x1, .f32⟩
  | 53 => ⟨S256x39, .f32⟩
  | 54 => ⟨S256x39, .f32⟩
  | 55 => ⟨S39x256, .f32⟩
  | 56 => ⟨S39x256, .bf16⟩
  | 57 => ⟨S1x256, .f32⟩
  | 58 => ⟨S256x1, .f32⟩
  | 59 => ⟨S256x256, .f32⟩
  | 60 => ⟨S_, .f32⟩
  | 61 => ⟨S256, .f32⟩
  | 62 => ⟨S256x1, .f32⟩
  | 63 => ⟨S256x1, .f32⟩
  | 64 => ⟨S256x1, .f32⟩
  | 65 => ⟨S256x256, .f32⟩
  | 66 => ⟨S256x256, .f32⟩
  | 67 => ⟨S256x256, .f32⟩
  | 68 => ⟨S256x256, .bf16⟩
  | 69 => ⟨S1x256, .f32⟩
  | 70 => ⟨S256x1, .f32⟩
  | 71 => ⟨S256x256, .f32⟩
  | 72 => ⟨S_, .f32⟩
  | 73 => ⟨S256, .f32⟩
  | 74 => ⟨S256x1, .f32⟩
  | 75 => ⟨S256x1, .f32⟩
  | 76 => ⟨S256x1, .f32⟩
  | 77 => ⟨S256x256, .f32⟩
  | 78 => ⟨S256x256, .f32⟩
  | 79 => ⟨S256x256, .f32⟩
  | 80 => ⟨S256x256, .bf16⟩
  | 81 => ⟨S1x256, .f32⟩
  | 82 => ⟨S217x1, .f32⟩
  | 83 => ⟨S217x256, .f32⟩
  | 84 => ⟨S_, .f32⟩
  | 85 => ⟨S217, .f32⟩
  | 86 => ⟨S217x1, .f32⟩
  | 87 => ⟨S217x1, .f32⟩
  | 88 => ⟨S217x1, .f32⟩
  | 89 => ⟨S217x256, .f32⟩
  | 90 => ⟨S217x256, .f32⟩
  | 91 => ⟨S256x217, .f32⟩
  | 92 => ⟨S256x217, .bf16⟩
  | 93 => ⟨S1x217, .f32⟩
  | 94 => ⟨S256x1, .f32⟩
  | 95 => ⟨S256x256, .f32⟩
  | 96 => ⟨S_, .f32⟩
  | 97 => ⟨S256, .f32⟩
  | 98 => ⟨S256x1, .f32⟩
  | 99 => ⟨S256x1, .f32⟩
  | 100 => ⟨S256x1, .f32⟩
  | 101 => ⟨S256x256, .f32⟩
  | 102 => ⟨S256x256, .f32⟩
  | 103 => ⟨S256x256, .f32⟩
  | 104 => ⟨S256x256, .bf16⟩
  | 105 => ⟨S1x256, .f32⟩
  | 106 => ⟨S256x1, .f32⟩
  | 107 => ⟨S256x256, .f32⟩
  | 108 => ⟨S_, .f32⟩
  | 109 => ⟨S256, .f32⟩
  | 110 => ⟨S256x1, .f32⟩
  | 111 => ⟨S256x1, .f32⟩
  | 112 => ⟨S256x1, .f32⟩
  | 113 => ⟨S256x256, .f32⟩
  | 114 => ⟨S256x256, .f32⟩
  | 115 => ⟨S256x256, .f32⟩
  | 116 => ⟨S256x256, .bf16⟩
  | 117 => ⟨S1x256, .f32⟩
  | 118 => ⟨S256x1, .f32⟩
  | 119 => ⟨S256x256, .f32⟩
  | 120 => ⟨S_, .f32⟩
  | 121 => ⟨S256, .f32⟩
  | 122 => ⟨S256x1, .f32⟩
  | 123 => ⟨S256x1, .f32⟩
  | 124 => ⟨S256x1, .f32⟩
  | 125 => ⟨S256x256, .f32⟩
  | 126 => ⟨S256x256, .f32⟩
  | 127 => ⟨S256x256, .f32⟩
  | _ => ⟨S131072x3, .f32⟩

abbrev hbmTy0_1 (i : Nat) : BufTy := match i % 128 with
  | 0 => ⟨S256x256, .bf16⟩
  | 1 => ⟨S1x256, .f32⟩
  | 2 => ⟨S256x1, .f32⟩
  | 3 => ⟨S256x256, .f32⟩
  | 4 => ⟨S_, .f32⟩
  | 5 => ⟨S256, .f32⟩
  | 6 => ⟨S256x1, .f32⟩
  | 7 => ⟨S256x1, .f32⟩
  | 8 => ⟨S256x1, .f32⟩
  | 9 => ⟨S256x256, .f32⟩
  | 10 => ⟨S256x256, .f32⟩
  | 11 => ⟨S256x256, .f32⟩
  | 12 => ⟨S256x256, .bf16⟩
  | 13 => ⟨S1x256, .f32⟩
  | 14 => ⟨S260x1, .f32⟩
  | 15 => ⟨S260x256, .f32⟩
  | 16 => ⟨S_, .f32⟩
  | 17 => ⟨S260, .f32⟩
  | 18 => ⟨S260x1, .f32⟩
  | 19 => ⟨S260x1, .f32⟩
  | 20 => ⟨S260x1, .f32⟩
  | 21 => ⟨S260x256, .f32⟩
  | 22 => ⟨S260x256, .f32⟩
  | 23 => ⟨S256x260, .f32⟩
  | 24 => ⟨S256x260, .bf16⟩
  | 25 => ⟨S1x260, .f32⟩
  | 26 => ⟨S131072x260, .f32⟩
  | _ => ⟨S131072x3, .f32⟩

abbrev hbmTy (i : Nat) : BufTy := match i / 128 with
  | 0 => hbmTy0_0 i
  | 1 => hbmTy0_1 i
  | _ => ⟨S131072x3, .f32⟩

abbrev bufTy : (tb : Table) → Fin (tcTables nBuf tb) → BufTy
  | .hbm, ⟨i, _⟩ => hbmTy i
  | .local _ .vmem, ⟨0, _⟩ => ⟨S4096x39, .f32⟩
  | .local _ .vmem, ⟨1, _⟩ => ⟨S4096x39, .f32⟩
  | .local _ .vmem, ⟨2, _⟩ => ⟨S39x256, .bf16⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S256x217, .bf16⟩
  | .local _ .vmem, ⟨9, _⟩ => ⟨S1x217, .f32⟩
  | .local _ .vmem, ⟨10, _⟩ => ⟨S256x256, .bf16⟩
  | .local _ .vmem, ⟨11, _⟩ => ⟨S1x256, .f32⟩
  | .local _ .vmem, ⟨12, _⟩ => ⟨S256x256, .bf16⟩
  | .local _ .vmem, ⟨13, _⟩ => ⟨S1x256, .f32⟩
  | .local _ .vmem, ⟨14, _⟩ => ⟨S256x256, .bf16⟩
  | .local _ .vmem, ⟨15, _⟩ => ⟨S1x256, .f32⟩
  | .local _ .vmem, ⟨16, _⟩ => ⟨S256x256, .bf16⟩
  | .local _ .vmem, ⟨17, _⟩ => ⟨S1x256, .f32⟩
  | .local _ .vmem, ⟨18, _⟩ => ⟨S256x260, .bf16⟩
  | .local _ .vmem, ⟨19, _⟩ => ⟨S1x260, .f32⟩
  | .local _ .vmem, ⟨20, _⟩ => ⟨S4096x260, .f32⟩
  | .local _ .vmem, ⟨21, _⟩ => ⟨S4096x260, .f32⟩
  | _, _ => ⟨S131072x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_cst : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_call0_v0 : Ref sig .tc := ⟨.hbm, 47, rfl⟩
abbrev main_call0_cst : Ref sig .tc := ⟨.hbm, 48, rfl⟩
abbrev main_call0_v1 : Ref sig .tc := ⟨.hbm, 49, rfl⟩
abbrev main_call0_v2 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_call1_v0 : Ref sig .tc := ⟨.hbm, 59, rfl⟩
abbrev main_call1_cst : Ref sig .tc := ⟨.hbm, 60, rfl⟩
abbrev main_call1_v1 : Ref sig .tc := ⟨.hbm, 61, rfl⟩
abbrev main_call1_v2 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_call2_v0 : Ref sig .tc := ⟨.hbm, 71, rfl⟩
abbrev main_call2_cst : Ref sig .tc := ⟨.hbm, 72, rfl⟩
abbrev main_call2_v1 : Ref sig .tc := ⟨.hbm, 73, rfl⟩
abbrev main_call2_v2 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_call3_v0 : Ref sig .tc := ⟨.hbm, 83, rfl⟩
abbrev main_call3_cst : Ref sig .tc := ⟨.hbm, 84, rfl⟩
abbrev main_call3_v1 : Ref sig .tc := ⟨.hbm, 85, rfl⟩
abbrev main_call3_v2 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_call4_v0 : Ref sig .tc := ⟨.hbm, 95, rfl⟩
abbrev main_call4_cst : Ref sig .tc := ⟨.hbm, 96, rfl⟩
abbrev main_call4_v1 : Ref sig .tc := ⟨.hbm, 97, rfl⟩
abbrev main_call4_v2 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_call5_v0 : Ref sig .tc := ⟨.hbm, 107, rfl⟩
abbrev main_call5_cst : Ref sig .tc := ⟨.hbm, 108, rfl⟩
abbrev main_call5_v1 : Ref sig .tc := ⟨.hbm, 109, rfl⟩
abbrev main_call5_v2 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_call6_v0 : Ref sig .tc := ⟨.hbm, 119, rfl⟩
abbrev main_call6_cst : Ref sig .tc := ⟨.hbm, 120, rfl⟩
abbrev main_call6_v1 : Ref sig .tc := ⟨.hbm, 121, rfl⟩
abbrev main_call6_v2 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_call7_v0 : Ref sig .tc := ⟨.hbm, 131, rfl⟩
abbrev main_call7_cst : Ref sig .tc := ⟨.hbm, 132, rfl⟩
abbrev main_call7_v1 : Ref sig .tc := ⟨.hbm, 133, rfl⟩
abbrev main_call7_v2 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_call8_v0 : Ref sig .tc := ⟨.hbm, 143, rfl⟩
abbrev main_call8_cst : Ref sig .tc := ⟨.hbm, 144, rfl⟩
abbrev main_call8_v1 : Ref sig .tc := ⟨.hbm, 145, rfl⟩
abbrev main_call8_v2 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg19_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem19_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x39 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S39x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x217 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x217 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x260 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x260 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S4096x260 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  bcast_S_S6 : S_.BroadcastsInDim S6 (![] : Fin 0 → Fin S6.rank)
  bcast_S131072x3_S131072x1x3_0_2 : S131072x3.BroadcastsInDim S131072x1x3 (![0, 2] : Fin 2 → Fin S131072x1x3.rank)
  bcast_S6_S1x6x1_1 : S6.BroadcastsInDim S1x6x1 (![1] : Fin 1 → Fin S1x6x1.rank)
  bcast_S131072x1x3_S131072x6x3_0_1_2 : S131072x1x3.BroadcastsInDim S131072x6x3 (![0, 1, 2] : Fin 3 → Fin S131072x6x3.rank)
  bcast_S1x6x1_S131072x6x3_0_1_2 : S1x6x1.BroadcastsInDim S131072x6x3 (![0, 1, 2] : Fin 3 → Fin S131072x6x3.rank)
  bcast_S131072x6x3_S131072x6x1x3_0_1_3 : S131072x6x3.BroadcastsInDim S131072x6x1x3 (![0, 1, 3] : Fin 3 → Fin S131072x6x1x3.rank)
  concatenates_S131072x6x1x3_S131072x6x1x3_S131072x6x2x3_d2 : Shape.Concatenates [S131072x6x1x3, S131072x6x1x3] S131072x6x2x3 2
  shapeCasts_S131072x6x2x3_S131072x36 : S131072x6x2x3.ShapeCasts S131072x36
  concatenates_S131072x3_S131072x36_S131072x39_d1 : Shape.Concatenates [S131072x3, S131072x36] S131072x39 1
  bcast_S256_S256x1_0 : S256.BroadcastsInDim S256x1 (![0] : Fin 1 → Fin S256x1.rank)
  reducesTo_S256x39_S256_d1 : S256x39.ReducesTo [1] S256
  h_S_ : 0 < S_.numel
  bcast_S256x1_S256x39_0_1 : S256x1.BroadcastsInDim S256x39 (![0, 1] : Fin 2 → Fin S256x39.rank)
  transposes_S256x39_S39x256_1_0 : S256x39.Transposes [1, 0] S39x256
  bitsLt_bf16_f32 : FTy.bits .bf16 < FTy.bits .f32
  shapeCasts_S256_S1x256 : S256.ShapeCasts S1x256
  reducesTo_S256x256_S256_d1 : S256x256.ReducesTo [1] S256
  bcast_S256x1_S256x256_0_1 : S256x1.BroadcastsInDim S256x256 (![0, 1] : Fin 2 → Fin S256x256.rank)
  transposes_S256x256_S256x256_1_0 : S256x256.Transposes [1, 0] S256x256
  bcast_S217_S217x1_0 : S217.BroadcastsInDim S217x1 (![0] : Fin 1 → Fin S217x1.rank)
  reducesTo_S217x256_S217_d1 : S217x256.ReducesTo [1] S217
  bcast_S217x1_S217x256_0_1 : S217x1.BroadcastsInDim S217x256 (![0, 1] : Fin 2 → Fin S217x256.rank)
  transposes_S217x256_S256x217_1_0 : S217x256.Transposes [1, 0] S256x217
  shapeCasts_S217_S1x217 : S217.ShapeCasts S1x217
  bcast_S260_S260x1_0 : S260.BroadcastsInDim S260x1 (![0] : Fin 1 → Fin S260x1.rank)
  reducesTo_S260x256_S260_d1 : S260x256.ReducesTo [1] S260
  bcast_S260x1_S260x256_0_1 : S260x1.BroadcastsInDim S260x256 (![0, 1] : Fin 2 → Fin S260x256.rank)
  transposes_S260x256_S256x260_1_0 : S260x256.Transposes [1, 0] S256x260
  shapeCasts_S260_S1x260 : S260.ShapeCasts S1x260
  inb_S4096x39_S4096x39_0_0 : ∀ a, (![0, 0] : Fin 2 → Nat) a + S4096x39.size a ≤ S4096x39.size a
  h_S4096x39 : 0 < S4096x39.numel
  shapeCasts_S4096x39_S4096x39 : S4096x39.ShapeCasts S4096x39
  inb_S39x256_S39x256_0_0 : ∀ a, (![0, 0] : Fin 2 → Nat) a + S39x256.size a ≤ S39x256.size a
  h_S39x256 : 0 < S39x256.numel
  shapeCasts_S39x256_S39x256 : S39x256.ShapeCasts S39x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x217_S256x217_0_0 : ∀ a, (![0, 0] : Fin 2 → Nat) a + S256x217.size a ≤ S256x217.size a
  h_S256x217 : 0 < S256x217.numel
  shapeCasts_S256x217_S256x217 : S256x217.ShapeCasts S256x217
  inb_S1x217_S1x217_0_0 : ∀ a, (![0, 0] : Fin 2 → Nat) a + S1x217.size a ≤ S1x217.size a
  h_S1x217 : 0 < S1x217.numel
  shapeCasts_S1x217_S1x217 : S1x217.ShapeCasts S1x217
  broadcasts_S1x217_S4096x217 : S1x217.Broadcasts S4096x217
  concatenates_S4096x217_S4096x39_S4096x256_d1 : Shape.Concatenates [S4096x217, S4096x39] S4096x256 1
  inb_S256x260_S256x260_0_0 : ∀ a, (![0, 0] : Fin 2 → Nat) a + S256x260.size a ≤ S256x260.size a
  h_S256x260 : 0 < S256x260.numel
  shapeCasts_S256x260_S256x260 : S256x260.ShapeCasts S256x260
  inb_S1x260_S1x260_0_0 : ∀ a, (![0, 0] : Fin 2 → Nat) a + S1x260.size a ≤ S1x260.size a
  h_S1x260 : 0 < S1x260.numel
  shapeCasts_S1x260_S1x260 : S1x260.ShapeCasts S1x260
  broadcasts_S1x260_S4096x260 : S1x260.Broadcasts S4096x260
  inb_S4096x260_S4096x260_0_0 : ∀ a, (![0, 0] : Fin 2 → Nat) a + S4096x260.size a ≤ S4096x260.size a
  h_S4096x260 : 0 < S4096x260.numel
  dot_S4096x39_S39x256_S4096x256_1_0_0_1_n_n_wf : DotDims.WF S4096x39 S39x256 S4096x256 [1] [0] [0] [1] [] []
  dot_S4096x256_S256x256_S4096x256_1_0_0_1_n_n_wf : DotDims.WF S4096x256 S256x256 S4096x256 [1] [0] [0] [1] [] []
  dot_S4096x256_S256x217_S4096x217_1_0_0_1_n_n_wf : DotDims.WF S4096x256 S256x217 S4096x217 [1] [0] [0] [1] [] []
  dot_S4096x256_S256x260_S4096x260_1_0_0_1_n_n_wf : DotDims.WF S4096x256 S256x260 S4096x260 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x39.size a ≤ S131072x39.size a
  hwx0_0 : ∀ i : grid0.Coords, EltTy.bits .f32 = 32 ∨ (Rect.block (s := S131072x39) S4096x39.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S39x256.size a ≤ S39x256.size a
  hwx0_1 : ∀ i : grid0.Coords, EltTy.bits .bf16 = 32 ∨ (Rect.block (s := S39x256) S39x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x217.size a ≤ S256x217.size a
  hwx0_7 : ∀ i : grid0.Coords, EltTy.bits .bf16 = 32 ∨ (Rect.block (s := S256x217) S256x217.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x217.size a ≤ S1x217.size a
  hwx0_8 : ∀ i : grid0.Coords, EltTy.bits .f32 = 32 ∨ (Rect.block (s := S1x217) S1x217.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .bf16 = 32 ∨ (Rect.block (s := S256x256) S256x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S256x256.size a
  hwx0_13 : ∀ i : grid0.Coords, EltTy.bits .bf16 = 32 ∨ (Rect.block (s := S256x256) S256x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x256.size a ≤ S256x256.size a
  hwx0_15 : ∀ i : grid0.Coords, EltTy.bits .bf16 = 32 ∨ (Rect.block (s := S256x256) S256x256.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x256.size a ≤ S1x256.size a
  hwx0_16 : ∀ i : grid0.Coords, EltTy.bits .f32 = 32 ∨ (Rect.block (s := S1x256) S1x256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256x260.size a ≤ S256x260.size a
  hwx0_17 : ∀ i : grid0.Coords, EltTy.bits .bf16 = 32 ∨ (Rect.block (s := S256x260) S256x260.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x260.size a ≤ S1x260.size a
  hwx0_18 : ∀ i : grid0.Coords, EltTy.bits .f32 = 32 ∨ (Rect.block (s := S1x260) S1x260.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S4096x260.size a ≤ S131072x260.size a
  hwx0_19 : ∀ i : grid0.Coords, EltTy.bits .f32 = 32 ∨ (Rect.block (s := S131072x260) S4096x260.size (cc0_transform_19 i) (hinb0_19 i)).WholeWords (EltTy.packing .f32)

variable [Facts₀]

def dot_S4096x39_S39x256_S4096x256_1_0_0_1_n_n : DotDims S4096x39 S39x256 S4096x256 where
  lhsContracting := [1]
  rhsContracting := [0]
  lhsNonContracting := [0]
  rhsNonContracting := [1]
  lhsBatch := []
  rhsBatch := []
  wf := dot_S4096x39_S39x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x217_S4096x217_1_0_0_1_n_n : DotDims S4096x256 S256x217 S4096x217 where
  lhsContracting := [1]
  rhsContracting := [0]
  lhsNonContracting := [0]
  rhsNonContracting := [1]
  lhsBatch := []
  rhsBatch := []
  wf := dot_S4096x256_S256x217_S4096x217_1_0_0_1_n_n_wf
def dot_S4096x256_S256x260_S4096x260_1_0_0_1_n_n : DotDims S4096x256 S256x260 S4096x260 where
  lhsContracting := [1]
  rhsContracting := [0]
  lhsNonContracting := [0]
  rhsNonContracting := [1]
  lhsBatch := []
  rhsBatch := []
  wf := dot_S4096x256_S256x260_S4096x260_1_0_0_1_n_n_wf

abbrev win0_0 : Pipeline.Window sig grid0 :=
  Pipeline.Window.ofSpec (Memref.whole main_v16) S4096x39.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S39x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v47) S256x217.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v48) S1x217.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v55) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v56) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v63) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v64) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v71) S256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v72) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v79) S256x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v80) S1x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v87) S256x260.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v88) S1x260.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v89) S4096x260.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S131072x3 : Shape := ⟨2, ![131072, 3]⟩
abbrev S256x39 : Shape := ⟨2, ![256, 39]⟩
abbrev S256 : Shape := ⟨1, ![256]⟩
abbrev S256x256 : Shape := ⟨2, ![256, 256]⟩
abbrev S217x256 : Shape := ⟨2, ![217, 256]⟩
abbrev S217 : Shape := ⟨1, ![217]⟩
abbrev S260x256 : Shape := ⟨2, ![260, 256]⟩
abbrev S260 : Shape := ⟨1, ![260]⟩
abbrev S6 : Shape := ⟨1, ![6]⟩
abbrev S_ : Shape := ⟨0, ![]⟩
abbrev S131072x1x3 : Shape := ⟨3, ![131072, 1, 3]⟩
abbrev S1x6x1 : Shape := ⟨3, ![1, 6, 1]⟩
abbrev S131072x6x3 : Shape := ⟨3, ![131072, 6, 3]⟩
abbrev S131072x6x1x3 : Shape := ⟨4, ![131072, 6, 1, 3]⟩
abbrev S131072x6x2x3 : Shape := ⟨4, ![131072, 6, 2, 3]⟩
abbrev S131072x36 : Shape := ⟨2, ![131072, 36]⟩
abbrev S131072x39 : Shape := ⟨2, ![131072, 39]⟩
abbrev S256x1 : Shape := ⟨2, ![256, 1]⟩
abbrev S39x256 : Shape := ⟨2, ![39, 256]⟩
abbrev S131072x256 : Shape := ⟨2, ![131072, 256]⟩
abbrev S1x256 : Shape := ⟨2, ![1, 256]⟩
abbrev S217x1 : Shape := ⟨2, ![217, 1]⟩
abbrev S256x217 : Shape := ⟨2, ![256, 217]⟩
abbrev S131072x217 : Shape := ⟨2, ![131072, 217]⟩
abbrev S1x217 : Shape := ⟨2, ![1, 217]⟩
abbrev S260x1 : Shape := ⟨2, ![260, 1]⟩
abbrev S256x260 : Shape := ⟨2, ![256, 260]⟩
abbrev S131072x260 : Shape := ⟨2, ![131072, 260]⟩
abbrev S1x260 : Shape := ⟨2, ![1, 260]⟩

abbrev nBuf : Space → Nat
  | .hbm => 296
  | .vmem => 0
  | .smem => 0
  | _ => 0

abbrev hbmTy0_0 (i : Nat) : BufTy := match i % 128 with
  | 0 => ⟨S131072x3, .f32⟩
  | 1 => ⟨S256x39, .f32⟩
  | 2 => ⟨S256, .f32⟩
  | 3 => ⟨S256, .f32⟩
  | 4 => ⟨S256x256, .f32⟩
  | 5 => ⟨S256, .f32⟩
  | 6 => ⟨S256, .f32⟩
  | 7 => ⟨S256x256, .f32⟩
  | 8 => ⟨S256, .f32⟩
  | 9 => ⟨S256, .f32⟩
  | 10 => ⟨S217x256, .f32⟩
  | 11 => ⟨S217, .f32⟩
  | 12 => ⟨S217, .f32⟩
  | 13 => ⟨S256x256, .f32⟩
  | 14 => ⟨S256, .f32⟩
  | 15 => ⟨S256, .f32⟩
  | 16 => ⟨S256x256, .f32⟩
  | 17 => ⟨S256, .f32⟩
  | 18 => ⟨S256, .f32⟩
  | 19 => ⟨S256x256, .f32⟩
  | 20 => ⟨S256, .f32⟩
  | 21 => ⟨S256, .f32⟩
  | 22 => ⟨S256x256, .f32⟩
  | 23 => ⟨S256, .f32⟩
  | 24 => ⟨S256, .f32⟩
  | 25 => ⟨S260x256, .f32⟩
  | 26 => ⟨S260, .f32⟩
  | 27 => ⟨S260, .f32⟩
  | 28 => ⟨S6, .i32⟩
  | 29 => ⟨S6, .f32⟩
  | 30 => ⟨S_, .f32⟩
  | 31 => ⟨S6, .f32⟩
  | 32 => ⟨S6, .f32⟩
  | 33 => ⟨S6, .f32⟩
  | 34 => ⟨S131072x1x3, .f32⟩
  | 35 => ⟨S1x6x1, .f32⟩
  | 36 => ⟨S131072x6x3, .f32⟩
  | 37 => ⟨S131072x6x3, .f32⟩
  | 38 => ⟨S131072x6x3, .f32⟩
  | 39 => ⟨S131072x6x3, .f32⟩
  | 40 => ⟨S131072x6x3, .f32⟩
  | 41 => ⟨S131072x6x1x3, .f32⟩
  | 42 => ⟨S131072x6x1x3, .f32⟩
  | 43 => ⟨S131072x6x2x3, .f32⟩
  | 44 => ⟨S131072x36, .f32⟩
  | 45 => ⟨S131072x39, .f32⟩
  | 46 => ⟨S256x1, .f32⟩
  | 47 => ⟨S256x39, .f32⟩
  | 48 => ⟨S_, .f32⟩
  | 49 => ⟨S256, .f32⟩
  | 50 => ⟨S256x1, .f32⟩
  | 51 => ⟨S256x1, .f32⟩
  | 52 => ⟨S256x1, .f32⟩
  | 53 => ⟨S256x39, .f32⟩
  | 54 => ⟨S256x39, .f32⟩
  | 55 => ⟨S39x256, .f32⟩
  | 56 => ⟨S131072x256, .f32⟩
  | 57 => ⟨S1x256, .f32⟩
  | 58 => ⟨S131072x256, .f32⟩
  | 59 => ⟨S131072x256, .f32⟩
  | 60 => ⟨S_, .f32⟩
  | 61 => ⟨S131072x256, .f32⟩
  | 62 => ⟨S131072x256, .f32⟩
  | 63 => ⟨S_, .f32⟩
  | 64 => ⟨S131072x256, .f32⟩
  | 65 => ⟨S131072x256, .i1⟩
  | 66 => ⟨S_, .f32⟩
  | 67 => ⟨S131072x256, .f32⟩
  | 68 => ⟨S131072x256, .f32⟩
  | 69 => ⟨S131072x256, .f32⟩
  | 70 => ⟨S131072x256, .f32⟩
  | 71 => ⟨S_, .f32⟩
  | 72 => ⟨S131072x256, .f32⟩
  | 73 => ⟨S131072x256, .f32⟩
  | 74 => ⟨S131072x256, .f32⟩
  | 75 => ⟨S256x1, .f32⟩
  | 76 => ⟨S256x256, .f32⟩
  | 77 => ⟨S_, .f32⟩
  | 78 => ⟨S256, .f32⟩
  | 79 => ⟨S256x1, .f32⟩
  | 80 => ⟨S256x1, .f32⟩
  | 81 => ⟨S256x1, .f32⟩
  | 82 => ⟨S256x256, .f32⟩
  | 83 => ⟨S256x256, .f32⟩
  | 84 => ⟨S256x256, .f32⟩
  | 85 => ⟨S131072x256, .f32⟩
  | 86 => ⟨S1x256, .f32⟩
  | 87 => ⟨S131072x256, .f32⟩
  | 88 => ⟨S131072x256, .f32⟩
  | 89 => ⟨S_, .f32⟩
  | 90 => ⟨S131072x256, .f32⟩
  | 91 => ⟨S131072x256, .f32⟩
  | 92 => ⟨S_, .f32⟩
  | 93 => ⟨S131072x256, .f32⟩
  | 94 => ⟨S131072x256, .i1⟩
  | 95 => ⟨S_, .f32⟩
  | 96 => ⟨S131072x256, .f32⟩
  | 97 => ⟨S131072x256, .f32⟩
  | 98 => ⟨S131072x256, .f32⟩
  | 99 => ⟨S131072x256, .f32⟩
  | 100 => ⟨S_, .f32⟩
  | 101 => ⟨S131072x256, .f32⟩
  | 102 => ⟨S131072x256, .f32⟩
  | 103 => ⟨S131072x256, .f32⟩
  | 104 => ⟨S256x1, .f32⟩
  | 105 => ⟨S256x256, .f32⟩
  | 106 => ⟨S_, .f32⟩
  | 107 => ⟨S256, .f32⟩
  | 108 => ⟨S256x1, .f32⟩
  | 109 => ⟨S256x1, .f32⟩
  | 110 => ⟨S256x1, .f32⟩
  | 111 => ⟨S256x256, .f32⟩
  | 112 => ⟨S256x256, .f32⟩
  | 113 => ⟨S256x256, .f32⟩
  | 114 => ⟨S131072x256, .f32⟩
  | 115 => ⟨S1x256, .f32⟩
  | 116 => ⟨S131072x256, .f32⟩
  | 117 => ⟨S131072x256, .f32⟩
  | 118 => ⟨S_, .f32⟩
  | 119 => ⟨S131072x256, .f32⟩
  | 120 => ⟨S131072x256, .f32⟩
  | 121 => ⟨S_, .f32⟩
  | 122 => ⟨S131072x256, .f32⟩
  | 123 => ⟨S131072x256, .i1⟩
  | 124 => ⟨S_, .f32⟩
  | 125 => ⟨S131072x256, .f32⟩
  | 126 => ⟨S131072x256, .f32⟩
  | 127 => ⟨S131072x256, .f32⟩
  | _ => ⟨S131072x3, .f32⟩

abbrev hbmTy0_1 (i : Nat) : BufTy := match i % 128 with
  | 0 => ⟨S131072x256, .f32⟩
  | 1 => ⟨S_, .f32⟩
  | 2 => ⟨S131072x256, .f32⟩
  | 3 => ⟨S131072x256, .f32⟩
  | 4 => ⟨S131072x256, .f32⟩
  | 5 => ⟨S217x1, .f32⟩
  | 6 => ⟨S217x256, .f32⟩
  | 7 => ⟨S_, .f32⟩
  | 8 => ⟨S217, .f32⟩
  | 9 => ⟨S217x1, .f32⟩
  | 10 => ⟨S217x1, .f32⟩
  | 11 => ⟨S217x1, .f32⟩
  | 12 => ⟨S217x256, .f32⟩
  | 13 => ⟨S217x256, .f32⟩
  | 14 => ⟨S256x217, .f32⟩
  | 15 => ⟨S131072x217, .f32⟩
  | 16 => ⟨S1x217, .f32⟩
  | 17 => ⟨S131072x217, .f32⟩
  | 18 => ⟨S131072x217, .f32⟩
  | 19 => ⟨S_, .f32⟩
  | 20 => ⟨S131072x217, .f32⟩
  | 21 => ⟨S131072x217, .f32⟩
  | 22 => ⟨S_, .f32⟩
  | 23 => ⟨S131072x217, .f32⟩
  | 24 => ⟨S131072x217, .i1⟩
  | 25 => ⟨S_, .f32⟩
  | 26 => ⟨S131072x217, .f32⟩
  | 27 => ⟨S131072x217, .f32⟩
  | 28 => ⟨S131072x217, .f32⟩
  | 29 => ⟨S131072x217, .f32⟩
  | 30 => ⟨S_, .f32⟩
  | 31 => ⟨S131072x217, .f32⟩
  | 32 => ⟨S131072x217, .f32⟩
  | 33 => ⟨S131072x217, .f32⟩
  | 34 => ⟨S131072x256, .f32⟩
  | 35 => ⟨S_, .f32⟩
  | 36 => ⟨S131072x256, .f32⟩
  | 37 => ⟨S131072x256, .f32⟩
  | 38 => ⟨S256x1, .f32⟩
  | 39 => ⟨S256x256, .f32⟩
  | 40 => ⟨S_, .f32⟩
  | 41 => ⟨S256, .f32⟩
  | 42 => ⟨S256x1, .f32⟩
  | 43 => ⟨S256x1, .f32⟩
  | 44 => ⟨S256x1, .f32⟩
  | 45 => ⟨S256x256, .f32⟩
  | 46 => ⟨S256x256, .f32⟩
  | 47 => ⟨S256x256, .f32⟩
  | 48 => ⟨S131072x256, .f32⟩
  | 49 => ⟨S1x256, .f32⟩
  | 50 => ⟨S131072x256, .f32⟩
  | 51 => ⟨S131072x256, .f32⟩
  | 52 => ⟨S_, .f32⟩
  | 53 => ⟨S131072x256, .f32⟩
  | 54 => ⟨S131072x256, .f32⟩
  | 55 => ⟨S_, .f32⟩
  | 56 => ⟨S131072x256, .f32⟩
  | 57 => ⟨S131072x256, .i1⟩
  | 58 => ⟨S_, .f32⟩
  | 59 => ⟨S131072x256, .f32⟩
  | 60 => ⟨S131072x256, .f32⟩
  | 61 => ⟨S131072x256, .f32⟩
  | 62 => ⟨S131072x256, .f32⟩
  | 63 => ⟨S_, .f32⟩
  | 64 => ⟨S131072x256, .f32⟩
  | 65 => ⟨S131072x256, .f32⟩
  | 66 => ⟨S131072x256, .f32⟩
  | 67 => ⟨S256x1, .f32⟩
  | 68 => ⟨S256x256, .f32⟩
  | 69 => ⟨S_, .f32⟩
  | 70 => ⟨S256, .f32⟩
  | 71 => ⟨S256x1, .f32⟩
  | 72 => ⟨S256x1, .f32⟩
  | 73 => ⟨S256x1, .f32⟩
  | 74 => ⟨S256x256, .f32⟩
  | 75 => ⟨S256x256, .f32⟩
  | 76 => ⟨S256x256, .f32⟩
  | 77 => ⟨S131072x256, .f32⟩
  | 78 => ⟨S1x256, .f32⟩
  | 79 => ⟨S131072x256, .f32⟩
  | 80 => ⟨S131072x256, .f32⟩
  | 81 => ⟨S_, .f32⟩
  | 82 => ⟨S131072x256, .f32⟩
  | 83 => ⟨S131072x256, .f32⟩
  | 84 => ⟨S_, .f32⟩
  | 85 => ⟨S131072x256, .f32⟩
  | 86 => ⟨S131072x256, .i1⟩
  | 87 => ⟨S_, .f32⟩
  | 88 => ⟨S131072x256, .f32⟩
  | 89 => ⟨S131072x256, .f32⟩
  | 90 => ⟨S131072x256, .f32⟩
  | 91 => ⟨S131072x256, .f32⟩
  | 92 => ⟨S_, .f32⟩
  | 93 => ⟨S131072x256, .f32⟩
  | 94 => ⟨S131072x256, .f32⟩
  | 95 => ⟨S131072x256, .f32⟩
  | 96 => ⟨S256x1, .f32⟩
  | 97 => ⟨S256x256, .f32⟩
  | 98 => ⟨S_, .f32⟩
  | 99 => ⟨S256, .f32⟩
  | 100 => ⟨S256x1, .f32⟩
  | 101 => ⟨S256x1, .f32⟩
  | 102 => ⟨S256x1, .f32⟩
  | 103 => ⟨S256x256, .f32⟩
  | 104 => ⟨S256x256, .f32⟩
  | 105 => ⟨S256x256, .f32⟩
  | 106 => ⟨S131072x256, .f32⟩
  | 107 => ⟨S1x256, .f32⟩
  | 108 => ⟨S131072x256, .f32⟩
  | 109 => ⟨S131072x256, .f32⟩
  | 110 => ⟨S_, .f32⟩
  | 111 => ⟨S131072x256, .f32⟩
  | 112 => ⟨S131072x256, .f32⟩
  | 113 => ⟨S_, .f32⟩
  | 114 => ⟨S131072x256, .f32⟩
  | 115 => ⟨S131072x256, .i1⟩
  | 116 => ⟨S_, .f32⟩
  | 117 => ⟨S131072x256, .f32⟩
  | 118 => ⟨S131072x256, .f32⟩
  | 119 => ⟨S131072x256, .f32⟩
  | 120 => ⟨S131072x256, .f32⟩
  | 121 => ⟨S_, .f32⟩
  | 122 => ⟨S131072x256, .f32⟩
  | 123 => ⟨S131072x256, .f32⟩
  | 124 => ⟨S131072x256, .f32⟩
  | 125 => ⟨S256x1, .f32⟩
  | 126 => ⟨S256x256, .f32⟩
  | 127 => ⟨S_, .f32⟩
  | _ => ⟨S131072x3, .f32⟩

abbrev hbmTy0_2 (i : Nat) : BufTy := match i % 128 with
  | 0 => ⟨S256, .f32⟩
  | 1 => ⟨S256x1, .f32⟩
  | 2 => ⟨S256x1, .f32⟩
  | 3 => ⟨S256x1, .f32⟩
  | 4 => ⟨S256x256, .f32⟩
  | 5 => ⟨S256x256, .f32⟩
  | 6 => ⟨S256x256, .f32⟩
  | 7 => ⟨S131072x256, .f32⟩
  | 8 => ⟨S1x256, .f32⟩
  | 9 => ⟨S131072x256, .f32⟩
  | 10 => ⟨S131072x256, .f32⟩
  | 11 => ⟨S_, .f32⟩
  | 12 => ⟨S131072x256, .f32⟩
  | 13 => ⟨S131072x256, .f32⟩
  | 14 => ⟨S_, .f32⟩
  | 15 => ⟨S131072x256, .f32⟩
  | 16 => ⟨S131072x256, .i1⟩
  | 17 => ⟨S_, .f32⟩
  | 18 => ⟨S131072x256, .f32⟩
  | 19 => ⟨S131072x256, .f32⟩
  | 20 => ⟨S131072x256, .f32⟩
  | 21 => ⟨S131072x256, .f32⟩
  | 22 => ⟨S_, .f32⟩
  | 23 => ⟨S131072x256, .f32⟩
  | 24 => ⟨S131072x256, .f32⟩
  | 25 => ⟨S131072x256, .f32⟩
  | 26 => ⟨S260x1, .f32⟩
  | 27 => ⟨S260x256, .f32⟩
  | 28 => ⟨S_, .f32⟩
  | 29 => ⟨S260, .f32⟩
  | 30 => ⟨S260x1, .f32⟩
  | 31 => ⟨S260x1, .f32⟩
  | 32 => ⟨S260x1, .f32⟩
  | 33 => ⟨S260x256, .f32⟩
  | 34 => ⟨S260x256, .f32⟩
  | 35 => ⟨S256x260, .f32⟩
  | 36 => ⟨S131072x260, .f32⟩
  | 37 => ⟨S1x260, .f32⟩
  | 38 => ⟨S131072x260, .f32⟩
  | 39 => ⟨S131072x260, .f32⟩
  | _ => ⟨S131072x3, .f32⟩

abbrev hbmTy (i : Nat) : BufTy := match i / 128 with
  | 0 => hbmTy0_0 i
  | 1 => hbmTy0_1 i
  | 2 => hbmTy0_2 i
  | _ => ⟨S131072x3, .f32⟩

abbrev bufTy : (tb : Table) → Fin (tcTables nBuf tb) → BufTy
  | .hbm, ⟨i, _⟩ => hbmTy i
  | _, _ => ⟨S131072x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_cst : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_call0_v0 : Ref sig .tc := ⟨.hbm, 47, rfl⟩
abbrev main_call0_cst : Ref sig .tc := ⟨.hbm, 48, rfl⟩
abbrev main_call0_v1 : Ref sig .tc := ⟨.hbm, 49, rfl⟩
abbrev main_call0_v2 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_0 : Ref sig .tc := ⟨.hbm, 60, rfl⟩
abbrev main_v27 : Ref sig .tc := ⟨.hbm, 61, rfl⟩
abbrev main_v28 : Ref sig .tc := ⟨.hbm, 62, rfl⟩
abbrev main_cst_1 : Ref sig .tc := ⟨.hbm, 63, rfl⟩
abbrev main_v29 : Ref sig .tc := ⟨.hbm, 64, rfl⟩
abbrev main_v30 : Ref sig .tc := ⟨.hbm, 65, rfl⟩
abbrev main_cst_2 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_3 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_call2_v0 : Ref sig .tc := ⟨.hbm, 76, rfl⟩
abbrev main_call2_cst : Ref sig .tc := ⟨.hbm, 77, rfl⟩
abbrev main_call2_v1 : Ref sig .tc := ⟨.hbm, 78, rfl⟩
abbrev main_call2_v2 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_cst_4 : Ref sig .tc := ⟨.hbm, 89, rfl⟩
abbrev main_v48 : Ref sig .tc := ⟨.hbm, 90, rfl⟩
abbrev main_v49 : Ref sig .tc := ⟨.hbm, 91, rfl⟩
abbrev main_cst_5 : Ref sig .tc := ⟨.hbm, 92, rfl⟩
abbrev main_v50 : Ref sig .tc := ⟨.hbm, 93, rfl⟩
abbrev main_v51 : Ref sig .tc := ⟨.hbm, 94, rfl⟩
abbrev main_cst_6 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_7 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_call4_v0 : Ref sig .tc := ⟨.hbm, 105, rfl⟩
abbrev main_call4_cst : Ref sig .tc := ⟨.hbm, 106, rfl⟩
abbrev main_call4_v1 : Ref sig .tc := ⟨.hbm, 107, rfl⟩
abbrev main_call4_v2 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_cst_8 : Ref sig .tc := ⟨.hbm, 118, rfl⟩
abbrev main_v69 : Ref sig .tc := ⟨.hbm, 119, rfl⟩
abbrev main_v70 : Ref sig .tc := ⟨.hbm, 120, rfl⟩
abbrev main_cst_9 : Ref sig .tc := ⟨.hbm, 121, rfl⟩
abbrev main_v71 : Ref sig .tc := ⟨.hbm, 122, rfl⟩
abbrev main_v72 : Ref sig .tc := ⟨.hbm, 123, rfl⟩
abbrev main_cst_10 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_cst_11 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_call6_v0 : Ref sig .tc := ⟨.hbm, 134, rfl⟩
abbrev main_call6_cst : Ref sig .tc := ⟨.hbm, 135, rfl⟩
abbrev main_call6_v1 : Ref sig .tc := ⟨.hbm, 136, rfl⟩
abbrev main_call6_v2 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_cst_12 : Ref sig .tc := ⟨.hbm, 147, rfl⟩
abbrev main_v90 : Ref sig .tc := ⟨.hbm, 148, rfl⟩
abbrev main_v91 : Ref sig .tc := ⟨.hbm, 149, rfl⟩
abbrev main_cst_13 : Ref sig .tc := ⟨.hbm, 150, rfl⟩
abbrev main_v92 : Ref sig .tc := ⟨.hbm, 151, rfl⟩
abbrev main_v93 : Ref sig .tc := ⟨.hbm, 152, rfl⟩
abbrev main_cst_14 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_cst_15 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_cst_16 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_call8_v0 : Ref sig .tc := ⟨.hbm, 167, rfl⟩
abbrev main_call8_cst : Ref sig .tc := ⟨.hbm, 168, rfl⟩
abbrev main_call8_v1 : Ref sig .tc := ⟨.hbm, 169, rfl⟩
abbrev main_call8_v2 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_cst_17 : Ref sig .tc := ⟨.hbm, 180, rfl⟩
abbrev main_v114 : Ref sig .tc := ⟨.hbm, 181, rfl⟩
abbrev main_v115 : Ref sig .tc := ⟨.hbm, 182, rfl⟩
abbrev main_cst_18 : Ref sig .tc := ⟨.hbm, 183, rfl⟩
abbrev main_v116 : Ref sig .tc := ⟨.hbm, 184, rfl⟩
abbrev main_v117 : Ref sig .tc := ⟨.hbm, 185, rfl⟩
abbrev main_cst_19 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_cst_20 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_call10_v0 : Ref sig .tc := ⟨.hbm, 196, rfl⟩
abbrev main_call10_cst : Ref sig .tc := ⟨.hbm, 197, rfl⟩
abbrev main_call10_v1 : Ref sig .tc := ⟨.hbm, 198, rfl⟩
abbrev main_call10_v2 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_cst_21 : Ref sig .tc := ⟨.hbm, 209, rfl⟩
abbrev main_v135 : Ref sig .tc := ⟨.hbm, 210, rfl⟩
abbrev main_v136 : Ref sig .tc := ⟨.hbm, 211, rfl⟩
abbrev main_cst_22 : Ref sig .tc := ⟨.hbm, 212, rfl⟩
abbrev main_v137 : Ref sig .tc := ⟨.hbm, 213, rfl⟩
abbrev main_v138 : Ref sig .tc := ⟨.hbm, 214, rfl⟩
abbrev main_cst_23 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_cst_24 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_call12_v0 : Ref sig .tc := ⟨.hbm, 225, rfl⟩
abbrev main_call12_cst : Ref sig .tc := ⟨.hbm, 226, rfl⟩
abbrev main_call12_v1 : Ref sig .tc := ⟨.hbm, 227, rfl⟩
abbrev main_call12_v2 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_v151 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_cst_25 : Ref sig .tc := ⟨.hbm, 238, rfl⟩
abbrev main_v156 : Ref sig .tc := ⟨.hbm, 239, rfl⟩
abbrev main_v157 : Ref sig .tc := ⟨.hbm, 240, rfl⟩
abbrev main_cst_26 : Ref sig .tc := ⟨.hbm, 241, rfl⟩
abbrev main_v158 : Ref sig .tc := ⟨.hbm, 242, rfl⟩
abbrev main_v159 : Ref sig .tc := ⟨.hbm, 243, rfl⟩
abbrev main_cst_27 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_cst_28 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_call14_v0 : Ref sig .tc := ⟨.hbm, 254, rfl⟩
abbrev main_call14_cst : Ref sig .tc := ⟨.hbm, 255, rfl⟩
abbrev main_call14_v1 : Ref sig .tc := ⟨.hbm, 256, rfl⟩
abbrev main_call14_v2 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩
abbrev main_cst_29 : Ref sig .tc := ⟨.hbm, 267, rfl⟩
abbrev main_v177 : Ref sig .tc := ⟨.hbm, 268, rfl⟩
abbrev main_v178 : Ref sig .tc := ⟨.hbm, 269, rfl⟩
abbrev main_cst_30 : Ref sig .tc := ⟨.hbm, 270, rfl⟩
abbrev main_v179 : Ref sig .tc := ⟨.hbm, 271, rfl⟩
abbrev main_v180 : Ref sig .tc := ⟨.hbm, 272, rfl⟩
abbrev main_cst_31 : Ref sig .tc := ⟨.hbm, 273, rfl⟩
abbrev main_v181 : Ref sig .tc := ⟨.hbm, 274, rfl⟩
abbrev main_v182 : Ref sig .tc := ⟨.hbm, 275, rfl⟩
abbrev main_v183 : Ref sig .tc := ⟨.hbm, 276, rfl⟩
abbrev main_v184 : Ref sig .tc := ⟨.hbm, 277, rfl⟩
abbrev main_cst_32 : Ref sig .tc := ⟨.hbm, 278, rfl⟩
abbrev main_v185 : Ref sig .tc := ⟨.hbm, 279, rfl⟩
abbrev main_v186 : Ref sig .tc := ⟨.hbm, 280, rfl⟩
abbrev main_v187 : Ref sig .tc := ⟨.hbm, 281, rfl⟩
abbrev main_v188 : Ref sig .tc := ⟨.hbm, 282, rfl⟩
abbrev main_call16_v0 : Ref sig .tc := ⟨.hbm, 283, rfl⟩
abbrev main_call16_cst : Ref sig .tc := ⟨.hbm, 284, rfl⟩
abbrev main_call16_v1 : Ref sig .tc := ⟨.hbm, 285, rfl⟩
abbrev main_call16_v2 : Ref sig .tc := ⟨.hbm, 286, rfl⟩
abbrev main_v189 : Ref sig .tc := ⟨.hbm, 287, rfl⟩
abbrev main_v190 : Ref sig .tc := ⟨.hbm, 288, rfl⟩
abbrev main_v191 : Ref sig .tc := ⟨.hbm, 289, rfl⟩
abbrev main_v192 : Ref sig .tc := ⟨.hbm, 290, rfl⟩
abbrev main_v193 : Ref sig .tc := ⟨.hbm, 291, rfl⟩
abbrev main_v194 : Ref sig .tc := ⟨.hbm, 292, rfl⟩
abbrev main_v195 : Ref sig .tc := ⟨.hbm, 293, rfl⟩
abbrev main_v196 : Ref sig .tc := ⟨.hbm, 294, rfl⟩
abbrev main_v197 : Ref sig .tc := ⟨.hbm, 295, rfl⟩

abbrev nD : Nat := 1
abbrev τ : Topo := Topo.v7x

variable {F : FTy → Type} [FloatOps F]

class Facts₀ : Prop where
  bcast_S_S6 : S_.BroadcastsInDim S6 (![] : Fin 0 → Fin S6.rank)
  bcast_S131072x3_S131072x1x3_0_2 : S131072x3.BroadcastsInDim S131072x1x3 (![0, 2] : Fin 2 → Fin S131072x1x3.rank)
  bcast_S6_S1x6x1_1 : S6.BroadcastsInDim S1x6x1 (![1] : Fin 1 → Fin S1x6x1.rank)
  bcast_S131072x1x3_S131072x6x3_0_1_2 : S131072x1x3.BroadcastsInDim S131072x6x3 (![0, 1, 2] : Fin 3 → Fin S131072x6x3.rank)
  bcast_S1x6x1_S131072x6x3_0_1_2 : S1x6x1.BroadcastsInDim S131072x6x3 (![0, 1, 2] : Fin 3 → Fin S131072x6x3.rank)
  bcast_S131072x6x3_S131072x6x1x3_0_1_3 : S131072x6x3.BroadcastsInDim S131072x6x1x3 (![0, 1, 3] : Fin 3 → Fin S131072x6x1x3.rank)
  concatenates_S131072x6x1x3_S131072x6x1x3_S131072x6x2x3_d2 : Shape.Concatenates [S131072x6x1x3, S131072x6x1x3] S131072x6x2x3 2
  shapeCasts_S131072x6x2x3_S131072x36 : S131072x6x2x3.ShapeCasts S131072x36
  concatenates_S131072x3_S131072x36_S131072x39_d1 : Shape.Concatenates [S131072x3, S131072x36] S131072x39 1
  bcast_S256_S256x1_0 : S256.BroadcastsInDim S256x1 (![0] : Fin 1 → Fin S256x1.rank)
  reducesTo_S256x39_S256_d1 : S256x39.ReducesTo [1] S256
  h_S_ : 0 < S_.numel
  bcast_S256x1_S256x39_0_1 : S256x1.BroadcastsInDim S256x39 (![0, 1] : Fin 2 → Fin S256x39.rank)
  transposes_S256x39_S39x256_1_0 : S256x39.Transposes [1, 0] S39x256
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  reducesTo_S256x256_S256_d1 : S256x256.ReducesTo [1] S256
  bcast_S256x1_S256x256_0_1 : S256x1.BroadcastsInDim S256x256 (![0, 1] : Fin 2 → Fin S256x256.rank)
  transposes_S256x256_S256x256_1_0 : S256x256.Transposes [1, 0] S256x256
  bcast_S217_S217x1_0 : S217.BroadcastsInDim S217x1 (![0] : Fin 1 → Fin S217x1.rank)
  reducesTo_S217x256_S217_d1 : S217x256.ReducesTo [1] S217
  bcast_S217x1_S217x256_0_1 : S217x1.BroadcastsInDim S217x256 (![0, 1] : Fin 2 → Fin S217x256.rank)
  transposes_S217x256_S256x217_1_0 : S217x256.Transposes [1, 0] S256x217
  bcast_S217_S1x217_1 : S217.BroadcastsInDim S1x217 (![1] : Fin 1 → Fin S1x217.rank)
  bcast_S1x217_S131072x217_0_1 : S1x217.BroadcastsInDim S131072x217 (![0, 1] : Fin 2 → Fin S131072x217.rank)
  bcast_S_S131072x217 : S_.BroadcastsInDim S131072x217 (![] : Fin 0 → Fin S131072x217.rank)
  concatenates_S131072x217_S131072x39_S131072x256_d1 : Shape.Concatenates [S131072x217, S131072x39] S131072x256 1
  bcast_S260_S260x1_0 : S260.BroadcastsInDim S260x1 (![0] : Fin 1 → Fin S260x1.rank)
  reducesTo_S260x256_S260_d1 : S260x256.ReducesTo [1] S260
  bcast_S260x1_S260x256_0_1 : S260x1.BroadcastsInDim S260x256 (![0, 1] : Fin 2 → Fin S260x256.rank)
  transposes_S260x256_S256x260_1_0 : S260x256.Transposes [1, 0] S256x260
  bcast_S260_S1x260_1 : S260.BroadcastsInDim S1x260 (![1] : Fin 1 → Fin S1x260.rank)
  bcast_S1x260_S131072x260_0_1 : S1x260.BroadcastsInDim S131072x260 (![0, 1] : Fin 2 → Fin S131072x260.rank)
  dot_S131072x39_S39x256_S131072x256_1_0_0_1_n_n_wf : DotDims.WF S131072x39 S39x256 S131072x256 [1] [0] [0] [1] [] []
  dot_S131072x256_S256x256_S131072x256_1_0_0_1_n_n_wf : DotDims.WF S131072x256 S256x256 S131072x256 [1] [0] [0] [1] [] []
  dot_S131072x256_S256x217_S131072x217_1_0_0_1_n_n_wf : DotDims.WF S131072x256 S256x217 S131072x217 [1] [0] [0] [1] [] []
  dot_S131072x256_S256x260_S131072x260_1_0_0_1_n_n_wf : DotDims.WF S131072x256 S256x260 S131072x260 [1] [0] [0] [1] [] []

variable [Facts₀]

def dot_S131072x39_S39x256_S131072x256_1_0_0_1_n_n : DotDims S131072x39 S39x256 S131072x256 where
  lhsContracting := [1]
  rhsContracting := [0]
  lhsNonContracting := [0]
  rhsNonContracting := [1]
  lhsBatch := []
  rhsBatch := []
  wf := dot_S131072x39_S39x256_S131072x256_1_0_0_1_n_n_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def dot_S131072x256_S256x217_S131072x217_1_0_0_1_n_n : DotDims S131072x256 S256x217 S131072x217 where
  lhsContracting := [1]
  rhsContracting := [0]
  lhsNonContracting := [0]
  rhsNonContracting := [1]
  lhsBatch := []
  rhsBatch := []
  wf := dot_S131072x256_S256x217_S131072x217_1_0_0_1_n_n_wf
def dot_S131072x256_S256x260_S131072x260_1_0_0_1_n_n : DotDims S131072x256 S256x260 S131072x260 where
  lhsContracting := [1]
  rhsContracting := [0]
  lhsNonContracting := [0]
  rhsNonContracting := [1]
  lhsBatch := []
  rhsBatch := []
  wf := dot_S131072x256_S256x260_S131072x260_1_0_0_1_n_n_wf

class Facts : Prop extends Facts₀ where

variable [Facts]
-- ==== Proof.Rows.lean ====
/-
  The mathematics of the network, row by row, on the extended reals.

  One input row `x : Fin 39 → EReal` (a point's positional encoding) goes through nine affine maps
  `h ↦ (∑ k, h k · W k j) + b j`, the first eight followed by the activation `act` — the softplus of slope 100
  with its linear branch above the threshold 20: `act z = z` when `100·z > 20`, else
  `log (1 + exp (min (100·z) 20)) / 100` —, and before the fifth map the 217 activations are joined with the
  39 inputs and scaled by the float nearest `1/√2`.  Every output row depends on its own input row only:
  that is what lets a block of 4096 rows be computed by itself.

  Also here: a matrix product with one contracted axis, read at an output index `(r, j)`, is the sum over
  `k` of `lhs (r, k) · rhs (k, j)` — the contraction index of the plain dimension numbers is its one coordinate.
-/
import Idealize.ShloMosaic.PureOps.Ideal
import Idealize.ShloMosaic.PureOps.Ideal.Laws
import Idealize.ShloMosaic.Lib.ValueIdx

noncomputable section

namespace Cert.Rows

open Idealize.ShloMosaic Idealize.ShloMosaic.ValueIdx

/-- The float constants of the activation and of the skip connection, as the extended reals their words denote
    (never evaluated: both programs carry the same words). -/
abbrev c100 : EReal := Ideal.ofBits .f32 0x42C80000#32
abbrev c20 : EReal := Ideal.ofBits .f32 0x41A00000#32
abbrev cSkip : EReal := Ideal.ofBits .f32 0x3F3504F3#32

/-- Softplus of slope 100, linear above the threshold: on one extended real. -/
def act (z : EReal) : EReal :=
  Scalar.select (Ideal.cmp .ogt (c100 * z) c20) z (Ideal.div (Ideal.log1p (Ideal.exp (min (c100 * z) c20))) c100)

/-- Row `r` of a two-axis array. -/
abbrev rowOf {R K : Nat} (h : (⟨2, ![R, K]⟩ : Shape).Idx → EReal) (r : Fin R) : Fin K → EReal := fun k => h (ix2 r k)

/-- An array of weights `[K, M]` as a function of its two coordinates; a bias row `[1, M]` and a bias vector `[M]`
    as functions of the column. -/
abbrev mat {K M : Nat} (W : (⟨2, ![K, M]⟩ : Shape).Idx → EReal) : Fin K → Fin M → EReal := fun k j => W (ix2 k j)
abbrev biasRow {M : Nat} (b : (⟨2, ![1, M]⟩ : Shape).Idx → EReal) : Fin M → EReal := fun j => b (ix2 0 j)
abbrev biasVec {M : Nat} (b : (⟨1, ![M]⟩ : Shape).Idx → EReal) : Fin M → EReal := fun j => b (ix1 j)

/-- One affine map on a row. -/
def dense {K M : Nat} (W : Fin K → Fin M → EReal) (b : Fin M → EReal) (h : Fin K → EReal) : Fin M → EReal :=
  fun j => (∑ k : Fin K, h k * W k j) + b j

/-- The activation on a row. -/
def actRow {M : Nat} (z : Fin M → EReal) : Fin M → EReal := fun j => act (z j)

/-- Two rows joined along the columns: the first `A` entries, then the next `B`. -/
def joinRow {A B C : Nat} (hC : A + B = C) (h : Fin A → EReal) (x : Fin B → EReal) : Fin C → EReal :=
  fun j => if hj : j.val < A then h ⟨j.val, hj⟩ else x ⟨j.val - A, by have := j.isLt; omega⟩

/-- The skip connection on a row: the 217 activations, then the 39 inputs, all scaled. -/
def skipRow (h : Fin 217 → EReal) (x : Fin 39 → EReal) : Fin 256 → EReal :=
  fun j => joinRow (A := 217) (B := 39) (C := 256) rfl h x j * cSkip

/-- The nine weight matrices `[in, out]` and bias rows of the network, as functions of their coordinates. -/
structure Params where
  W0 : Fin 39 → Fin 256 → EReal
  b0 : Fin 256 → EReal
  W1 : Fin 256 → Fin 256 → EReal
  b1 : Fin 256 → EReal
  W2 : Fin 256 → Fin 256 → EReal
  b2 : Fin 256 → EReal
  W3 : Fin 256 → Fin 217 → EReal
  b3 : Fin 217 → EReal
  W4 : Fin 256 → Fin 256 → EReal
  b4 : Fin 256 → EReal
  W5 : Fin 256 → Fin 256 → EReal
  b5 : Fin 256 → EReal
  W6 : Fin 256 → Fin 256 → EReal
  b6 : Fin 256 → EReal
  W7 : Fin 256 → Fin 256 → EReal
  b7 : Fin 256 → EReal
  W8 : Fin 256 → Fin 260 → EReal
  b8 : Fin 260 → EReal

/-- The network on one row of the encoded input: four activated layers, the skip connection, four more activated
    layers, and a last affine map. -/
def net (p : Params) (x : Fin 39 → EReal) : Fin 260 → EReal :=
  dense p.W8 p.b8 (actRow (dense p.W7 p.b7 (actRow (dense p.W6 p.b6 (actRow (dense p.W5 p.b5 (actRow (dense p.W4 p.b4
    (skipRow (actRow (dense p.W3 p.b3 (actRow (dense p.W2 p.b2 (actRow (dense p.W1 p.b1 (actRow (dense p.W0 p.b0 x))))))))
      x)))))))))

end Cert.Rows

end
-- ==== Proof.HostTerms.lean ====
/-
  The host computations both programs share, each as one term of the argument arrays, never opened afterwards.

  `wnT V g`: the weight-normalised matrix, transposed — row `o` of `V : [O, I]` scaled by `g o / ‖V o‖`, the norm the
  square root of the row's sum of squares, then the axes swapped to `[I, O]`.  Both programs compute it by the same
  host operations of the same arguments, so the proof compares the arguments and carries the term whole.
-/
import Idealize.ShloMosaic.PureOps.Ideal

noncomputable section

namespace Cert.Rows

open Idealize.ShloMosaic

variable {F : FTy → Type} [FloatOps F]

/-- The weight-normalised weights, transposed: `transpose (V · broadcast (broadcast g / sqrt (broadcast (rowsum (V·V)))))`. -/
def wnT {O I : Nat}
    (hg : (⟨1, ![O]⟩ : Shape).BroadcastsInDim ⟨2, ![O, 1]⟩ ![0])
    (hr : (⟨2, ![O, I]⟩ : Shape).ReducesTo [1] ⟨1, ![O]⟩) (h0 : 0 < (⟨0, ![]⟩ : Shape).numel)
    (hs : (⟨2, ![O, 1]⟩ : Shape).BroadcastsInDim ⟨2, ![O, I]⟩ ![0, 1])
    (ht : (⟨2, ![O, I]⟩ : Shape).Transposes [1, 0] ⟨2, ![I, O]⟩)
    (V : FVec F (⟨2, ![O, I]⟩ : Shape) .f32) (g : FVec F (⟨1, ![O]⟩ : Shape) .f32) : FVec F (⟨2, ![I, O]⟩ : Shape) .f32 :=
  transpose (⟨2, ![I, O]⟩ : Shape) [1, 0]
    (mulf V (broadcastInDim (⟨2, ![O, I]⟩ : Shape) ![0, 1] hs
      (Host.divf (broadcastInDim (⟨2, ![O, 1]⟩ : Shape) ![0] hg g)
        (Host.sqrt (broadcastInDim (⟨2, ![O, 1]⟩ : Shape) ![0] hg
          (Host.reduceAdd (mulf V V) (constant (⟨0, ![]⟩ : Shape) .f32 0x00000000#32) hr h0)))))) ht

end Cert.Rows

end
-- ==== Proof.NetSpec.lean ====
/-
  What both programs compute, as one function of the 28 argument arrays.

  `embedT x`: the positional encoding of the points `x : [131072, 3]` — each point's three coordinates followed by
  the sines and cosines of the coordinates times `2^k`, `k < 6`, 39 columns in all — as the host operations' term.
  Both programs compute it by the same host operations, so it is carried whole and never opened.

  `Gout`: entry `(n, j)` of the result is the network `net` (module `Rows`) on row `n` of the encoding, at column
  `j`, with layer `l`'s matrix the weight-normalised, transposed `V_l` (`wnT`, module `HostTerms`) and its bias `b_l`.
-/
import Idealize.ShloMosaic.PureOps.Ideal
import Idealize.ShloMosaic.Lib.ValueIdx
import proofs.«146509_j19370302505666_1_alg».proof.Proof.Rows
import proofs.«146509_j19370302505666_1_alg».proof.Proof.HostTerms

noncomputable section

namespace Cert.Rows

open Idealize.ShloMosaic Idealize.ShloMosaic.ValueIdx

/-! ## Shapes and their side conditions -/

abbrev SN3 : Shape := ⟨2, ![131072, 3]⟩
abbrev SN39 : Shape := ⟨2, ![131072, 39]⟩
abbrev SN36 : Shape := ⟨2, ![131072, 36]⟩
abbrev SN260 : Shape := ⟨2, ![131072, 260]⟩
abbrev S6' : Shape := ⟨1, ![6]⟩
abbrev S0' : Shape := ⟨0, ![]⟩
abbrev SN1x3 : Shape := ⟨3, ![131072, 1, 3]⟩
abbrev S1x6x1' : Shape := ⟨3, ![1, 6, 1]⟩
abbrev SN6x3 : Shape := ⟨3, ![131072, 6, 3]⟩
abbrev SN6x1x3 : Shape := ⟨4, ![131072, 6, 1, 3]⟩
abbrev SN6x2x3 : Shape := ⟨4, ![131072, 6, 2, 3]⟩

theorem e_b0 : S0'.BroadcastsInDim S6' (![] : Fin 0 → Fin S6'.rank) := by decide
theorem e_b1 : SN3.BroadcastsInDim SN1x3 (![0, 2] : Fin 2 → Fin SN1x3.rank) := by decide
theorem e_b2 : S6'.BroadcastsInDim S1x6x1' (![1] : Fin 1 → Fin S1x6x1'.rank) := by decide
theorem e_b3 : SN1x3.BroadcastsInDim SN6x3 (![0, 1, 2] : Fin 3 → Fin SN6x3.rank) := by decide
theorem e_b4 : S1x6x1'.BroadcastsInDim SN6x3 (![0, 1, 2] : Fin 3 → Fin SN6x3.rank) := by decide
theorem e_b5 : SN6x3.BroadcastsInDim SN6x1x3 (![0, 1, 3] : Fin 3 → Fin SN6x1x3.rank) := by decide
theorem e_c0 : Shape.Concatenates [SN6x1x3, SN6x1x3] SN6x2x3 2 := by decide
theorem e_s0 : SN6x2x3.ShapeCasts SN36 := by decide
theorem e_c1 : Shape.Concatenates [SN3, SN36] SN39 1 := by decide

theorem w_g_256_39 : (⟨1, ![256]⟩ : Shape).BroadcastsInDim ⟨2, ![256, 1]⟩ (![0] : Fin 1 → Fin 2) := by decide
theorem w_r_256_39 : (⟨2, ![256, 39]⟩ : Shape).ReducesTo [1] ⟨1, ![256]⟩ := by decide
theorem w_s_256_39 : (⟨2, ![256, 1]⟩ : Shape).BroadcastsInDim ⟨2, ![256, 39]⟩ (![0, 1] : Fin 2 → Fin 2) := by decide
theorem w_t_256_39 : (⟨2, ![256, 39]⟩ : Shape).Transposes [1, 0] ⟨2, ![39, 256]⟩ := by decide
theorem w_g_256_256 : (⟨1, ![256]⟩ : Shape).BroadcastsInDim ⟨2, ![256, 1]⟩ (![0] : Fin 1 → Fin 2) := by decide
theorem w_r_256_256 : (⟨2, ![256, 256]⟩ : Shape).ReducesTo [1] ⟨1, ![256]⟩ := by decide
theorem w_s_256_256 : (⟨2, ![256, 1]⟩ : Shape).BroadcastsInDim ⟨2, ![256, 256]⟩ (![0, 1] : Fin 2 → Fin 2) := by decide
theorem w_t_256_256 : (⟨2, ![256, 256]⟩ : Shape).Transposes [1, 0] ⟨2, ![256, 256]⟩ := by decide
theorem w_g_217_256 : (⟨1, ![217]⟩ : Shape).BroadcastsInDim ⟨2, ![217, 1]⟩ (![0] : Fin 1 → Fin 2) := by decide
theorem w_r_217_256 : (⟨2, ![217, 256]⟩ : Shape).ReducesTo [1] ⟨1, ![217]⟩ := by decide
theorem w_s_217_256 : (⟨2, ![217, 1]⟩ : Shape).BroadcastsInDim ⟨2, ![217, 256]⟩ (![0, 1] : Fin 2 → Fin 2) := by decide
theorem w_t_217_256 : (⟨2, ![217, 256]⟩ : Shape).Transposes [1, 0] ⟨2, ![256, 217]⟩ := by decide
theorem w_g_260_256 : (⟨1, ![260]⟩ : Shape).BroadcastsInDim ⟨2, ![260, 1]⟩ (![0] : Fin 1 → Fin 2) := by decide
theorem w_r_260_256 : (⟨2, ![260, 256]⟩ : Shape).ReducesTo [1] ⟨1, ![260]⟩ := by decide
theorem w_s_260_256 : (⟨2, ![260, 1]⟩ : Shape).BroadcastsInDim ⟨2, ![260, 256]⟩ (![0, 1] : Fin 2 → Fin 2) := by decide
theorem w_t_260_256 : (⟨2, ![260, 256]⟩ : Shape).Transposes [1, 0] ⟨2, ![256, 260]⟩ := by decide
theorem w_h0 : 0 < S0'.numel := by decide

variable {F : FTy → Type} [FloatOps F]

/-- The positional encoding, as the host operations' term of the points. -/
def embedT (x : FVec F SN3 .f32) : FVec F SN39 .f32 :=
  concatenate SN39 1
    [⟨SN3, x⟩,
     ⟨SN36, shapeCast SN36
        (concatenate SN6x2x3 2
          [⟨SN6x1x3, broadcastInDim SN6x1x3 ![0, 1, 3] e_b5
              (Host.sin (mulf (broadcastInDim SN6x3 ![0, 1, 2] e_b3 (broadcastInDim SN1x3 ![0, 2] e_b1 x))
                (broadcastInDim SN6x3 ![0, 1, 2] e_b4 (broadcastInDim S1x6x1' ![1] e_b2
                  (Host.powf (broadcastInDim S6' ![] e_b0 (constant S0' .f32 0x40000000#32)) (sitofp .f32 (iotaInDim S6' 32 0)))))))⟩,
           ⟨SN6x1x3, broadcastInDim SN6x1x3 ![0, 1, 3] e_b5
              (Host.cos (mulf (broadcastInDim SN6x3 ![0, 1, 2] e_b3 (broadcastInDim SN1x3 ![0, 2] e_b1 x))
                (broadcastInDim SN6x3 ![0, 1, 2] e_b4 (broadcastInDim S1x6x1' ![1] e_b2
                  (Host.powf (broadcastInDim S6' ![] e_b0 (constant S0' .f32 0x40000000#32)) (sitofp .f32 (iotaInDim S6' 32 0)))))))⟩]
          e_c0) e_s0⟩]
    e_c1

/-! ## The result -/

/-- The network's parameters from the argument arrays: layer `l`'s matrix is the weight-normalised `V_l` transposed,
    its bias the vector `b_l`. -/
def paramsOf
    (V0 : FVec Ideal (⟨2, ![256, 39]⟩ : Shape) .f32) (g0 : FVec Ideal (⟨1, ![256]⟩ : Shape) .f32) (b0 : FVec Ideal (⟨1, ![256]⟩ : Shape) .f32)
    (V1 : FVec Ideal (⟨2, ![256, 256]⟩ : Shape) .f32) (g1 : FVec Ideal (⟨1, ![256]⟩ : Shape) .f32) (b1 : FVec Ideal (⟨1, ![256]⟩ : Shape) .f32)
    (V2 : FVec Ideal (⟨2, ![256, 256]⟩ : Shape) .f32) (g2 : FVec Ideal (⟨1, ![256]⟩ : Shape) .f32) (b2 : FVec Ideal (⟨1, ![256]⟩ : Shape) .f32)
    (V3 : FVec Ideal (⟨2, ![217, 256]⟩ : Shape) .f32) (g3 : FVec Ideal (⟨1, ![217]⟩ : Shape) .f32) (b3 : FVec Ideal (⟨1, ![217]⟩ : Shape) .f32)
    (V4 : FVec Ideal (⟨2, ![256, 256]⟩ : Shape) .f32) (g4 : FVec Ideal (⟨1, ![256]⟩ : Shape) .f32) (b4 : FVec Ideal (⟨1, ![256]⟩ : Shape) .f32)
    (V5 : FVec Ideal (⟨2, ![256, 256]⟩ : Shape) .f32) (g5 : FVec Ideal (⟨1, ![256]⟩ : Shape) .f32) (b5 : FVec Ideal (⟨1, ![256]⟩ : Shape) .f32)
    (V6 : FVec Ideal (⟨2, ![256, 256]⟩ : Shape) .f32) (g6 : FVec Ideal (⟨1, ![256]⟩ : Shape) .f32) (b6 : FVec Ideal (⟨1, ![256]⟩ : Shape) .f32)
    (V7 : FVec Ideal (⟨2, ![256, 256]⟩ : Shape) .f32) (g7 : FVec Ideal (⟨1, ![256]⟩ : Shape) .f32) (b7 : FVec Ideal (⟨1, ![256]⟩ : Shape) .f32)
    (V8 : FVec Ideal (⟨2, ![260, 256]⟩ : Shape) .f32) (g8 : FVec Ideal (⟨1, ![260]⟩ : Shape) .f32) (b8 : FVec Ideal (⟨1, ![260]⟩ : Shape) .f32) : Params where
  W0 := mat (wnT (F := Ideal) w_g_256_39 w_r_256_39 w_h0 w_s_256_39 w_t_256_39 V0 g0)
  b0 := biasVec b0
  W1 := mat (wnT (F := Ideal) w_g_256_256 w_r_256_256 w_h0 w_s_256_256 w_t_256_256 V1 g1)
  b1 := biasVec b1
  W2 := mat (wnT (F := Ideal) w_g_256_256 w_r_256_256 w_h0 w_s_256_256 w_t_256_256 V2 g2)
  b2 := biasVec b2
  W3 := mat (wnT (F := Ideal) w_g_217_256 w_r_217_256 w_h0 w_s_217_256 w_t_217_256 V3 g3)
  b3 := biasVec b3
  W4 := mat (wnT (F := Ideal) w_g_256_256 w_r_256_256 w_h0 w_s_256_256 w_t_256_256 V4 g4)
  b4 := biasVec b4
  W5 := mat (wnT (F := Ideal) w_g_256_256 w_r_256_256 w_h0 w_s_256_256 w_t_256_256 V5 g5)
  b5 := biasVec b5
  W6 := mat (wnT (F := Ideal) w_g_256_256 w_r_256_256 w_h0 w_s_256_256 w_t_256_256 V6 g6)
  b6 := biasVec b6
  W7 := mat (wnT (F := Ideal) w_g_256_256 w_r_256_256 w_h0 w_s_256_256 w_t_256_256 V7 g7)
  b7 := biasVec b7
  W8 := mat (wnT (F := Ideal) w_g_260_256 w_r_260_256 w_h0 w_s_260_256 w_t_260_256 V8 g8)
  b8 := biasVec b8

/-- The result array: entry `(n, j)` is the network on row `n` of the encoded points, at column `j`. -/
def Gout (x : FVec Ideal SN3 .f32)
    (V0 : FVec Ideal (⟨2, ![256, 39]⟩ : Shape) .f32) (g0 : FVec Ideal (⟨1, ![256]⟩ : Shape) .f32) (b0 : FVec Ideal (⟨1, ![256]⟩ : Shape) .f32)
    (V1 : FVec Ideal (⟨2, ![256, 256]⟩ : Shape) .f32) (g1 : FVec Ideal (⟨1, ![256]⟩ : Shape) .f32) (b1 : FVec Ideal (⟨1, ![256]⟩ : Shape) .f32)
    (V2 : FVec Ideal (⟨2, ![256, 256]⟩ : Shape) .f32) (g2 : FVec Ideal (⟨1, ![256]⟩ : Shape) .f32) (b2 : FVec Ideal (⟨1, ![256]⟩ : Shape) .f32)
    (V3 : FVec Ideal (⟨2, ![217, 256]⟩ : Shape) .f32) (g3 : FVec Ideal (⟨1, ![217]⟩ : Shape) .f32) (b3 : FVec Ideal (⟨1, ![217]⟩ : Shape) .f32)
    (V4 : FVec Ideal (⟨2, ![256, 256]⟩ : Shape) .f32) (g4 : FVec Ideal (⟨1, ![256]⟩ : Shape) .f32) (b4 : FVec Ideal (⟨1, ![256]⟩ : Shape) .f32)
    (V5 : FVec Ideal (⟨2, ![256, 256]⟩ : Shape) .f32) (g5 : FVec Ideal (⟨1, ![256]⟩ : Shape) .f32) (b5 : FVec Ideal (⟨1, ![256]⟩ : Shape) .f32)
    (V6 : FVec Ideal (⟨2, ![256, 256]⟩ : Shape) .f32) (g6 : FVec Ideal (⟨1, ![256]⟩ : Shape) .f32) (b6 : FVec Ideal (⟨1, ![256]⟩ : Shape) .f32)
    (V7 : FVec Ideal (⟨2, ![256, 256]⟩ : Shape) .f32) (g7 : FVec Ideal (⟨1, ![256]⟩ : Shape) .f32) (b7 : FVec Ideal (⟨1, ![256]⟩ : Shape) .f32)
    (V8 : FVec Ideal (⟨2, ![260, 256]⟩ : Shape) .f32) (g8 : FVec Ideal (⟨1, ![260]⟩ : Shape) .f32) (b8 : FVec Ideal (⟨1, ![260]⟩ : Shape) .f32) : FVec Ideal SN260 .f32 :=
  fun i => net (paramsOf V0 g0 b0 V1 g1 b1 V2 g2 b2 V3 g3 b3 V4 g4 b4 V5 g5 b5 V6 g6 b6 V7 g7 b7 V8 g8 b8) (rowOf (embedT (F := Ideal) x) (i 0)) (i 1)

end Cert.Rows

end
-- ==== Proof.MatRow.lean ====
/-
  A matrix product with one contracted axis, read at an output index: for the plain dimension numbers
  (rows × contraction times contraction × columns) the contraction index is its one coordinate `k`, the left
  operand is read at `(r, k)` and the right one at `(k, j)`; so the product into a zero accumulator, and the
  host's product, are both `∑ k, lhs (r, k) · rhs (k, j)` at `(r, j)`: one affine map's sum on row `r`.
-/
import Idealize.ShloMosaic.PureOps.Ideal
import Idealize.ShloMosaic.PureOps.Ideal.Laws
import Idealize.ShloMosaic.Lib.ValueIdx

noncomputable section

namespace Cert.Rows

open Idealize.ShloMosaic Idealize.ShloMosaic.ValueIdx

variable {R K M : Nat}

/-- The contraction index of the plain dimension numbers is one coordinate below `K`. -/
abbrev contrK : (DotDims.plain R K M).contr.Idx ≃ Fin K := contrEquiv1 (DotDims.plain R K M) K rfl rfl

/-- At output `(r, j)` and contraction position `k` the left operand is read at `(r, k)`. -/
theorem plain_lhsIdx (r : Fin R) (j : Fin M) (k : Fin K) :
    (DotDims.plain R K M).lhsIdx (ix2 r j) ((contrK (R := R) (K := K) (M := M)).symm k) = ix2 r k := by
  funext a
  apply Fin.ext
  match a with
  | ⟨0, _⟩ => rfl
  | ⟨1, _⟩ => rfl

/-- … and the right operand at `(k, j)`. -/
theorem plain_rhsIdx (r : Fin R) (j : Fin M) (k : Fin K) :
    (DotDims.plain R K M).rhsIdx (ix2 r j) ((contrK (R := R) (K := K) (M := M)).symm k) = ix2 k j := by
  funext a
  apply Fin.ext
  match a with
  | ⟨0, _⟩ => rfl
  | ⟨1, _⟩ => rfl

/-- The contraction sum of the plain dimension numbers at `(r, j)`, over the one coordinate. -/
theorem plain_sum (lhs : (⟨2, ![R, K]⟩ : Shape).Idx → EReal) (rhs : (⟨2, ![K, M]⟩ : Shape).Idx → EReal) (r : Fin R) (j : Fin M) :
    (∑ k : (DotDims.plain R K M).contr.Idx,
        lhs ((DotDims.plain R K M).lhsIdx (ix2 r j) k) * rhs ((DotDims.plain R K M).rhsIdx (ix2 r j) k))
      = ∑ k : Fin K, lhs (ix2 r k) * rhs (ix2 k j) := by
  rw [← Equiv.sum_comp (contrK (R := R) (K := K) (M := M)).symm]
  exact Finset.sum_congr rfl fun k _ => by rw [plain_lhsIdx, plain_rhsIdx]

/-- A kernel's matrix product into the zero accumulator, at `(r, j)`. -/
theorem matmul_plain_apply {φ₁ φ₂ : FTy} (prec : Option ContractPrecision)
    (lhs : FVec Ideal (⟨2, ![R, K]⟩ : Shape) φ₁) (rhs : FVec Ideal (⟨2, ![K, M]⟩ : Shape) φ₂) (r : Fin R) (j : Fin M) :
    FloatOps.matmul (DotDims.plain R K M) prec lhs rhs (constant (⟨2, ![R, M]⟩ : Shape) .f32 0x00000000#32) (ix2 r j)
      = ∑ k : Fin K, lhs (ix2 r k) * rhs (ix2 k j) :=
  (Ideal.matmul_constant_zero_apply (DotDims.plain R K M) prec lhs rhs (ix2 r j)).trans (plain_sum lhs rhs r j)

/-- The host's matrix product at `(r, j)`. -/
theorem dotGeneral_plain_apply {φ₁ φ₂ : FTy} (prec : Option ContractPrecision) (sched : HostSchedule)
    (lhs : FVec Ideal (⟨2, ![R, K]⟩ : Shape) φ₁) (rhs : FVec Ideal (⟨2, ![K, M]⟩ : Shape) φ₂) (r : Fin R) (j : Fin M) :
    FloatOps.dotGeneral (DotDims.plain R K M) prec sched lhs rhs (ix2 r j)
      = ∑ k : Fin K, lhs (ix2 r k) * rhs (ix2 k j) :=
  (Ideal.dotGeneral_apply (DotDims.plain R K M) prec sched lhs rhs (ix2 r j)).trans (plain_sum lhs rhs r j)

end Cert.Rows

end
-- ==== Proof.LayerRow.lean ====
/-
  One layer of the network read on a row, in each of the two spellings the programs use.

  A kernel computes an affine map on a block of `R` rows as a matrix product into a zero accumulator plus the
  bias row `[1, M]` broadcast down the rows; the host computes it on all rows as a `dot_general` plus the bias
  vector `[M]` broadcast first to `[1, M]` and then down the rows.  Read on row `r`, both are
  `dense W b (row r of the input)`: the sum over the contracted coordinate, plus the bias at the column.
  The activation is pointwise, the same expression of the same float words in both spellings (the host writes the
  scalar words as rank-0 constants broadcast, and `exp`, `log1p` and the quotient under their host names, which at
  the extended reals are the same functions).  The skip connection joins the 217 activations with the 39 inputs
  along the columns and scales by the word for `1/√2`.  A bias vector cast to a row reads at `(0, j)` what the
  vector holds at `j`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«146509_j19370302505666_1_alg».proof.Proof.Rows
import proofs.«146509_j19370302505666_1_alg».proof.Proof.MatRow

noncomputable section

namespace Cert.Rows

open Idealize.ShloMosaic Idealize.ShloMosaic.ValueIdx

variable {R K M : Nat}

/-! ## The affine map -/

/-- The kernel's spelling on row `r`. -/
theorem kAffine_row (D : DotDims (⟨2, ![R, K]⟩ : Shape) ⟨2, ![K, M]⟩ ⟨2, ![R, M]⟩) (hD : D = DotDims.plain R K M)
    (prec : Option ContractPrecision) {φ₁ φ₂ : FTy}
    (h : FVec Ideal (⟨2, ![R, K]⟩ : Shape) φ₁) (W : FVec Ideal (⟨2, ![K, M]⟩ : Shape) φ₂)
    (b : FVec Ideal (⟨2, ![1, M]⟩ : Shape) .f32) (hb : (⟨2, ![1, M]⟩ : Shape).Broadcasts ⟨2, ![R, M]⟩) (r : Fin R) :
    rowOf (addf (matmul D prec h W (constant (⟨2, ![R, M]⟩ : Shape) .f32 0x00000000#32)) (broadcastTo (⟨2, ![R, M]⟩ : Shape) b hb)) r
      = dense (mat W) (biasRow b) (rowOf h r) := by
  subst hD
  funext j
  show FloatOps.matmul (DotDims.plain R K M) prec h W (constant (⟨2, ![R, M]⟩ : Shape) .f32 0x00000000#32) (ix2 r j)
      + broadcastTo (⟨2, ![R, M]⟩ : Shape) b hb (ix2 r j) = _
  rw [matmul_plain_apply, broadcastTo_1b_ab_apply]
  rfl

/-- A bias vector `[M]` broadcast to `[1, M]` and then to `[N, M]` reads at `(n, j)` the vector at `j`. -/
theorem bias_bcast_apply {N : Nat} (b : (⟨1, ![M]⟩ : Shape).Idx → EReal)
    (h0 : (⟨1, ![M]⟩ : Shape).BroadcastsInDim ⟨2, ![1, M]⟩ ![1])
    (h1 : (⟨2, ![1, M]⟩ : Shape).BroadcastsInDim ⟨2, ![N, M]⟩ ![0, 1]) (n : Fin N) (j : Fin M) :
    broadcastInDim (⟨2, ![N, M]⟩ : Shape) ![0, 1] h1 (broadcastInDim (⟨2, ![1, M]⟩ : Shape) ![1] h0 b) (ix2 n j) = b (ix1 j) := by
  have e1 : broadcastInDim (⟨2, ![N, M]⟩ : Shape) ![0, 1] h1 (broadcastInDim (⟨2, ![1, M]⟩ : Shape) ![1] h0 b) (ix2 n j)
      = broadcastInDim (⟨2, ![1, M]⟩ : Shape) ![1] h0 b (ix2 (0 : Fin 1) j) := by
    refine broadcastInDim_apply ![0, 1] h1 _ (ix2 n j) (ix2 (0 : Fin 1) j) fun a => ?_
    match a with
    | ⟨0, _⟩ => rfl
    | ⟨1, _⟩ =>
      show (j : ℕ) = if M = 1 then 0 else (j : ℕ)
      by_cases hM : M = 1
      · rw [if_pos hM]; have := j.isLt; omega
      · rw [if_neg hM]
  have e2 : broadcastInDim (⟨2, ![1, M]⟩ : Shape) ![1] h0 b (ix2 (0 : Fin 1) j) = b (ix1 j) := by
    refine broadcastInDim_apply ![1] h0 b (ix2 (0 : Fin 1) j) (ix1 j) fun a => ?_
    match a with
    | ⟨0, _⟩ =>
      show (j : ℕ) = if M = 1 then 0 else (j : ℕ)
      by_cases hM : M = 1
      · rw [if_pos hM]; have := j.isLt; omega
      · rw [if_neg hM]
  exact e1.trans e2

/-- The host's spelling on row `n`. -/
theorem hAffine_row {N : Nat} (D : DotDims (⟨2, ![N, K]⟩ : Shape) ⟨2, ![K, M]⟩ ⟨2, ![N, M]⟩) (hD : D = DotDims.plain N K M)
    (prec : Option ContractPrecision) {φ₁ φ₂ : FTy}
    (h : FVec Ideal (⟨2, ![N, K]⟩ : Shape) φ₁) (W : FVec Ideal (⟨2, ![K, M]⟩ : Shape) φ₂)
    (b : FVec Ideal (⟨1, ![M]⟩ : Shape) .f32)
    (h0 : (⟨1, ![M]⟩ : Shape).BroadcastsInDim ⟨2, ![1, M]⟩ ![1])
    (h1 : (⟨2, ![1, M]⟩ : Shape).BroadcastsInDim ⟨2, ![N, M]⟩ ![0, 1]) (n : Fin N) :
    rowOf (addf (Host.dotGeneral D prec h W)
        (broadcastInDim (⟨2, ![N, M]⟩ : Shape) ![0, 1] h1 (broadcastInDim (⟨2, ![1, M]⟩ : Shape) ![1] h0 b))) n
      = dense (mat W) (biasVec b) (rowOf h n) := by
  subst hD
  funext j
  show FloatOps.dotGeneral (DotDims.plain N K M) prec .single h W (ix2 n j)
      + broadcastInDim (⟨2, ![N, M]⟩ : Shape) ![0, 1] h1 (broadcastInDim (⟨2, ![1, M]⟩ : Shape) ![1] h0 b) (ix2 n j) = _
  rw [dotGeneral_plain_apply, bias_bcast_apply]
  rfl

/-- A bias vector cast to a one-row array, read as a row. -/
theorem biasRow_shapeCast (b : (⟨1, ![M]⟩ : Shape).Idx → EReal) (h : (⟨1, ![M]⟩ : Shape).ShapeCasts ⟨2, ![1, M]⟩) :
    biasRow (shapeCast (⟨2, ![1, M]⟩ : Shape) b h) = biasVec b :=
  funext fun j => shapeCast_a_1a_apply b h 0 j

/-! ## The activation -/

/-- The kernel's spelling, on a whole vector of any shape. -/
def kAct {s : Shape} (z : FVec Ideal s .f32) : FVec Ideal s .f32 :=
  select (cmpf .ogt (mulf (broadcast s (Scalar.ofBits .f32 0x42C80000#32)) z) (broadcast s (Scalar.ofBits .f32 0x41A00000#32))) z
    (divf (log1p (exp (minimumf (mulf (broadcast s (Scalar.ofBits .f32 0x42C80000#32)) z) (broadcast s (Scalar.ofBits .f32 0x41A00000#32)))))
      (broadcast s (Scalar.ofBits .f32 0x42C80000#32)))

theorem kAct_apply {s : Shape} (z : FVec Ideal s .f32) (i : s.Idx) : kAct z i = act (z i) := rfl

theorem kAct_row (z : FVec Ideal (⟨2, ![R, M]⟩ : Shape) .f32) (r : Fin R) : rowOf (kAct z) r = actRow (rowOf z r) := rfl

/-- The host's spelling: the scalar words as rank-0 constants broadcast to the shape. -/
def hAct {s : Shape} (hs : (⟨0, ![]⟩ : Shape).BroadcastsInDim s ![]) (z : FVec Ideal s .f32) : FVec Ideal s .f32 :=
  select (cmpf .ogt (mulf (broadcastInDim s ![] hs (constant (F := Ideal) (⟨0, ![]⟩ : Shape) .f32 0x42C80000#32)) z)
      (broadcastInDim s ![] hs (constant (F := Ideal) (⟨0, ![]⟩ : Shape) .f32 0x41A00000#32))) z
    (Host.divf (Host.log1p (Host.exp (minimumf (mulf (broadcastInDim s ![] hs (constant (F := Ideal) (⟨0, ![]⟩ : Shape) .f32 0x42C80000#32)) z)
      (broadcastInDim s ![] hs (constant (F := Ideal) (⟨0, ![]⟩ : Shape) .f32 0x41A00000#32)))))
      (broadcastInDim s ![] hs (constant (F := Ideal) (⟨0, ![]⟩ : Shape) .f32 0x42C80000#32)))

theorem hAct_apply {s : Shape} (hs : (⟨0, ![]⟩ : Shape).BroadcastsInDim s ![]) (z : FVec Ideal s .f32) (i : s.Idx) :
    hAct hs z i = act (z i) := rfl

theorem hAct_row (hs : (⟨0, ![]⟩ : Shape).BroadcastsInDim (⟨2, ![R, M]⟩ : Shape) ![]) (z : FVec Ideal (⟨2, ![R, M]⟩ : Shape) .f32) (r : Fin R) :
    rowOf (hAct hs z) r = actRow (rowOf z r) := rfl

/-! ## Joining along the columns -/

/-- Two arrays of `R` rows concatenated along the columns, read on row `r`: the two rows joined. -/
theorem concat_row {A B C : Nat} (hC : A + B = C) (h : (⟨2, ![R, A]⟩ : Shape).Idx → EReal) (x : (⟨2, ![R, B]⟩ : Shape).Idx → EReal)
    (hc : Shape.Concatenates [(⟨2, ![R, A]⟩ : Shape), (⟨2, ![R, B]⟩ : Shape)] (⟨2, ![R, C]⟩ : Shape) 1) (r : Fin R) :
    rowOf (concatenate (⟨2, ![R, C]⟩ : Shape) 1 [⟨(⟨2, ![R, A]⟩ : Shape), h⟩, ⟨(⟨2, ![R, B]⟩ : Shape), x⟩] hc) r
      = joinRow hC (rowOf h r) (rowOf x r) := by
  funext j
  unfold joinRow
  by_cases hj : j.val < A
  · rw [dif_pos hj]
    refine concatenate_pair_apply_left (1 : Fin 2) h x hc (ix2 r j) rfl (ix2 r ⟨j.val, hj⟩) fun b => ?_
    match b with
    | ⟨0, _⟩ => rfl
    | ⟨1, _⟩ => rfl
  · rw [dif_neg hj]
    have hj' : j.val - A < B := by have := j.isLt; omega
    refine concatenate_pair_apply_right (1 : Fin 2) h x hc (ix2 r j) rfl rfl (ix2 r ⟨j.val - A, hj'⟩) (fun b hb => ?_) ?_
    · match b with
      | ⟨0, _⟩ => rfl
      | ⟨1, _⟩ => exact absurd rfl hb
    · show j.val - A + A = j.val
      omega

end Cert.Rows

end
-- ==== Proof.PayRows.lean ====
/-
  The kernel body's arithmetic on one row of a block.

  The body's value is cut into pieces `k0_pay1 … k0_pay10`; each piece is one or two layers of the network on the
  whole block of 4096 rows.  Since every operation of a layer is either pointwise or a matrix product contracting
  the columns, row `r` of a piece depends on row `r` of its inputs only, and is the row function of `Rows`: an affine
  map (`dense`), the activation on a row (`actRow`), the skip connection (`skipRow`).  Composing the pieces as the
  body composes them gives the whole network `net` on row `r` of the block of encoded inputs, with the weight
  blocks read as matrices and the bias blocks as rows.
-/
import proofs.«146509_j19370302505666_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value
import proofs.«146509_j19370302505666_1_alg».proof.Proof.LayerRow

noncomputable section

namespace Cert.KernelIdeal.PayRows

open Cert.KernelIdeal Cert.KernelIdeal.Gen Idealize.ShloMosaic Idealize.ShloMosaic.ValueIdx Cert.Rows

/-! ## The printed dimension numbers are the plain ones -/

theorem dot39 : dot_S4096x39_S39x256_S4096x256_1_0_0_1_n_n = DotDims.plain 4096 39 256 := rfl
theorem dot256 : dot_S4096x256_S256x256_S4096x256_1_0_0_1_n_n = DotDims.plain 4096 256 256 := rfl
theorem dot217 : dot_S4096x256_S256x217_S4096x217_1_0_0_1_n_n = DotDims.plain 4096 256 217 := rfl
theorem dot260 : dot_S4096x256_S256x260_S4096x260_1_0_0_1_n_n = DotDims.plain 4096 256 260 := rfl

/-! ## A layer as the body writes it -/

/-- One affine map as the body writes it: the product of the block with the weight block into a zero accumulator, plus the
    bias row broadcast down the rows (the identity shape casts of the loaded blocks included, as printed). -/
def kAff {R K M : Nat} {φ : FTy} (D : DotDims (⟨2, ![R, K]⟩ : Shape) ⟨2, ![K, M]⟩ ⟨2, ![R, M]⟩)
    (hW : (⟨2, ![K, M]⟩ : Shape).ShapeCasts ⟨2, ![K, M]⟩) (hb : (⟨2, ![1, M]⟩ : Shape).ShapeCasts ⟨2, ![1, M]⟩)
    (hbc : (⟨2, ![1, M]⟩ : Shape).Broadcasts ⟨2, ![R, M]⟩)
    (h : FVec Ideal (⟨2, ![R, K]⟩ : Shape) φ) (W : FVec Ideal (⟨2, ![K, M]⟩ : Shape) .bf16) (b : FVec Ideal (⟨2, ![1, M]⟩ : Shape) .f32) :
    FVec Ideal (⟨2, ![R, M]⟩ : Shape) .f32 :=
  addf (matmul D none h (shapeCast (⟨2, ![K, M]⟩ : Shape) W hW) (constant (⟨2, ![R, M]⟩ : Shape) .f32 0x00000000#32))
    (broadcastTo (⟨2, ![R, M]⟩ : Shape) (shapeCast (⟨2, ![1, M]⟩ : Shape) b hb) hbc)

/-- On row `r` it is the affine map of `Rows` on row `r` of the input. -/
theorem kAff_row {R K M : Nat} {φ : FTy} (D : DotDims (⟨2, ![R, K]⟩ : Shape) ⟨2, ![K, M]⟩ ⟨2, ![R, M]⟩) (hD : D = DotDims.plain R K M)
    (hW : (⟨2, ![K, M]⟩ : Shape).ShapeCasts ⟨2, ![K, M]⟩) (hb : (⟨2, ![1, M]⟩ : Shape).ShapeCasts ⟨2, ![1, M]⟩)
    (hbc : (⟨2, ![1, M]⟩ : Shape).Broadcasts ⟨2, ![R, M]⟩)
    (h : FVec Ideal (⟨2, ![R, K]⟩ : Shape) φ) (W : FVec Ideal (⟨2, ![K, M]⟩ : Shape) .bf16) (b : FVec Ideal (⟨2, ![1, M]⟩ : Shape) .f32) (r : Fin R) :
    rowOf (kAff D hW hb hbc h W b) r = dense (mat W) (biasRow b) (rowOf h r) := by
  unfold kAff
  rw [shapeCast_self, shapeCast_self]
  exact kAffine_row D hD none h W b hbc r

/-- A change of float format is the identity on extended reals. -/
theorem truncf_row {R M : Nat} (z : FVec Ideal (⟨2, ![R, M]⟩ : Shape) .f32) (hlt : FTy.bits .bf16 < FTy.bits .f32) (r : Fin R) :
    rowOf (truncf .bf16 z hlt) r = rowOf z r := rfl

/-! ## The pieces, compactly, and on a row -/

/-- The first piece is the block of encoded inputs itself. -/
theorem pay2_row (v0 : FVec Ideal S4096x39 .f32) (r : Fin 4096) : rowOf (k0_pay2 (F := Ideal) v0) r = rowOf v0 r := by
  unfold k0_pay2
  rw [shapeCast_self]

/-- Layer 0 activated, then layer 1's affine map. -/
theorem pay3_eq (v0 : FVec Ideal S4096x39 .f32) (v3 : FVec Ideal S39x256 .bf16) (v6 : FVec Ideal S1x256 .f32)
    (v22 : FVec Ideal S256x256 .bf16) (v25 : FVec Ideal S1x256 .f32) :
    k0_pay3 (F := Ideal) v0 v3 v6 v22 v25
      = kAff dot_S4096x256_S256x256_S4096x256_1_0_0_1_n_n shapeCasts_S256x256_S256x256 shapeCasts_S1x256_S1x256 broadcasts_S1x256_S4096x256
          (truncf .bf16 (kAct (kAff dot_S4096x39_S39x256_S4096x256_1_0_0_1_n_n shapeCasts_S39x256_S39x256 shapeCasts_S1x256_S1x256 broadcasts_S1x256_S4096x256
            (truncf .bf16 (k0_pay2 (F := Ideal) v0) bitsLt_bf16_f32) v3 v6)) bitsLt_bf16_f32) v22 v25 := rfl

theorem pay3_row (v0 : FVec Ideal S4096x39 .f32) (v3 : FVec Ideal S39x256 .bf16) (v6 : FVec Ideal S1x256 .f32)
    (v22 : FVec Ideal S256x256 .bf16) (v25 : FVec Ideal S1x256 .f32) (r : Fin 4096) :
    rowOf (k0_pay3 (F := Ideal) v0 v3 v6 v22 v25) r
      = dense (mat v22) (biasRow v25) (actRow (dense (mat v3) (biasRow v6) (rowOf v0 r))) := by
  rw [pay3_eq, kAff_row _ dot256, truncf_row, kAct_row, kAff_row _ dot39, truncf_row, pay2_row]

/-- The comparison, the two branches and the affine map they are taken of make the activation of layer 1. -/
theorem pay356 (v0 : FVec Ideal S4096x39 .f32) (v3 : FVec Ideal S39x256 .bf16) (v6 : FVec Ideal S1x256 .f32)
    (v22 : FVec Ideal S256x256 .bf16) (v25 : FVec Ideal S1x256 .f32) :
    select (k0_pay5 (F := Ideal) v0 v3 v6 v22 v25) (k0_pay3 (F := Ideal) v0 v3 v6 v22 v25) (k0_pay6 (F := Ideal) v0 v3 v6 v22 v25) = kAct (k0_pay3 (F := Ideal) v0 v3 v6 v22 v25) := rfl

/-- Layers 2 and 3 on the activated layer 1 (given as its comparison and its two branches), then the 39 inputs joined on. -/
theorem pay7_eq (v1 : FVec Ideal S4096x39 .f32) (v28 : FVec Ideal S4096x256 .f32) (v32 : IVec S4096x256 1) (v38 : FVec Ideal S4096x256 .f32)
    (v41 : FVec Ideal S256x256 .bf16) (v44 : FVec Ideal S1x256 .f32) (v60 : FVec Ideal S256x217 .bf16) (v63 : FVec Ideal S1x217 .f32) :
    k0_pay7 (F := Ideal) v1 v28 v32 v38 v41 v44 v60 v63
      = concatenate S4096x256 1
          [⟨S4096x217, kAct (kAff dot_S4096x256_S256x217_S4096x217_1_0_0_1_n_n shapeCasts_S256x217_S256x217 shapeCasts_S1x217_S1x217 broadcasts_S1x217_S4096x217
              (truncf .bf16 (kAct (kAff dot_S4096x256_S256x256_S4096x256_1_0_0_1_n_n shapeCasts_S256x256_S256x256 shapeCasts_S1x256_S1x256 broadcasts_S1x256_S4096x256
                (truncf .bf16 (select v32 v28 v38) bitsLt_bf16_f32) v41 v44)) bitsLt_bf16_f32) v60 v63)⟩,
           ⟨S4096x39, v1⟩] concatenates_S4096x217_S4096x39_S4096x256_d1 := rfl

theorem pay7_row (v1 : FVec Ideal S4096x39 .f32) (v28 : FVec Ideal S4096x256 .f32) (v32 : IVec S4096x256 1) (v38 : FVec Ideal S4096x256 .f32)
    (v41 : FVec Ideal S256x256 .bf16) (v44 : FVec Ideal S1x256 .f32) (v60 : FVec Ideal S256x217 .bf16) (v63 : FVec Ideal S1x217 .f32) (r : Fin 4096) :
    rowOf (k0_pay7 (F := Ideal) v1 v28 v32 v38 v41 v44 v60 v63) r
      = joinRow (A := 217) (B := 39) (C := 256) rfl
          (actRow (dense (mat v60) (biasRow v63) (actRow (dense (mat v41) (biasRow v44) (rowOf (select v32 v28 v38) r))))) (rowOf v1 r) := by
  rw [pay7_eq, concat_row (A := 217) (B := 39) (C := 256) rfl, kAct_row, kAff_row _ dot217, truncf_row, kAct_row, kAff_row _ dot256, truncf_row]

/-- The scale of the skip connection, on every entry. -/
theorem pay8_apply (i : S4096x256.Idx) : k0_pay8 (F := Ideal) i = cSkip := rfl

/-- Layers 4 and 5 on the scaled skip connection. -/
theorem pay9_eq (v78 v79 : FVec Ideal S4096x256 .f32) (v82 : FVec Ideal S256x256 .bf16) (v85 : FVec Ideal S1x256 .f32)
    (v101 : FVec Ideal S256x256 .bf16) (v104 : FVec Ideal S1x256 .f32) :
    k0_pay9 (F := Ideal) v78 v79 v82 v85 v101 v104
      = truncf .bf16 (kAct (kAff dot_S4096x256_S256x256_S4096x256_1_0_0_1_n_n shapeCasts_S256x256_S256x256 shapeCasts_S1x256_S1x256 broadcasts_S1x256_S4096x256
          (truncf .bf16 (kAct (kAff dot_S4096x256_S256x256_S4096x256_1_0_0_1_n_n shapeCasts_S256x256_S256x256 shapeCasts_S1x256_S1x256 broadcasts_S1x256_S4096x256
            (truncf .bf16 (mulf v78 v79) bitsLt_bf16_f32) v82 v85)) bitsLt_bf16_f32) v101 v104)) bitsLt_bf16_f32 := rfl

theorem pay9_row (v78 v79 : FVec Ideal S4096x256 .f32) (v82 : FVec Ideal S256x256 .bf16) (v85 : FVec Ideal S1x256 .f32)
    (v101 : FVec Ideal S256x256 .bf16) (v104 : FVec Ideal S1x256 .f32) (r : Fin 4096) :
    rowOf (k0_pay9 (F := Ideal) v78 v79 v82 v85 v101 v104) r
      = actRow (dense (mat v101) (biasRow v104) (actRow (dense (mat v82) (biasRow v85) (rowOf (mulf v78 v79) r)))) := by
  rw [pay9_eq, truncf_row, kAct_row, kAff_row _ dot256, truncf_row, kAct_row, kAff_row _ dot256, truncf_row]

/-- Layers 6 and 7, then layer 8's sum (its bias comes with the last piece). -/
theorem pay10_eq (v119 : FVec Ideal S4096x256 .bf16) (v120 : FVec Ideal S256x256 .bf16) (v123 : FVec Ideal S1x256 .f32)
    (v139 : FVec Ideal S256x256 .bf16) (v142 : FVec Ideal S1x256 .f32) (v158 : FVec Ideal S256x260 .bf16) :
    k0_pay10 (F := Ideal) v119 v120 v123 v139 v142 v158
      = matmul dot_S4096x256_S256x260_S4096x260_1_0_0_1_n_n none
          (truncf .bf16 (kAct (kAff dot_S4096x256_S256x256_S4096x256_1_0_0_1_n_n shapeCasts_S256x256_S256x256 shapeCasts_S1x256_S1x256 broadcasts_S1x256_S4096x256
            (truncf .bf16 (kAct (kAff dot_S4096x256_S256x256_S4096x256_1_0_0_1_n_n shapeCasts_S256x256_S256x256 shapeCasts_S1x256_S1x256 broadcasts_S1x256_S4096x256
              v119 v120 v123)) bitsLt_bf16_f32) v139 v142)) bitsLt_bf16_f32)
          (shapeCast S256x260 v158 shapeCasts_S256x260_S256x260) (constant S4096x260 .f32 0x00000000#32) := rfl

theorem pay10_row (v119 : FVec Ideal S4096x256 .bf16) (v120 : FVec Ideal S256x256 .bf16) (v123 : FVec Ideal S1x256 .f32)
    (v139 : FVec Ideal S256x256 .bf16) (v142 : FVec Ideal S1x256 .f32) (v158 : FVec Ideal S256x260 .bf16) (r : Fin 4096) (j : Fin 260) :
    k0_pay10 (F := Ideal) v119 v120 v123 v139 v142 v158 (ix2 r j)
      = ∑ k : Fin 256, actRow (dense (mat v139) (biasRow v142) (actRow (dense (mat v120) (biasRow v123) (rowOf v119 r)))) k * mat v158 k j := by
  rw [pay10_eq, shapeCast_self, dot260]
  refine (matmul_plain_apply none _ v158 r j).trans ?_
  refine Finset.sum_congr rfl fun k _ => ?_
  refine congrArg (· * mat v158 k j) ?_
  have hrow : rowOf (truncf .bf16 (kAct (kAff dot_S4096x256_S256x256_S4096x256_1_0_0_1_n_n shapeCasts_S256x256_S256x256 shapeCasts_S1x256_S1x256 broadcasts_S1x256_S4096x256
            (truncf .bf16 (kAct (kAff dot_S4096x256_S256x256_S4096x256_1_0_0_1_n_n shapeCasts_S256x256_S256x256 shapeCasts_S1x256_S1x256 broadcasts_S1x256_S4096x256
              v119 v120 v123)) bitsLt_bf16_f32) v139 v142)) bitsLt_bf16_f32) r
      = actRow (dense (mat v139) (biasRow v142) (actRow (dense (mat v120) (biasRow v123) (rowOf v119 r)))) := by
    rw [truncf_row, kAct_row, kAff_row _ dot256, truncf_row, kAct_row, kAff_row _ dot256]
  exact congrFun hrow k

/-- The last piece adds layer 8's bias row. -/
theorem pay1_apply (v160 : FVec Ideal S4096x260 .f32) (v161 : FVec Ideal S1x260 .f32) (r : Fin 4096) (j : Fin 260) :
    k0_pay1 (F := Ideal) v160 v161 (ix2 r j) = v160 (ix2 r j) + biasRow v161 j := by
  unfold k0_pay1
  rw [shapeCast_self]
  show v160 (ix2 r j) + broadcastTo S4096x260 v161 broadcasts_S1x260_S4096x260 (ix2 r j) = _
  rw [broadcastTo_1b_ab_apply]

/-! ## The whole body on a row -/

/-- The parameters as the body's weight and bias blocks give them. -/
def blockParams (x1 : FVec Ideal S39x256 .bf16) (x2 : FVec Ideal S1x256 .f32) (x3 : FVec Ideal S256x256 .bf16) (x4 : FVec Ideal S1x256 .f32)
    (x5 : FVec Ideal S256x256 .bf16) (x6 : FVec Ideal S1x256 .f32) (x7 : FVec Ideal S256x217 .bf16) (x8 : FVec Ideal S1x217 .f32)
    (x9 : FVec Ideal S256x256 .bf16) (x10 : FVec Ideal S1x256 .f32) (x11 : FVec Ideal S256x256 .bf16) (x12 : FVec Ideal S1x256 .f32)
    (x13 : FVec Ideal S256x256 .bf16) (x14 : FVec Ideal S1x256 .f32) (x15 : FVec Ideal S256x256 .bf16) (x16 : FVec Ideal S1x256 .f32)
    (x17 : FVec Ideal S256x260 .bf16) (x18 : FVec Ideal S1x260 .f32) : Params where
  W0 := mat x1
  b0 := biasRow x2
  W1 := mat x3
  b1 := biasRow x4
  W2 := mat x5
  b2 := biasRow x6
  W3 := mat x7
  b3 := biasRow x8
  W4 := mat x9
  b4 := biasRow x10
  W5 := mat x11
  b5 := biasRow x12
  W6 := mat x13
  b6 := biasRow x14
  W7 := mat x15
  b7 := biasRow x16
  W8 := mat x17
  b8 := biasRow x18

/-- The body's stored value at `(r, j)` is the network on row `r` of the block of encoded inputs, at column `j`. -/
theorem body_row (x0 : FVec Ideal S4096x39 .f32) (x1 : FVec Ideal S39x256 .bf16) (x2 : FVec Ideal S1x256 .f32) (x3 : FVec Ideal S256x256 .bf16) (x4 : FVec Ideal S1x256 .f32)
    (x5 : FVec Ideal S256x256 .bf16) (x6 : FVec Ideal S1x256 .f32) (x7 : FVec Ideal S256x217 .bf16) (x8 : FVec Ideal S1x217 .f32)
    (x9 : FVec Ideal S256x256 .bf16) (x10 : FVec Ideal S1x256 .f32) (x11 : FVec Ideal S256x256 .bf16) (x12 : FVec Ideal S1x256 .f32)
    (x13 : FVec Ideal S256x256 .bf16) (x14 : FVec Ideal S1x256 .f32) (x15 : FVec Ideal S256x256 .bf16) (x16 : FVec Ideal S1x256 .f32)
    (x17 : FVec Ideal S256x260 .bf16) (x18 : FVec Ideal S1x260 .f32) (r : Fin 4096) (j : Fin 260) :
    k0_pay1 (F := Ideal) (k0_pay10 (F := Ideal) (k0_pay9 (F := Ideal) (k0_pay7 (F := Ideal) (k0_pay2 (F := Ideal) x0) (k0_pay3 (F := Ideal) x0 x1 x2 x3 x4) (k0_pay5 (F := Ideal) x0 x1 x2 x3 x4) (k0_pay6 (F := Ideal) x0 x1 x2 x3 x4) x5 x6 x7 x8)
        (k0_pay8 (F := Ideal)) x9 x10 x11 x12) x13 x14 x15 x16 x17) x18 (ix2 r j)
      = net (blockParams x1 x2 x3 x4 x5 x6 x7 x8 x9 x10 x11 x12 x13 x14 x15 x16 x17 x18) (rowOf x0 r) j := by
  rw [pay1_apply, pay10_row, pay9_row]
  have hs : rowOf (mulf (k0_pay7 (F := Ideal) (k0_pay2 (F := Ideal) x0) (k0_pay3 (F := Ideal) x0 x1 x2 x3 x4) (k0_pay5 (F := Ideal) x0 x1 x2 x3 x4) (k0_pay6 (F := Ideal) x0 x1 x2 x3 x4) x5 x6 x7 x8)
        (k0_pay8 (F := Ideal))) r
      = skipRow (actRow (dense (mat x7) (biasRow x8) (actRow (dense (mat x5) (biasRow x6)
          (actRow (dense (mat x3) (biasRow x4) (actRow (dense (mat x1) (biasRow x2) (rowOf x0 r))))))))) (rowOf x0 r) := by
    funext k
    show k0_pay7 (F := Ideal) (k0_pay2 (F := Ideal) x0) (k0_pay3 (F := Ideal) x0 x1 x2 x3 x4) (k0_pay5 (F := Ideal) x0 x1 x2 x3 x4) (k0_pay6 (F := Ideal) x0 x1 x2 x3 x4) x5 x6 x7 x8 (ix2 r k) * cSkip = _
    have h7 := congrFun (pay7_row (k0_pay2 (F := Ideal) x0) (k0_pay3 (F := Ideal) x0 x1 x2 x3 x4) (k0_pay5 (F := Ideal) x0 x1 x2 x3 x4) (k0_pay6 (F := Ideal) x0 x1 x2 x3 x4) x5 x6 x7 x8 r) k
    rw [pay356, kAct_row, pay3_row, pay2_row] at h7
    exact congrArg (· * cSkip) h7
  rw [hs]
  rfl

end Cert.KernelIdeal.PayRows

end
-- ==== Proof.KHostA.lean ====
/-
  What the region finds in its first window: the positional encoding of the points, the host operations before the
  region read back as the term `embedT` (module `NetSpec`) of the argument array of points.
-/
import proofs.«146509_j19370302505666_1_alg».proof.Proof.Gen.KernelIdeal.Frame
import Idealize.ShloMosaic.PureOps.Ideal
import proofs.«146509_j19370302505666_1_alg».proof.Proof.NetSpec

noncomputable section

namespace Cert.KernelIdeal.HostVals

open Cert.KernelIdeal Cert.KernelIdeal.Gen Idealize.ShloMosaic Idealize.ShloMosaic.TcCoe Idealize.SL.Sem Idealize.ShloMosaic.StableHlo Cert.Rows

variable (m : (ℓ : Loc nD τ sig) → Buf (Elt Ideal) ℓ)

set_option maxHeartbeats 4000000 in
/-- The region finds the encoded points in window 0's array. -/
theorem V_enc (c : Dev nD) : Gen.V m c main_v16
    = (embedT (F := Ideal) (m ((c.tc : Thread nD τ).loc main_arg0)) : FVec Ideal S131072x39 .f32) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  repeat (first
    | rw [StableHlo.reshape_result] | rw [StableHlo.unary_result] | rw [StableHlo.binary_result] | rw [StableHlo.nullary_result]
    | (rw [StableHlo.reshape_result_ne]; rotate_left; decide)
    | (rw [StableHlo.unary_result_ne]; rotate_left; decide)
    | (rw [StableHlo.binary_result_ne]; rotate_left; decide)
    | (rw [StableHlo.nullary_result_ne]; rotate_left; decide))
  rfl

end Cert.KernelIdeal.HostVals

end
-- ==== Proof.KHostB.lean ====
/-
  What the region finds in the weight and bias windows of layers 0–2: the host operations before the region,
  read back as terms of the argument arrays.  Layer `l`'s weight window holds `wnT V_l g_l` (module `HostTerms`), its bias
  window the vector `b_l` as a one-row array.
-/
import proofs.«146509_j19370302505666_1_alg».proof.Proof.Gen.KernelIdeal.Frame
import Idealize.ShloMosaic.PureOps.Ideal
import proofs.«146509_j19370302505666_1_alg».proof.Proof.NetSpec

noncomputable section

namespace Cert.KernelIdeal.HostVals

open Cert.KernelIdeal Cert.KernelIdeal.Gen Idealize.ShloMosaic Idealize.ShloMosaic.TcCoe Idealize.SL.Sem Idealize.ShloMosaic.StableHlo Cert.Rows

variable (m : (ℓ : Loc nD τ sig) → Buf (Elt Ideal) ℓ)

/-- The region finds layer 0's weight window at the weight-normalised `V0`, transposed (the change of float format is the
    identity on extended reals). -/
theorem V_w0 (c : Dev nD) : Gen.V m c main_v23
    = (truncf .bf16 (wnT (F := Ideal) w_g_256_39 w_r_256_39 w_h0 w_s_256_39 w_t_256_39
        (m ((c.tc : Thread nD τ).loc main_arg1)) (m ((c.tc : Thread nD τ).loc main_arg2))) bitsLt_bf16_f32 : FVec Ideal S39x256 .bf16) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  simp only [TRef.toBuf, TRef.ofBuf, cast_eq]
  rfl

/-- … and layer 0's bias window at the bias vector `b0` cast to one row. -/
theorem V_b0 (c : Dev nD) : Gen.V m c main_v24
    = (shapeCast S1x256 (m ((c.tc : Thread nD τ).loc main_arg3)) shapeCasts_S256_S1x256 : FVec Ideal S1x256 .f32) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

/-- The region finds layer 1's weight window at the weight-normalised `V1`, transposed (the change of float format is the
    identity on extended reals). -/
theorem V_w1 (c : Dev nD) : Gen.V m c main_v31
    = (truncf .bf16 (wnT (F := Ideal) w_g_256_256 w_r_256_256 w_h0 w_s_256_256 w_t_256_256
        (m ((c.tc : Thread nD τ).loc main_arg4)) (m ((c.tc : Thread nD τ).loc main_arg5))) bitsLt_bf16_f32 : FVec Ideal S256x256 .bf16) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  simp only [TRef.toBuf, TRef.ofBuf, cast_eq]
  rfl

/-- … and layer 1's bias window at the bias vector `b1` cast to one row. -/
theorem V_b1 (c : Dev nD) : Gen.V m c main_v32
    = (shapeCast S1x256 (m ((c.tc : Thread nD τ).loc main_arg6)) shapeCasts_S256_S1x256 : FVec Ideal S1x256 .f32) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

/-- The region finds layer 2's weight window at the weight-normalised `V2`, transposed (the change of float format is the
    identity on extended reals). -/
theorem V_w2 (c : Dev nD) : Gen.V m c main_v39
    = (truncf .bf16 (wnT (F := Ideal) w_g_256_256 w_r_256_256 w_h0 w_s_256_256 w_t_256_256
        (m ((c.tc : Thread nD τ).loc main_arg7)) (m ((c.tc : Thread nD τ).loc main_arg8))) bitsLt_bf16_f32 : FVec Ideal S256x256 .bf16) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  simp only [TRef.toBuf, TRef.ofBuf, cast_eq]
  rfl

/-- … and layer 2's bias window at the bias vector `b2` cast to one row. -/
theorem V_b2 (c : Dev nD) : Gen.V m c main_v40
    = (shapeCast S1x256 (m ((c.tc : Thread nD τ).loc main_arg9)) shapeCasts_S256_S1x256 : FVec Ideal S1x256 .f32) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

end Cert.KernelIdeal.HostVals

end
-- ==== Proof.KHostC.lean ====
/-
  What the region finds in the weight and bias windows of layers 3–5: the host operations before the region,
  read back as terms of the argument arrays.  Layer `l`'s weight window holds `wnT V_l g_l` (module `HostTerms`), its bias
  window the vector `b_l` as a one-row array.
-/
import proofs.«146509_j19370302505666_1_alg».proof.Proof.Gen.KernelIdeal.Frame
import Idealize.ShloMosaic.PureOps.Ideal
import proofs.«146509_j19370302505666_1_alg».proof.Proof.NetSpec

noncomputable section

namespace Cert.KernelIdeal.HostVals

open Cert.KernelIdeal Cert.KernelIdeal.Gen Idealize.ShloMosaic Idealize.ShloMosaic.TcCoe Idealize.SL.Sem Idealize.ShloMosaic.StableHlo Cert.Rows

variable (m : (ℓ : Loc nD τ sig) → Buf (Elt Ideal) ℓ)

/-- The region finds layer 3's weight window at the weight-normalised `V3`, transposed (the change of float format is the
    identity on extended reals). -/
theorem V_w3 (c : Dev nD) : Gen.V m c main_v47
    = (truncf .bf16 (wnT (F := Ideal) w_g_217_256 w_r_217_256 w_h0 w_s_217_256 w_t_217_256
        (m ((c.tc : Thread nD τ).loc main_arg10)) (m ((c.tc : Thread nD τ).loc main_arg11))) bitsLt_bf16_f32 : FVec Ideal S256x217 .bf16) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  simp only [TRef.toBuf, TRef.ofBuf, cast_eq]
  rfl

/-- … and layer 3's bias window at the bias vector `b3` cast to one row. -/
theorem V_b3 (c : Dev nD) : Gen.V m c main_v48
    = (shapeCast S1x217 (m ((c.tc : Thread nD τ).loc main_arg12)) shapeCasts_S217_S1x217 : FVec Ideal S1x217 .f32) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

/-- The region finds layer 4's weight window at the weight-normalised `V4`, transposed (the change of float format is the
    identity on extended reals). -/
theorem V_w4 (c : Dev nD) : Gen.V m c main_v55
    = (truncf .bf16 (wnT (F := Ideal) w_g_256_256 w_r_256_256 w_h0 w_s_256_256 w_t_256_256
        (m ((c.tc : Thread nD τ).loc main_arg13)) (m ((c.tc : Thread nD τ).loc main_arg14))) bitsLt_bf16_f32 : FVec Ideal S256x256 .bf16) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  simp only [TRef.toBuf, TRef.ofBuf, cast_eq]
  rfl

/-- … and layer 4's bias window at the bias vector `b4` cast to one row. -/
theorem V_b4 (c : Dev nD) : Gen.V m c main_v56
    = (shapeCast S1x256 (m ((c.tc : Thread nD τ).loc main_arg15)) shapeCasts_S256_S1x256 : FVec Ideal S1x256 .f32) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

/-- The region finds layer 5's weight window at the weight-normalised `V5`, transposed (the change of float format is the
    identity on extended reals). -/
theorem V_w5 (c : Dev nD) : Gen.V m c main_v63
    = (truncf .bf16 (wnT (F := Ideal) w_g_256_256 w_r_256_256 w_h0 w_s_256_256 w_t_256_256
        (m ((c.tc : Thread nD τ).loc main_arg16)) (m ((c.tc : Thread nD τ).loc main_arg17))) bitsLt_bf16_f32 : FVec Ideal S256x256 .bf16) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  simp only [TRef.toBuf, TRef.ofBuf, cast_eq]
  rfl

/-- … and layer 5's bias window at the bias vector `b5` cast to one row. -/
theorem V_b5 (c : Dev nD) : Gen.V m c main_v64
    = (shapeCast S1x256 (m ((c.tc : Thread nD τ).loc main_arg18)) shapeCasts_S256_S1x256 : FVec Ideal S1x256 .f32) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

end Cert.KernelIdeal.HostVals

end
-- ==== Proof.KHostD.lean ====
/-
  What the region finds in the weight and bias windows of layers 6–8: the host operations before the region,
  read back as terms of the argument arrays.  Layer `l`'s weight window holds `wnT V_l g_l` (module `HostTerms`), its bias
  window the vector `b_l` as a one-row array.
-/
import proofs.«146509_j19370302505666_1_alg».proof.Proof.Gen.KernelIdeal.Frame
import Idealize.ShloMosaic.PureOps.Ideal
import proofs.«146509_j19370302505666_1_alg».proof.Proof.NetSpec

noncomputable section

namespace Cert.KernelIdeal.HostVals

open Cert.KernelIdeal Cert.KernelIdeal.Gen Idealize.ShloMosaic Idealize.ShloMosaic.TcCoe Idealize.SL.Sem Idealize.ShloMosaic.StableHlo Cert.Rows

variable (m : (ℓ : Loc nD τ sig) → Buf (Elt Ideal) ℓ)

/-- The region finds layer 6's weight window at the weight-normalised `V6`, transposed (the change of float format is the
    identity on extended reals). -/
theorem V_w6 (c : Dev nD) : Gen.V m c main_v71
    = (truncf .bf16 (wnT (F := Ideal) w_g_256_256 w_r_256_256 w_h0 w_s_256_256 w_t_256_256
        (m ((c.tc : Thread nD τ).loc main_arg19)) (m ((c.tc : Thread nD τ).loc main_arg20))) bitsLt_bf16_f32 : FVec Ideal S256x256 .bf16) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  simp only [TRef.toBuf, TRef.ofBuf, cast_eq]
  rfl

/-- … and layer 6's bias window at the bias vector `b6` cast to one row. -/
theorem V_b6 (c : Dev nD) : Gen.V m c main_v72
    = (shapeCast S1x256 (m ((c.tc : Thread nD τ).loc main_arg21)) shapeCasts_S256_S1x256 : FVec Ideal S1x256 .f32) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

/-- The region finds layer 7's weight window at the weight-normalised `V7`, transposed (the change of float format is the
    identity on extended reals). -/
theorem V_w7 (c : Dev nD) : Gen.V m c main_v79
    = (truncf .bf16 (wnT (F := Ideal) w_g_256_256 w_r_256_256 w_h0 w_s_256_256 w_t_256_256
        (m ((c.tc : Thread nD τ).loc main_arg22)) (m ((c.tc : Thread nD τ).loc main_arg23))) bitsLt_bf16_f32 : FVec Ideal S256x256 .bf16) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  simp only [TRef.toBuf, TRef.ofBuf, cast_eq]
  rfl

/-- … and layer 7's bias window at the bias vector `b7` cast to one row. -/
theorem V_b7 (c : Dev nD) : Gen.V m c main_v80
    = (shapeCast S1x256 (m ((c.tc : Thread nD τ).loc main_arg24)) shapeCasts_S256_S1x256 : FVec Ideal S1x256 .f32) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

/-- The region finds layer 8's weight window at the weight-normalised `V8`, transposed (the change of float format is the
    identity on extended reals). -/
theorem V_w8 (c : Dev nD) : Gen.V m c main_v87
    = (truncf .bf16 (wnT (F := Ideal) w_g_260_256 w_r_260_256 w_h0 w_s_260_256 w_t_260_256
        (m ((c.tc : Thread nD τ).loc main_arg25)) (m ((c.tc : Thread nD τ).loc main_arg26))) bitsLt_bf16_f32 : FVec Ideal S256x260 .bf16) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  simp only [TRef.toBuf, TRef.ofBuf, cast_eq]
  rfl

/-- … and layer 8's bias window at the bias vector `b8` cast to one row. -/
theorem V_b8 (c : Dev nD) : Gen.V m c main_v88
    = (shapeCast S1x260 (m ((c.tc : Thread nD τ).loc main_arg27)) shapeCasts_S260_S1x260 : FVec Ideal S1x260 .f32) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

end Cert.KernelIdeal.HostVals

end
-- ==== Proof.KernelValue.lean ====
/-
  From the blocks to the array.

  The kernel's output array `[131072, 260]` is written by 32 grid points, point `t` writing rows `4096·t … 4096·t + 4095`.
  What point `t` writes back is the body's value on its input blocks: block `t` of the encoded points (rows `4096·t + r`)
  and, at every point, the WHOLE of each weight and bias array (their index maps are constant).  By `PayRows.body_row`
  entry `(r, j)` of that value is the network on row `r` of the block, that is on row `4096·t + r` of the encoding, with
  the parameters the host operations before the region computed (`HostVals`): exactly entry `(4096·t + r, j)` of `Gout` of
  the argument arrays.  The 32 blocks cover the array (row `n` lies in block `n / 4096`), so the array ends at `Gout`.
-/
import proofs.«146509_j19370302505666_1_alg».proof.Proof.Gen.KernelIdeal.Value
import Idealize.ShloMosaic.PureOps.Ideal
import Idealize.ShloMosaic.Lib.Pipeline.Value
import Idealize.ShloMosaic.Lib.ValueIdx
import proofs.«146509_j19370302505666_1_alg».proof.Proof.NetSpec
import proofs.«146509_j19370302505666_1_alg».proof.Proof.LayerRow
import proofs.«146509_j19370302505666_1_alg».proof.Proof.PayRows
import proofs.«146509_j19370302505666_1_alg».proof.Proof.KHostA
import proofs.«146509_j19370302505666_1_alg».proof.Proof.KHostB
import proofs.«146509_j19370302505666_1_alg».proof.Proof.KHostC
import proofs.«146509_j19370302505666_1_alg».proof.Proof.KHostD

noncomputable section

namespace Cert.KernelIdeal.NetValue

open Cert.KernelIdeal Cert.KernelIdeal.Gen Idealize.ShloMosaic Idealize.ShloMosaic.TcCoe Idealize.SL.Sem
open Idealize.ShloMosaic.ValueIdx Cert.Rows Cert.KernelIdeal.PayRows Cert.KernelIdeal.HostVals
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 32 grid points -/

/-- The encoded points' window and the output window move together down the rows; their column block is the only one. -/
theorem idx0 : ∀ t : Fin cfg0.N, win0_0.index t (0 : Fin 2) = win0_19.index t (0 : Fin 2) ∧ win0_0.index t (1 : Fin 2) = 0 :=
  (by decide +kernel : ∀ t : Fin grid0.N, _)
theorem idx19 : ∀ t : Fin cfg0.N, win0_19.index t (0 : Fin 2) = t.val ∧ win0_19.index t (1 : Fin 2) = 0 :=
  (by decide +kernel : ∀ t : Fin grid0.N, _)
/-- Every weight and bias window sits at block `(0, 0)` at every point. -/
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 2) = 0 ∧ win0_15.index t (1 : Fin 2) = 0 :=
  (by decide +kernel : ∀ t : Fin grid0.N, _)
theorem idx16 : ∀ t : Fin cfg0.N, win0_16.index t (0 : Fin 2) = 0 ∧ win0_16.index t (1 : Fin 2) = 0 :=
  (by decide +kernel : ∀ t : Fin grid0.N, _)
theorem idx17 : ∀ t : Fin cfg0.N, win0_17.index t (0 : Fin 2) = 0 ∧ win0_17.index t (1 : Fin 2) = 0 :=
  (by decide +kernel : ∀ t : Fin grid0.N, _)
theorem idx18 : ∀ t : Fin cfg0.N, win0_18.index t (0 : Fin 2) = 0 ∧ win0_18.index t (1 : Fin 2) = 0 :=
  (by decide +kernel : ∀ t : Fin grid0.N, _)

/-! ## The weight and bias windows' blocks are the whole arrays -/

theorem blk1 (c : Dev nD) (t : Fin cfg0.N) : (iblk m c 1 t : S39x256.Idx → EReal) = V m c main_v23 := by
  funext y
  show V m c main_v23 (((cfg0.win 1).blk t).view.emb y) = V m c main_v23 y
  refine congrArg (V m c main_v23) (funext fun a => Fin.ext ?_)
  match a with
  | ⟨0, _⟩ => show win0_1.index t (0 : Fin 2) * 39 + 1 * (y 0).val = (y 0).val; rw [(idx1 t).1]; omega
  | ⟨1, _⟩ => show win0_1.index t (1 : Fin 2) * 256 + 1 * (y 1).val = (y 1).val; rw [(idx1 t).2]; omega
theorem blk2 (c : Dev nD) (t : Fin cfg0.N) : (iblk m c 2 t : S1x256.Idx → EReal) = V m c main_v24 := by
  funext y
  show V m c main_v24 (((cfg0.win 2).blk t).view.emb y) = V m c main_v24 y
  refine congrArg (V m c main_v24) (funext fun a => Fin.ext ?_)
  match a with
  | ⟨0, _⟩ => show win0_2.index t (0 : Fin 2) * 1 + 1 * (y 0).val = (y 0).val; rw [(idx2 t).1]; omega
  | ⟨1, _⟩ => show win0_2.index t (1 : Fin 2) * 256 + 1 * (y 1).val = (y 1).val; rw [(idx2 t).2]; omega
theorem blk3 (c : Dev nD) (t : Fin cfg0.N) : (iblk m c 3 t : S256x256.Idx → EReal) = V m c main_v31 := by
  funext y
  show V m c main_v31 (((cfg0.win 3).blk t).view.emb y) = V m c main_v31 y
  refine congrArg (V m c main_v31) (funext fun a => Fin.ext ?_)
  match a with
  | ⟨0, _⟩ => show win0_3.index t (0 : Fin 2) * 256 + 1 * (y 0).val = (y 0).val; rw [(idx3 t).1]; omega
  | ⟨1, _⟩ => show win0_3.index t (1 : Fin 2) * 256 + 1 * (y 1).val = (y 1).val; rw [(idx3 t).2]; omega
theorem blk4 (c : Dev nD) (t : Fin cfg0.N) : (iblk m c 4 t : S1x256.Idx → EReal) = V m c main_v32 := by
  funext y
  show V m c main_v32 (((cfg0.win 4).blk t).view.emb y) = V m c main_v32 y
  refine congrArg (V m c main_v32) (funext fun a => Fin.ext ?_)
  match a with
  | ⟨0, _⟩ => show win0_4.index t (0 : Fin 2) * 1 + 1 * (y 0).val = (y 0).val; rw [(idx4 t).1]; omega
  | ⟨1, _⟩ => show win0_4.index t (1 : Fin 2) * 256 + 1 * (y 1).val = (y 1).val; rw [(idx4 t).2]; omega
theorem blk5 (c : Dev nD) (t : Fin cfg0.N) : (iblk m c 5 t : S256x256.Idx → EReal) = V m c main_v39 := by
  funext y
  show V m c main_v39 (((cfg0.win 5).blk t).view.emb y) = V m c main_v39 y
  refine congrArg (V m c main_v39) (funext fun a => Fin.ext ?_)
  match a with
  | ⟨0, _⟩ => show win0_5.index t (0 : Fin 2) * 256 + 1 * (y 0).val = (y 0).val; rw [(idx5 t).1]; omega
  | ⟨1, _⟩ => show win0_5.index t (1 : Fin 2) * 256 + 1 * (y 1).val = (y 1).val; rw [(idx5 t).2]; omega
theorem blk6 (c : Dev nD) (t : Fin cfg0.N) : (iblk m c 6 t : S1x256.Idx → EReal) = V m c main_v40 := by
  funext y
  show V m c main_v40 (((cfg0.win 6).blk t).view.emb y) = V m c main_v40 y
  refine congrArg (V m c main_v40) (funext fun a => Fin.ext ?_)
  match a with
  | ⟨0, _⟩ => show win0_6.index t (0 : Fin 2) * 1 + 1 * (y 0).val = (y 0).val; rw [(idx6 t).1]; omega
  | ⟨1, _⟩ => show win0_6.index t (1 : Fin 2) * 256 + 1 * (y 1).val = (y 1).val; rw [(idx6 t).2]; omega
theorem blk7 (c : Dev nD) (t : Fin cfg0.N) : (iblk m c 7 t : S256x217.Idx → EReal) = V m c main_v47 := by
  funext y
  show V m c main_v47 (((cfg0.win 7).blk t).view.emb y) = V m c main_v47 y
  refine congrArg (V m c main_v47) (funext fun a => Fin.ext ?_)
  match a with
  | ⟨0, _⟩ => show win0_7.index t (0 : Fin 2) * 256 + 1 * (y 0).val = (y 0).val; rw [(idx7 t).1]; omega
  | ⟨1, _⟩ => show win0_7.index t (1 : Fin 2) * 217 + 1 * (y 1).val = (y 1).val; rw [(idx7 t).2]; omega
theorem blk8 (c : Dev nD) (t : Fin cfg0.N) : (iblk m c 8 t : S1x217.Idx → EReal) = V m c main_v48 := by
  funext y
  show V m c main_v48 (((cfg0.win 8).blk t).view.emb y) = V m c main_v48 y
  refine congrArg (V m c main_v48) (funext fun a => Fin.ext ?_)
  match a with
  | ⟨0, _⟩ => show win0_8.index t (0 : Fin 2) * 1 + 1 * (y 0).val = (y 0).val; rw [(idx8 t).1]; omega
  | ⟨1, _⟩ => show win0_8.index t (1 : Fin 2) * 217 + 1 * (y 1).val = (y 1).val; rw [(idx8 t).2]; omega
theorem blk9 (c : Dev nD) (t : Fin cfg0.N) : (iblk m c 9 t : S256x256.Idx → EReal) = V m c main_v55 := by
  funext y
  show V m c main_v55 (((cfg0.win 9).blk t).view.emb y) = V m c main_v55 y
  refine congrArg (V m c main_v55) (funext fun a => Fin.ext ?_)
  match a with
  | ⟨0, _⟩ => show win0_9.index t (0 : Fin 2) * 256 + 1 * (y 0).val = (y 0).val; rw [(idx9 t).1]; omega
  | ⟨1, _⟩ => show win0_9.index t (1 : Fin 2) * 256 + 1 * (y 1).val = (y 1).val; rw [(idx9 t).2]; omega
theorem blk10 (c : Dev nD) (t : Fin cfg0.N) : (iblk m c 10 t : S1x256.Idx → EReal) = V m c main_v56 := by
  funext y
  show V m c main_v56 (((cfg0.win 10).blk t).view.emb y) = V m c main_v56 y
  refine congrArg (V m c main_v56) (funext fun a => Fin.ext ?_)
  match a with
  | ⟨0, _⟩ => show win0_10.index t (0 : Fin 2) * 1 + 1 * (y 0).val = (y 0).val; rw [(idx10 t).1]; omega
  | ⟨1, _⟩ => show win0_10.index t (1 : Fin 2) * 256 + 1 * (y 1).val = (y 1).val; rw [(idx10 t).2]; omega
theorem blk11 (c : Dev nD) (t : Fin cfg0.N) : (iblk m c 11 t : S256x256.Idx → EReal) = V m c main_v63 := by
  funext y
  show V m c main_v63 (((cfg0.win 11).blk t).view.emb y) = V m c main_v63 y
  refine congrArg (V m c main_v63) (funext fun a => Fin.ext ?_)
  match a with
  | ⟨0, _⟩ => show win0_11.index t (0 : Fin 2) * 256 + 1 * (y 0).val = (y 0).val; rw [(idx11 t).1]; omega
  | ⟨1, _⟩ => show win0_11.index t (1 : Fin 2) * 256 + 1 * (y 1).val = (y 1).val; rw [(idx11 t).2]; omega
theorem blk12 (c : Dev nD) (t : Fin cfg0.N) : (iblk m c 12 t : S1x256.Idx → EReal) = V m c main_v64 := by
  funext y
  show V m c main_v64 (((cfg0.win 12).blk t).view.emb y) = V m c main_v64 y
  refine congrArg (V m c main_v64) (funext fun a => Fin.ext ?_)
  match a with
  | ⟨0, _⟩ => show win0_12.index t (0 : Fin 2) * 1 + 1 * (y 0).val = (y 0).val; rw [(idx12 t).1]; omega
  | ⟨1, _⟩ => show win0_12.index t (1 : Fin 2) * 256 + 1 * (y 1).val = (y 1).val; rw [(idx12 t).2]; omega
theorem blk13 (c : Dev nD) (t : Fin cfg0.N) : (iblk m c 13 t : S256x256.Idx → EReal) = V m c main_v71 := by
  funext y
  show V m c main_v71 (((cfg0.win 13).blk t).view.emb y) = V m c main_v71 y
  refine congrArg (V m c main_v71) (funext fun a => Fin.ext ?_)
  match a with
  | ⟨0, _⟩ => show win0_13.index t (0 : Fin 2) * 256 + 1 * (y 0).val = (y 0).val; rw [(idx13 t).1]; omega
  | ⟨1, _⟩ => show win0_13.index t (1 : Fin 2) * 256 + 1 * (y 1).val = (y 1).val; rw [(idx13 t).2]; omega
theorem blk14 (c : Dev nD) (t : Fin cfg0.N) : (iblk m c 14 t : S1x256.Idx → EReal) = V m c main_v72 := by
  funext y
  show V m c main_v72 (((cfg0.win 14).blk t).view.emb y) = V m c main_v72 y
  refine congrArg (V m c main_v72) (funext fun a => Fin.ext ?_)
  match a with
  | ⟨0, _⟩ => show win0_14.index t (0 : Fin 2) * 1 + 1 * (y 0).val = (y 0).val; rw [(idx14 t).1]; omega
  | ⟨1, _⟩ => show win0_14.index t (1 : Fin 2) * 256 + 1 * (y 1).val = (y 1).val; rw [(idx14 t).2]; omega
theorem blk15 (c : Dev nD) (t : Fin cfg0.N) : (iblk m c 15 t : S256x256.Idx → EReal) = V m c main_v79 := by
  funext y
  show V m c main_v79 (((cfg0.win 15).blk t).view.emb y) = V m c main_v79 y
  refine congrArg (V m c main_v79) (funext fun a => Fin.ext ?_)
  match a with
  | ⟨0, _⟩ => show win0_15.index t (0 : Fin 2) * 256 + 1 * (y 0).val = (y 0).val; rw [(idx15 t).1]; omega
  | ⟨1, _⟩ => show win0_15.index t (1 : Fin 2) * 256 + 1 * (y 1).val = (y 1).val; rw [(idx15 t).2]; omega
theorem blk16 (c : Dev nD) (t : Fin cfg0.N) : (iblk m c 16 t : S1x256.Idx → EReal) = V m c main_v80 := by
  funext y
  show V m c main_v80 (((cfg0.win 16).blk t).view.emb y) = V m c main_v80 y
  refine congrArg (V m c main_v80) (funext fun a => Fin.ext ?_)
  match a with
  | ⟨0, _⟩ => show win0_16.index t (0 : Fin 2) * 1 + 1 * (y 0).val = (y 0).val; rw [(idx16 t).1]; omega
  | ⟨1, _⟩ => show win0_16.index t (1 : Fin 2) * 256 + 1 * (y 1).val = (y 1).val; rw [(idx16 t).2]; omega
theorem blk17 (c : Dev nD) (t : Fin cfg0.N) : (iblk m c 17 t : S256x260.Idx → EReal) = V m c main_v87 := by
  funext y
  show V m c main_v87 (((cfg0.win 17).blk t).view.emb y) = V m c main_v87 y
  refine congrArg (V m c main_v87) (funext fun a => Fin.ext ?_)
  match a with
  | ⟨0, _⟩ => show win0_17.index t (0 : Fin 2) * 256 + 1 * (y 0).val = (y 0).val; rw [(idx17 t).1]; omega
  | ⟨1, _⟩ => show win0_17.index t (1 : Fin 2) * 260 + 1 * (y 1).val = (y 1).val; rw [(idx17 t).2]; omega
theorem blk18 (c : Dev nD) (t : Fin cfg0.N) : (iblk m c 18 t : S1x260.Idx → EReal) = V m c main_v88 := by
  funext y
  show V m c main_v88 (((cfg0.win 18).blk t).view.emb y) = V m c main_v88 y
  refine congrArg (V m c main_v88) (funext fun a => Fin.ext ?_)
  match a with
  | ⟨0, _⟩ => show win0_18.index t (0 : Fin 2) * 1 + 1 * (y 0).val = (y 0).val; rw [(idx18 t).1]; omega
  | ⟨1, _⟩ => show win0_18.index t (1 : Fin 2) * 260 + 1 * (y 1).val = (y 1).val; rw [(idx18 t).2]; omega

/-! ## The parameters the body reads are the network's -/

/-- The weight blocks (the weight-normalised matrices, in the narrower float format: the same extended reals) and the bias rows
    (the bias vectors as one-row arrays) give the parameters of `Gout`. -/
theorem params_eq
    (V0 : FVec Ideal (⟨2, ![256, 39]⟩ : Shape) .f32) (g0 : FVec Ideal (⟨1, ![256]⟩ : Shape) .f32) (b0 : FVec Ideal (⟨1, ![256]⟩ : Shape) .f32)
    (V1 : FVec Ideal (⟨2, ![256, 256]⟩ : Shape) .f32) (g1 : FVec Ideal (⟨1, ![256]⟩ : Shape) .f32) (b1 : FVec Ideal (⟨1, ![256]⟩ : Shape) .f32)
    (V2 : FVec Ideal (⟨2, ![256, 256]⟩ : Shape) .f32) (g2 : FVec Ideal (⟨1, ![256]⟩ : Shape) .f32) (b2 : FVec Ideal (⟨1, ![256]⟩ : Shape) .f32)
    (V3 : FVec Ideal (⟨2, ![217, 256]⟩ : Shape) .f32) (g3 : FVec Ideal (⟨1, ![217]⟩ : Shape) .f32) (b3 : FVec Ideal (⟨1, ![217]⟩ : Shape) .f32)
    (V4 : FVec Ideal (⟨2, ![256, 256]⟩ : Shape) .f32) (g4 : FVec Ideal (⟨1, ![256]⟩ : Shape) .f32) (b4 : FVec Ideal (⟨1, ![256]⟩ : Shape) .f32)
    (V5 : FVec Ideal (⟨2, ![256, 256]⟩ : Shape) .f32) (g5 : FVec Ideal (⟨1, ![256]⟩ : Shape) .f32) (b5 : FVec Ideal (⟨1, ![256]⟩ : Shape) .f32)
    (V6 : FVec Ideal (⟨2, ![256, 256]⟩ : Shape) .f32) (g6 : FVec Ideal (⟨1, ![256]⟩ : Shape) .f32) (b6 : FVec Ideal (⟨1, ![256]⟩ : Shape) .f32)
    (V7 : FVec Ideal (⟨2, ![256, 256]⟩ : Shape) .f32) (g7 : FVec Ideal (⟨1, ![256]⟩ : Shape) .f32) (b7 : FVec Ideal (⟨1, ![256]⟩ : Shape) .f32)
    (V8 : FVec Ideal (⟨2, ![260, 256]⟩ : Shape) .f32) (g8 : FVec Ideal (⟨1, ![260]⟩ : Shape) .f32) (b8 : FVec Ideal (⟨1, ![260]⟩ : Shape) .f32) :
    blockParams
      (truncf .bf16 (wnT (F := Ideal) w_g_256_39 w_r_256_39 w_h0 w_s_256_39 w_t_256_39 V0 g0) bitsLt_bf16_f32)
      (shapeCast S1x256 b0 shapeCasts_S256_S1x256)
      (truncf .bf16 (wnT (F := Ideal) w_g_256_256 w_r_256_256 w_h0 w_s_256_256 w_t_256_256 V1 g1) bitsLt_bf16_f32)
      (shapeCast S1x256 b1 shapeCasts_S256_S1x256)
      (truncf .bf16 (wnT (F := Ideal) w_g_256_256 w_r_256_256 w_h0 w_s_256_256 w_t_256_256 V2 g2) bitsLt_bf16_f32)
      (shapeCast S1x256 b2 shapeCasts_S256_S1x256)
      (truncf .bf16 (wnT (F := Ideal) w_g_217_256 w_r_217_256 w_h0 w_s_217_256 w_t_217_256 V3 g3) bitsLt_bf16_f32)
      (shapeCast S1x217 b3 shapeCasts_S217_S1x217)
      (truncf .bf16 (wnT (F := Ideal) w_g_256_256 w_r_256_256 w_h0 w_s_256_256 w_t_256_256 V4 g4) bitsLt_bf16_f32)
      (shapeCast S1x256 b4 shapeCasts_S256_S1x256)
      (truncf .bf16 (wnT (F := Ideal) w_g_256_256 w_r_256_256 w_h0 w_s_256_256 w_t_256_256 V5 g5) bitsLt_bf16_f32)
      (shapeCast S1x256 b5 shapeCasts_S256_S1x256)
      (truncf .bf16 (wnT (F := Ideal) w_g_256_256 w_r_256_256 w_h0 w_s_256_256 w_t_256_256 V6 g6) bitsLt_bf16_f32)
      (shapeCast S1x256 b6 shapeCasts_S256_S1x256)
      (truncf .bf16 (wnT (F := Ideal) w_g_256_256 w_r_256_256 w_h0 w_s_256_256 w_t_256_256 V7 g7) bitsLt_bf16_f32)
      (shapeCast S1x256 b7 shapeCasts_S256_S1x256)
      (truncf .bf16 (wnT (F := Ideal) w_g_260_256 w_r_260_256 w_h0 w_s_260_256 w_t_260_256 V8 g8) bitsLt_bf16_f32)
      (shapeCast S1x260 b8 shapeCasts_S260_S1x260)
      = paramsOf V0 g0 b0 V1 g1 b1 V2 g2 b2 V3 g3 b3 V4 g4 b4 V5 g5 b5 V6 g6 b6 V7 g7 b7 V8 g8 b8 := by
  unfold blockParams paramsOf
  simp only [biasRow_shapeCast]
  rfl

/-! ## What a point writes back -/

/-- The array the run ends at, of the argument arrays. -/
abbrev G (c : Dev nD) : FVec Ideal SN260 .f32 := Gout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))

/-- WHAT POINT `t` WRITES BACK is block `t` of `G`. -/
theorem flushed_eq (c : Dev nD) (t : Fin cfg0.N) :
    (dats m 0 c).flushed 19 t = ((cfg0.win 19).blk t).view.read (Elt Ideal) (G m c) := by
  rw [Value.flushed19]
  unfold out0_19
  rw [View.canon_unit_zero hz]
  simp only [View.ld_unit_zero (S := S4096x39) hz, View.ld_unit_zero (S := S39x256) hz, View.ld_unit_zero (S := S1x256) hz, View.ld_unit_zero (S := S256x256) hz, View.ld_unit_zero (S := S256x217) hz, View.ld_unit_zero (S := S1x217) hz, View.ld_unit_zero (S := S256x260) hz, View.ld_unit_zero (S := S1x260) hz]
  funext y
  obtain ⟨r, j, rfl⟩ : ∃ (r : Fin 4096) (j : Fin 260), y = ix2 r j := ⟨y 0, y 1, eq_ix2 y⟩
  refine (body_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) r j).trans ?_
  have hp : blockParams (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) = paramsOf (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
    rw [blk1 m c t, blk2 m c t, blk3 m c t, blk4 m c t, blk5 m c t, blk6 m c t, blk7 m c t, blk8 m c t, blk9 m c t, blk10 m c t, blk11 m c t, blk12 m c t, blk13 m c t, blk14 m c t, blk15 m c t, blk16 m c t, blk17 m c t, blk18 m c t]
    rw [V_w0 m c, V_b0 m c, V_w1 m c, V_b1 m c, V_w2 m c, V_b2 m c, V_w3 m c, V_b3 m c, V_w4 m c, V_b4 m c, V_w5 m c, V_b5 m c, V_w6 m c, V_b6 m c, V_w7 m c, V_b7 m c, V_w8 m c, V_b8 m c]
    exact params_eq (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))
  rw [hp]
  show net (paramsOf (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) (rowOf (iblk m c 0 t) r) j
      = net (paramsOf (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) (rowOf (embedT (F := Ideal) (m ((c.tc : Thread nD τ).loc main_arg0))) ((((cfg0.win 19).blk t).view.emb (ix2 r j)) 0))
          ((((cfg0.win 19).blk t).view.emb (ix2 r j)) 1)
  have hrow : rowOf (iblk m c 0 t) r
      = rowOf (embedT (F := Ideal) (m ((c.tc : Thread nD τ).loc main_arg0))) ((((cfg0.win 19).blk t).view.emb (ix2 r j)) 0) := by
    funext k
    show V m c main_v16 (((cfg0.win 0).blk t).view.emb (ix2 r k))
        = embedT (F := Ideal) (m ((c.tc : Thread nD τ).loc main_arg0)) (ix2 ((((cfg0.win 19).blk t).view.emb (ix2 r j)) 0) k)
    rw [V_enc m c]
    refine congrArg (embedT (F := Ideal) (m ((c.tc : Thread nD τ).loc main_arg0))) (funext fun a => Fin.ext ?_)
    match a with
    | ⟨0, _⟩ =>
      show win0_0.index t (0 : Fin 2) * 4096 + 1 * r.val = win0_19.index t (0 : Fin 2) * 4096 + 1 * r.val
      rw [(idx0 t).1]
    | ⟨1, _⟩ =>
      show win0_0.index t (1 : Fin 2) * 39 + 1 * k.val = k.val
      rw [(idx0 t).2]; omega
  have hcol : (((cfg0.win 19).blk t).view.emb (ix2 r j)) 1 = j :=
    Fin.ext (by show win0_19.index t (1 : Fin 2) * 260 + 1 * j.val = j.val; rw [(idx19 t).2]; omega)
  rw [hrow, hcol]

/-! ## The blocks cover the array -/

/-- An index of the array is in point `t`'s block iff each coordinate is in the block's range on its axis. -/
theorem mem_blk (t : Fin cfg0.N) (i : S131072x260.Idx) :
    i ∈ ((cfg0.win 19).blk t).view.set ↔ ∀ a : Fin 2, win0_19.index t a * S4096x260.size a ≤ (i a).val ∧ (i a).val < win0_19.index t a * S4096x260.size a + S4096x260.size a := by
  show i ∈ ((View.whole main_v89).slice (win0_19.rect t)).set ↔ _
  rw [View.set_slice_whole, Rect.mem_set_unit]
  exact Iff.rfl

/-- Row `n` lies in the block of point `n / 4096`. -/
theorem cover (i : S131072x260.Idx) : ∃ t : Fin cfg0.N, (cfg0.win 19).flush t = true ∧ i ∈ ((cfg0.win 19).blk t).view.set := by
  have hi0 : (i 0).val < 131072 := (i 0).isLt
  have hi1 : (i 1).val < 260 := (i 1).isLt
  have hN : cfg0.N = 32 := Gen.N_0
  have hq : (i 0).val / 4096 < cfg0.N := by rw [hN]; omega
  refine ⟨⟨(i 0).val / 4096, hq⟩, flush0_19 _, ?_⟩
  rw [mem_blk]
  have h19 := idx19 ⟨(i 0).val / 4096, hq⟩
  intro a
  match a with
  | ⟨0, _⟩ =>
    show win0_19.index ⟨(i 0).val / 4096, hq⟩ (0 : Fin 2) * 4096 ≤ (i 0).val ∧ (i 0).val < win0_19.index ⟨(i 0).val / 4096, hq⟩ (0 : Fin 2) * 4096 + 4096
    rw [h19.1]
    show (i 0).val / 4096 * 4096 ≤ (i 0).val ∧ (i 0).val < (i 0).val / 4096 * 4096 + 4096
    omega
  | ⟨1, _⟩ =>
    show win0_19.index ⟨(i 0).val / 4096, hq⟩ (1 : Fin 2) * 260 ≤ (i 1).val ∧ (i 1).val < win0_19.index ⟨(i 0).val / 4096, hq⟩ (1 : Fin 2) * 260 + 260
    rw [h19.2]
    omega

/-! ## The array after the run, and the run -/

/-- THE ARRAY after the run is `G` of the argument arrays. -/
theorem final (c : Dev nD) : (dats m 0 c).arrAt 19 cfg0.N = G m c :=
  (dats m 0 c).arrAt_eq_of_cover 19 (G m c) (fun t _ => flushed_eq m c t) (cover)

/-- The kernel's run, read: the result array at `Gout` of the argument arrays, the arguments unchanged. -/
theorem run : θ_run defs (onTc (τ := τ) (main (F := Ideal))) ⟨m, fun _ => 0, ρ⟩ fun r => ∀ c : Dev nD,
      r.2.mem ((c.tc : Thread nD τ).loc main_v89) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run defs _ _).mono (fun r h c => ⟨(Value.post19 m r h c).trans (final m c),
      Value.kept_main_arg0 m r h c,
      Value.kept_main_arg1 m r h c,
      Value.kept_main_arg2 m r h c,
      Value.kept_main_arg3 m r h c,
      Value.kept_main_arg4 m r h c,
      Value.kept_main_arg5 m r h c,
      Value.kept_main_arg6 m r h c,
      Value.kept_main_arg7 m r h c,
      Value.kept_main_arg8 m r h c,
      Value.kept_main_arg9 m r h c,
      Value.kept_main_arg10 m r h c,
      Value.kept_main_arg11 m r h c,
      Value.kept_main_arg12 m r h c,
      Value.kept_main_arg13 m r h c,
      Value.kept_main_arg14 m r h c,
      Value.kept_main_arg15 m r h c,
      Value.kept_main_arg16 m r h c,
      Value.kept_main_arg17 m r h c,
      Value.kept_main_arg18 m r h c,
      Value.kept_main_arg19 m r h c,
      Value.kept_main_arg20 m r h c,
      Value.kept_main_arg21 m r h c,
      Value.kept_main_arg22 m r h c,
      Value.kept_main_arg23 m r h c,
      Value.kept_main_arg24 m r h c,
      Value.kept_main_arg25 m r h c,
      Value.kept_main_arg26 m r h c,
      Value.kept_main_arg27 m r h c⟩)
    (run_main m ρ)

end Cert.KernelIdeal.NetValue

end
-- ==== Proof.RefWin.lean ====
/-
  The host program's 268 operations, cut into eleven consecutive windows: the positional encoding, the first four
  layers, the skip connection, and the last five layers.  Each window is a literal list of operations; with it, the
  list of the buffers the window writes, the fact that it writes no other, and so that every other buffer keeps its
  contents through the window.  `val k` is the device's buffer contents after the first `k` windows, from the launch
  contents.  The fold of a concatenation of lists is the composition of the folds.
-/
import proofs.«146509_j19370302505666_1_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The fold over two lists one after the other is the second's fold after the first's. -/
theorem after_append {τ' : Topo} {sig' : RefSig} {Val : EltTy → Type} (l₁ l₂ : List (HloOp τ' sig' Val)) (V : Valuation τ' sig' Val) :
    after (l₁ ++ l₂) V = after l₂ (after l₁ V) := by
  induction l₁ generalizing V with
  | nil => rfl
  | cons op l ih => simp only [List.cons_append, after_cons, ih]

variable {F : FTy → Type} [FloatOps F]

/-- Window 0: the positional encoding. -/
abbrev w0 : List (HloOp τ sig (Elt F)) :=
  [ nullary main_v0 (iotaInDim S6 32 0),
    unary main_v0 main_v1 (sitofp .f32 : (⟨S6, .i32⟩ : BufTy).Contents (Elt F) → (⟨S6, .f32⟩ : BufTy).Contents (Elt F)),
    nullary main_cst (constant S_ .f32 0x40000000#32),
    unary main_v0 main_v2 (sitofp .f32 : (⟨S6, .i32⟩ : BufTy).Contents (Elt F) → (⟨S6, .f32⟩ : BufTy).Contents (Elt F)),
    unary main_cst main_v3 (broadcastInDim S6 ![] bcast_S_S6 : (⟨S_, .f32⟩ : BufTy).Contents (Elt F) → (⟨S6, .f32⟩ : BufTy).Contents (Elt F)),
    binary main_v3 main_v2 main_v4 (Host.powf : (⟨S6, .f32⟩ : BufTy).Contents (Elt F) → (⟨S6, .f32⟩ : BufTy).Contents (Elt F) → (⟨S6, .f32⟩ : BufTy).Contents (Elt F)),
    unary main_arg0 main_v5 (broadcastInDim S131072x1x3 ![0, 2] bcast_S131072x3_S131072x1x3_0_2 : (⟨S131072x3, .f32⟩ : BufTy).Contents (Elt F) → (⟨S131072x1x3, .f32⟩ : BufTy).Contents (Elt F)),
    unary main_v4 main_v6 (broadcastInDim S1x6x1 ![1] bcast_S6_S1x6x1_1 : (⟨S6, .f32⟩ : BufTy).Contents (Elt F) → (⟨S1x6x1, .f32⟩ : BufTy).Contents (Elt F)),
    unary main_v5 main_v7 (broadcastInDim S131072x6x3 ![0, 1, 2] bcast_S131072x1x3_S131072x6x3_0_1_2 : (⟨S131072x1x3, .f32⟩ : BufTy).Contents (Elt F) → (⟨S131072x6x3, .f32⟩ : BufTy).Contents (Elt F)),
    unary main_v6 main_v8 (broadcastInDim S131072x6x3 ![0, 1, 2] bcast_S1x6x1_S131072x6x3_0_1_2 : (⟨S1x6x1, .f32⟩ : BufTy).Contents (Elt F) → (⟨S131072x6x3, .f32⟩ : BufTy).Contents (Elt F)),
    binary main_v7 main_v8 main_v9 (mulf : (⟨S131072x6x3, .f32⟩ : BufTy).Contents (Elt F) → (⟨S131072x6x3, .f32⟩ : BufTy).Contents (Elt F) → (⟨S131072x6x3, .f32⟩ : BufTy).Contents (Elt F)),
    unary main_v9 main_v10 (Host.sin : (⟨S131072x6x3, .f32⟩ : BufTy).Contents (Elt F) → (⟨S131072x6x3, .f32⟩ : BufTy).Contents (Elt F)),
    unary main_v9 main_v11 (Host.cos : (⟨S131072x6x3, .f32⟩ : BufTy).Contents (Elt F) → (⟨S131072x6x3, .f32⟩ : BufTy).Contents (Elt F)),
    unary main_v10 main_v12 (broadcastInDim S131072x6x1x3 ![0, 1, 3] bcast_S131072x6x3_S131072x6x1x3_0_1_3 : (⟨S131072x6x3, .f32⟩ : BufTy).Contents (Elt F) → (⟨S131072x6x1x3, .f32⟩ : BufTy).Contents (Elt F)),
    unary main_v11 main_v13 (broadcastInDim S131072x6x1x3 ![0, 1, 3] bcast_S131072x6x3_S131072x6x1x3_0_1_3 : (⟨S131072x6x3, .f32⟩ : BufTy).Contents (Elt F) → (⟨S131072x6x1x3, .f32⟩ : BufTy).Contents (Elt F)),
    binary main_v12 main_v13 main_v14 ((fun a b => concatenate S131072x6x2x3 2 [⟨S131072x6x1x3, a⟩, ⟨S131072x6x1x3, b⟩] concatenates_S131072x6x1x3_S131072x6x1x3_S131072x6x2x3_d2) : (⟨S131072x6x1x3, .f32⟩ : BufTy).Contents (Elt F) → (⟨S131072x6x1x3, .f32⟩ : BufTy).Contents (Elt F) → (⟨S131072x6x2x3, .f32⟩ : BufTy).Contents (Elt F)),
    reshape main_v14 main_v15 rfl shapeCasts_S131072x6x2x3_S131072x36,
    binary main_arg0 main_v15 main_v16 ((fun a b => concatenate S131072x39 1 [⟨S131072x3, a⟩, ⟨S131072x36, b⟩] concatenates_S131072x3_S131072x36_S131072x39_d1) : (⟨S131072x3, .f32⟩ : BufTy).Contents (Elt F) → (⟨S131072x36, .f32⟩ : BufTy).Contents (Elt F) → (⟨S131072x39, .f32⟩ : BufTy).Contents (Elt F)) ]
/-- The buffers window 0 writes. -/
abbrev w0_W : List (Ref sig .tc) := [main_v0, main_v1, main_cst, main_v2, main_v3, main_v4, main_v5, main_v6, main_v7, main_v8, main_v9, main_v10, main_v11, main_v12, main_v13, main_v14, main_v15, main_v16]
set_option maxRecDepth 8192 in
theorem w0_writes : (w0 : List (HloOp τ sig (Elt F))).Forall fun op => op.writes ⊆ (w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Window 1: layer 0. -/
abbrev w1 : List (HloOp τ sig (Elt F)) :=
  [ unary main_arg2 main_v17 (broadcastInDim S256x1 ![0] bcast_S256_S256x1_0 : (⟨S256, .f32⟩ : BufTy).Contents (Elt F) → (⟨S256x1, .f32⟩ : BufTy).Contents (Elt F)),
    TRef.binary (TRef.of (T := ⟨S256x39, .f32⟩) main_arg1) (TRef.of (T := ⟨S256x39, .f32⟩) main_arg1) (TRef.of (T := ⟨S256x39, .f32⟩) main_call0_v0) mulf,
    TRef.nullary (TRef.of (T := ⟨S_, .f32⟩) main_call0_cst) (constant S_ .f32 0x00000000#32),
    TRef.binary (TRef.of (T := ⟨S256x39, .f32⟩) main_call0_v0) (TRef.of (T := ⟨S_, .f32⟩) main_call0_cst) (TRef.of (T := ⟨S256, .f32⟩) main_call0_v1) (fun x v => Host.reduceAdd x v reducesTo_S256x39_S256_d1 h_S_),
    TRef.unary (TRef.of (T := ⟨S256, .f32⟩) main_call0_v1) (TRef.of (T := ⟨S256x1, .f32⟩) main_call0_v2) (broadcastInDim S256x1 ![0] bcast_S256_S256x1_0),
    TRef.unary (TRef.of (T := ⟨S256x1, .f32⟩) main_call0_v2) (TRef.of (T := ⟨S256x1, .f32⟩) main_v18) Host.sqrt,
    binary main_v17 main_v18 main_v19 (Host.divf : (⟨S256x1, .f32⟩ : BufTy).Contents (Elt F) → (⟨S256x1, .f32⟩ : BufTy).Contents (Elt F) → (⟨S256x1, .f32⟩ : BufTy).Contents (Elt F)),
    unary main_v19 main_v20 (broadcastInDim S256x39 ![0, 1] bcast_S256x1_S256x39_0_1 : (⟨S256x1, .f32⟩ : BufTy).Contents (Elt F) → (⟨S256x39, .f32⟩ : BufTy).Contents (Elt F)),
    binary main_arg1 main_v20 main_v21 (mulf : (⟨S256x39, .f32⟩ : BufTy).Contents (Elt F) → (⟨S256x39, .f32⟩ : BufTy).Contents (Elt F) → (⟨S256x39, .f32⟩ : BufTy).Contents (Elt F)),
    unary main_v21 main_v22 ((transpose S39x256 [1, 0] · transposes_S256x39_S39x256_1_0) : (⟨S256x39, .f32⟩ : BufTy).Contents (Elt F) → (⟨S39x256, .f32⟩ : BufTy).Contents (Elt F)),
    binary main_v16 main_v22 main_v23 ((fun l r => Host.dotGeneral dot_S131072x39_S39x256_S131072x256_1_0_0_1_n_n none l r) : (⟨S131072x39, .f32⟩ : BufTy).Contents (Elt F) → (⟨S39x256, .f32⟩ : BufTy).Contents (Elt F) → (⟨S131072x256, .f32⟩ : BufTy).Contents (Elt F)),
    unary main_arg3 main_v24 (broadcastInDim S1x256 ![1] bcast_S256_S1x256_1 : (⟨S256, .f32⟩ : BufTy).Contents (Elt F) → (⟨S1x256, .f32⟩ : BufTy).Contents (Elt F)),
    unary main_v24 main_v25 (broadcastInDim S131072x256 ![0, 1] bcast_S1x256_S131072x256_0_1 : (⟨S1x256, .f32⟩ : BufTy).Contents (Elt F) → (⟨S131072x256, .f32⟩ : BufTy).Contents (Elt F)),
    binary main_v23 main_v25 main_v26 (addf : (⟨S131072x256, .f32⟩ : BufTy).Contents (Elt F) → (⟨S131072x256, .f32⟩ : BufTy).Contents (Elt F) → (⟨S131072x256, .f32⟩ : BufTy).Contents (Elt F)),
    nullary main_cst_0 (constant S_ .f32 0x42C80000#32),
    unary main_cst_0 main_v27 (broadcastInDim S131072x256 ![] bcast_S_S131072x256 : (⟨S_, .f32⟩ : BufTy).Contents (Elt F) → (⟨S131072x256, .f32⟩ : BufTy).Contents (Elt F)),
    binary main_v27 main_v26 main_v28 (mulf : (⟨S131072x256, .f32⟩ : BufTy).Contents (Elt F) → (⟨S131072x256, .f32⟩ : BufTy).Contents (Elt F) → (⟨S131072x256, .f32⟩ : BufTy).Contents (Elt F)),
    nullary main_cst_1 (constant S_ .f32 0x41A00000#32),
    unary main_cst_1 main_v29 (broadcastInDim S131072x256 ![] bcast_S_S131072x256 : (⟨S_, .f32⟩ : BufTy).Contents (Elt F) → (⟨S131072x256, .f32⟩ : BufTy).Contents (Elt F)),
    binary main_v28 main_v29 main_v30 (cmpf .ogt : (⟨S131072x256, .f32⟩ : BufTy).Contents (Elt F) → (⟨S131072x256, .f32⟩ : BufTy).Contents (Elt F) → (⟨S131072x256, .i1⟩ : BufTy).Contents (Elt F)),
    nullary main_cst_2 (constant S_ .f32 0x41A00000#32),
    unary main_cst_2 main_v31 (broadcastInDim S131072x256 ![] bcast_S_S131072x256 : (⟨S_, .f32⟩ : BufTy).Contents (Elt F) → (⟨S131072x256, .f32⟩ : BufTy).Contents (Elt F)),
    binary main_v28 main_v31 main_v32 (minimumf : (⟨S131072x256, .f32⟩ : BufTy).Contents (Elt F) → (⟨S131072x256, .f32⟩ : BufTy).Contents (Elt F) → (⟨S131072x256, .f32⟩ : BufTy).Contents (Elt F)),
    unary main_v32 main_v33 (Host.exp : (⟨S131072x256, .f32⟩ : BufTy).Contents (Elt F) → (⟨S131072x256, .f32⟩ : BufTy).Contents (Elt F)),
    unary main_v33 main_v34 (Host.log1p : (⟨S131072x256, .f32⟩ : BufTy).Contents (Elt F) → (⟨S131072x256, .f32⟩ : BufTy).Contents (Elt F)),
    nullary main_cst_3 (constant S_ .f32 0x42C80000#32),
    unary main_cst_3 main_v35 (broadcastInDim S131072x256 ![] bcast_S_S131072x256 : (⟨S_, .f32⟩ : BufTy).Contents (Elt F) → (⟨S131072x256, .f32⟩ : BufTy).Contents (Elt F)),
    binary main_v34 main_v35 main_v36 (Host.divf : (⟨S131072x256, .f32⟩ : BufTy).Contents (Elt F) → (⟨S131072x256, .f32⟩ : BufTy).Contents (Elt F) → (⟨S131072x256, .f32⟩ : BufTy).Contents (Elt F)),
    TRef.ternary (TRef.of (T := ⟨S131072x256, .i1⟩) main_v30) (TRef.of (T := ⟨S131072x256, .f32⟩) main_v26) (TRef.of (T := ⟨S131072x256, .f32⟩) main_v36) (TRef.of (T := ⟨S131072x256, .f32⟩) main_v37) select ]
/-- The buffers window 1 writes. -/
abbrev w1_W : List (Ref sig .tc) := [main_v17, main_call0_v0, main_call0_cst, main_call0_v1, main_call0_v2, main_v18, main_v19, main_v20, main_v21, main_v22, main_v23, main_v24, main_v25, main_v26, main_cst_0, main_v27, main_v28, main_cst_1, main_v29, main_v30, main_cst_2, main_v31, main_v32, main_v33, main_v34, main_cst_3, main_v35, main_v36, main_v37]
set_option maxRecDepth 8192 in
theorem w1_writes : (w1 : List (HloOp τ sig (Elt F))).Forall fun op => op.writes ⊆ (w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Window 2: layer 1. -/
abbrev w2 : List (HloOp τ sig (Elt F)) :=
  [ unary main_arg5 main_v38 (broadcastInDim S256x1 ![0] bcast_S256_S256x1_0 : (⟨S256, .f32⟩ : BufTy).Contents (Elt F) → (⟨S256x1, .f32⟩ : BufTy).Contents (Elt F)),
    TRef.binary (TRef.of (T := ⟨S256x256, .f32⟩) main_arg4) (TRef.of (T := ⟨S256x256, .f32⟩) main_arg4) (TRef.of (T := ⟨S256x256, .f32⟩) main_call2_v0) mulf,
    TRef.nullary (TRef.of (T := ⟨S_, .f32⟩) main_call2_cst) (constant S_ .f32 0x00000000#32),
    TRef.binary (TRef.of (T := ⟨S256x256, .f32⟩) main_call2_v0) (TRef.of (T := ⟨S_, .f32⟩) main_call2_cst) (TRef.of (T := ⟨S256, .f32⟩) main_call2_v1) (fun x v => Host.reduceAdd x v reducesTo_S256x256_S256_d1 h_S_),
    TRef.unary (TRef.of (T := ⟨S256, .f32⟩) main_call2_v1) (TRef.of (T := ⟨S256x1, .f32⟩) main_call2_v2) (broadcastInDim S256x1 ![0] bcast_S256_S256x1_0),
    TRef.unary (TRef.of (T := ⟨S256x1, .f32⟩) main_call2_v2) (TRef.of (T := ⟨S256x1, .f32⟩) main_v39) Host.sqrt,
    binary main_v38 main_v39 main_v40 (Host.divf : (⟨S256x1, .f32⟩ : BufTy).Contents (Elt F) → (⟨S256x1, .f32⟩ : BufTy).Contents (Elt F) → (⟨S256x1, .f32⟩ : BufTy).Contents (Elt F)),
    unary main_v40 main_v41 (broadcastInDim S256x256 ![0, 1] bcast_S256x1_S256x256_0_1 : (⟨S256x1, .f32⟩ : BufTy).Contents (Elt F) → (⟨S256x256, .f32⟩ : BufTy).Contents (Elt F)),
    binary main_arg4 main_v41 main_v42 (mulf : (⟨S256x256, .f32⟩ : BufTy).Contents (Elt F) → (⟨S256x256, .f32⟩ : BufTy).Contents (Elt F) → (⟨S256x256, .f32⟩ : BufTy).Contents (Elt F)),
    unary main_v42 main_v43 ((transpose S256x256 [1, 0] · transposes_S256x256_S256x256_1_0) : (⟨S256x256, .f32⟩ : BufTy).Contents (Elt F) → (⟨S256x256, .f32⟩ : BufTy).Contents (Elt F)),
    binary main_v37 main_v43 main_v44 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    unary main_arg6 main_v45 (broadcastInDim S1x256 ![1] bcast_S256_S1x256_1 : (⟨S256, .f32⟩ : BufTy).Contents (Elt F) → (⟨S1x256, .f32⟩ : BufTy).Contents (Elt F)),
    unary main_v45 main_v46 (broadcastInDim S131072x256 ![0, 1] bcast_S1x256_S131072x256_0_1 : (⟨S1x256, .f32⟩ : BufTy).Contents (Elt F) → (⟨S131072x256, .f32⟩ : BufTy).Contents (Elt F)),
    binary main_v44 main_v46 main_v47 (addf : (⟨S131072x256, .f32⟩ : BufTy).Contents (Elt F) → (⟨S131072x256, .f32⟩ : BufTy).Contents (Elt F) → (⟨S131072x256, .f32⟩ : BufTy).Contents (Elt F)),
    nullary main_cst_4 (constant S_ .f32 0x42C80000#32),
    unary main_cst_4 main_v48 (broadcastInDim S131072x256 ![] bcast_S_S131072x256 : (⟨S_, .f32⟩ : BufTy).Contents (Elt F) → (⟨S131072x256, .f32⟩ : BufTy).Contents (Elt F)),
    binary main_v48 main_v47 main_v49 (mulf : (⟨S131072x256, .f32⟩ : BufTy).Contents (Elt F) → (⟨S131072x256, .f32⟩ : BufTy).Contents (Elt F) → (⟨S131072x256, .f32⟩ : BufTy).Contents (Elt F)),
    nullary main_cst_5 (constant S_ .f32 0x41A00000#32),
    unary main_cst_5 main_v50 (broadcastInDim S131072x256 ![] bcast_S_S131072x256 : (⟨S_, .f32⟩ : BufTy).Contents (Elt F) → (⟨S131072x256, .f32⟩ : BufTy).Contents (Elt F)),
    binary main_v49 main_v50 main_v51 (cmpf .ogt : (⟨S131072x256, .f32⟩ : BufTy).Contents (Elt F) → (⟨S131072x256, .f32⟩ : BufTy).Contents (Elt F) → (⟨S131072x256, .i1⟩ : BufTy).Contents (Elt F)),
    nullary main_cst_6 (constant S_ .f32 0x41A00000#32),
    unary main_cst_6 main_v52 (broadcastInDim S131072x256 ![] bcast_S_S131072x256 : (⟨S_, .f32⟩ : BufTy).Contents (Elt F) → (⟨S131072x256, .f32⟩ : BufTy).Contents (Elt F)),
    binary main_v49 main_v52 main_v53 (minimumf : (⟨S131072x256, .f32⟩ : BufTy).Contents (Elt F) → (⟨S131072x256, .f32⟩ : BufTy).Contents (Elt F) → (⟨S131072x256, .f32⟩ : BufTy).Contents (Elt F)),
    unary main_v53 main_v54 (Host.exp : (⟨S131072x256, .f32⟩ : BufTy).Contents (Elt F) → (⟨S131072x256, .f32⟩ : BufTy).Contents (Elt F)),
    unary main_v54 main_v55 (Host.log1p : (⟨S131072x256, .f32⟩ : BufTy).Contents (Elt F) → (⟨S131072x256, .f32⟩ : BufTy).Contents (Elt F)),
    nullary main_cst_7 (constant S_ .f32 0x42C80000#32),
    unary main_cst_7 main_v56 (broadcastInDim S131072x256 ![] bcast_S_S131072x256 : (⟨S_, .f32⟩ : BufTy).Contents (Elt F) → (⟨S131072x256, .f32⟩ : BufTy).Contents (Elt F)),
    binary main_v55 main_v56 main_v57 (Host.divf : (⟨S131072x256, .f32⟩ : BufTy).Contents (Elt F) → (⟨S131072x256, .f32⟩ : BufTy).Contents (Elt F) → (⟨S131072x256, .f32⟩ : BufTy).Contents (Elt F)),
    TRef.ternary (TRef.of (T := ⟨S131072x256, .i1⟩) main_v51) (TRef.of (T := ⟨S131072x256, .f32⟩) main_v47) (TRef.of (T := ⟨S131072x256, .f32⟩) main_v57) (TRef.of (T := ⟨S131072x256, .f32⟩) main_v58) select ]
/-- The buffers window 2 writes. -/
abbrev w2_W : List (Ref sig .tc) := [main_v38, main_call2_v0, main_call2_cst, main_call2_v1, main_call2_v2, main_v39, main_v40, main_v41, main_v42, main_v43, main_v44, main_v45, main_v46, main_v47, main_cst_4, main_v48, main_v49, main_cst_5, main_v50, main_v51, main_cst_6, main_v52, main_v53, main_v54, main_v55, main_cst_7, main_v56, main_v57, main_v58]
set_option maxRecDepth 8192 in
theorem w2_writes : (w2 : List (HloOp τ sig (Elt F))).Forall fun op => op.writes ⊆ (w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Window 3: layer 2. -/
abbrev w3 : List (HloOp τ sig (Elt F)) :=
  [ unary main_arg8 main_v59 (broadcastInDim S256x1 ![0] bcast_S256_S256x1_0 : (⟨S256, .f32⟩ : BufTy).Contents (Elt F) → (⟨S256x1, .f32⟩ : BufTy).Contents (Elt F)),
    TRef.binary (TRef.of (T := ⟨S256x256, .f32⟩) main_arg7) (TRef.of (T := ⟨S256x256, .f32⟩) main_arg7) (TRef.of (T := ⟨S256x256, .f32⟩) main_call4_v0) mulf,
    TRef.nullary (TRef.of (T := ⟨S_, .f32⟩) main_call4_cst) (constant S_ .f32 0x00000000#32),
    TRef.binary (TRef.of (T := ⟨S256x256, .f32⟩) main_call4_v0) (TRef.of (T := ⟨S_, .f32⟩) main_call4_cst) (TRef.of (T := ⟨S256, .f32⟩) main_call4_v1) (fun x v => Host.reduceAdd x v reducesTo_S256x256_S256_d1 h_S_),
    TRef.unary (TRef.of (T := ⟨S256, .f32⟩) main_call4_v1) (TRef.of (T := ⟨S256x1, .f32⟩) main_call4_v2) (broadcastInDim S256x1 ![0] bcast_S256_S256x1_0),
    TRef.unary (TRef.of (T := ⟨S256x1, .f32⟩) main_call4_v2) (TRef.of (T := ⟨S256x1, .f32⟩) main_v60) Host.sqrt,
    binary main_v59 main_v60 main_v61 (Host.divf : (⟨S256x1, .f32⟩ : BufTy).Contents (Elt F) → (⟨S256x1, .f32⟩ : BufTy).Contents (Elt F) → (⟨S256x1, .f32⟩ : BufTy).Contents (Elt F)),
    unary main_v61 main_v62 (broadcastInDim S256x256 ![0, 1] bcast_S256x1_S256x256_0_1 : (⟨S256x1, .f32⟩ : BufTy).Contents (Elt F) → (⟨S256x256, .f32⟩ : BufTy).Contents (Elt F)),
    binary main_arg7 main_v62 main_v63 (mulf : (⟨S256x256, .f32⟩ : BufTy).Contents (Elt F) → (⟨S256x256, .f32⟩ : BufTy).Contents (Elt F) → (⟨S256x256, .f32⟩ : BufTy).Contents (Elt F)),
    unary main_v63 main_v64 ((transpose S256x256 [1, 0] · transposes_S256x256_S256x256_1_0) : (⟨S256x256, .f32⟩ : BufTy).Contents (Elt F) → (⟨S256x256, .f32⟩ : BufTy).Contents (Elt F)),
    binary main_v58 main_v64 main_v65 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    unary main_arg9 main_v66 (broadcastInDim S1x256 ![1] bcast_S256_S1x256_1 : (⟨S256, .f32⟩ : BufTy).Contents (Elt F) → (⟨S1x256, .f32⟩ : BufTy).Contents (Elt F)),
    unary main_v66 main_v67 (broadcastInDim S131072x256 ![0, 1] bcast_S1x256_S131072x256_0_1 : (⟨S1x256, .f32⟩ : BufTy).Contents (Elt F) → (⟨S131072x256, .f32⟩ : BufTy).Contents (Elt F)),
    binary main_v65 main_v67 main_v68 (addf : (⟨S131072x256, .f32⟩ : BufTy).Contents (Elt F) → (⟨S131072x256, .f32⟩ : BufTy).Contents (Elt F) → (⟨S131072x256, .f32⟩ : BufTy).Contents (Elt F)),
    nullary main_cst_8 (constant S_ .f32 0x42C80000#32),
    unary main_cst_8 main_v69 (broadcastInDim S131072x256 ![] bcast_S_S131072x256 : (⟨S_, .f32⟩ : BufTy).Contents (Elt F) → (⟨S131072x256, .f32⟩ : BufTy).Contents (Elt F)),
    binary main_v69 main_v68 main_v70 (mulf : (⟨S131072x256, .f32⟩ : BufTy).Contents (Elt F) → (⟨S131072x256, .f32⟩ : BufTy).Contents (Elt F) → (⟨S131072x256, .f32⟩ : BufTy).Contents (Elt F)),
    nullary main_cst_9 (constant S_ .f32 0x41A00000#32),
    unary main_cst_9 main_v71 (broadcastInDim S131072x256 ![] bcast_S_S131072x256 : (⟨S_, .f32⟩ : BufTy).Contents (Elt F) → (⟨S131072x256, .f32⟩ : BufTy).Contents (Elt F)),
    binary main_v70 main_v71 main_v72 (cmpf .ogt : (⟨S131072x256, .f32⟩ : BufTy).Contents (Elt F) → (⟨S131072x256, .f32⟩ : BufTy).Contents (Elt F) → (⟨S131072x256, .i1⟩ : BufTy).Contents (Elt F)),
    nullary main_cst_10 (constant S_ .f32 0x41A00000#32),
    unary main_cst_10 main_v73 (broadcastInDim S131072x256 ![] bcast_S_S131072x256 : (⟨S_, .f32⟩ : BufTy).Contents (Elt F) → (⟨S131072x256, .f32⟩ : BufTy).Contents (Elt F)),
    binary main_v70 main_v73 main_v74 (minimumf : (⟨S131072x256, .f32⟩ : BufTy).Contents (Elt F) → (⟨S131072x256, .f32⟩ : BufTy).Contents (Elt F) → (⟨S131072x256, .f32⟩ : BufTy).Contents (Elt F)),
    unary main_v74 main_v75 (Host.exp : (⟨S131072x256, .f32⟩ : BufTy).Contents (Elt F) → (⟨S131072x256, .f32⟩ : BufTy).Contents (Elt F)),
    unary main_v75 main_v76 (Host.log1p : (⟨S131072x256, .f32⟩ : BufTy).Contents (Elt F) → (⟨S131072x256, .f32⟩ : BufTy).Contents (Elt F)),
    nullary main_cst_11 (constant S_ .f32 0x42C80000#32),
    unary main_cst_11 main_v77 (broadcastInDim S131072x256 ![] bcast_S_S131072x256 : (⟨S_, .f32⟩ : BufTy).Contents (Elt F) → (⟨S131072x256, .f32⟩ : BufTy).Contents (Elt F)),
    binary main_v76 main_v77 main_v78 (Host.divf : (⟨S131072x256, .f32⟩ : BufTy).Contents (Elt F) → (⟨S131072x256, .f32⟩ : BufTy).Contents (Elt F) → (⟨S131072x256, .f32⟩ : BufTy).Contents (Elt F)),
    TRef.ternary (TRef.of (T := ⟨S131072x256, .i1⟩) main_v72) (TRef.of (T := ⟨S131072x256, .f32⟩) main_v68) (TRef.of (T := ⟨S131072x256, .f32⟩) main_v78) (TRef.of (T := ⟨S131072x256, .f32⟩) main_v79) select ]
/-- The buffers window 3 writes. -/
abbrev w3_W : List (Ref sig .tc) := [main_v59, main_call4_v0, main_call4_cst, main_call4_v1, main_call4_v2, main_v60, main_v61, main_v62, main_v63, main_v64, main_v65, main_v66, main_v67, main_v68, main_cst_8, main_v69, main_v70, main_cst_9, main_v71, main_v72, main_cst_10, main_v73, main_v74, main_v75, main_v76, main_cst_11, main_v77, main_v78, main_v79]
set_option maxRecDepth 8192 in
theorem w3_writes : (w3 : List (HloOp τ sig (Elt F))).Forall fun op => op.writes ⊆ (w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Window 4: layer 3. -/
abbrev w4 : List (HloOp τ sig (Elt F)) :=
  [ unary main_arg11 main_v80 (broadcastInDim S217x1 ![0] bcast_S217_S217x1_0 : (⟨S217, .f32⟩ : BufTy).Contents (Elt F) → (⟨S217x1, .f32⟩ : BufTy).Contents (Elt F)),
    TRef.binary (TRef.of (T := ⟨S217x256, .f32⟩) main_arg10) (TRef.of (T := ⟨S217x256, .f32⟩) main_arg10) (TRef.of (T := ⟨S217x256, .f32⟩) main_call6_v0) mulf,
    TRef.nullary (TRef.of (T := ⟨S_, .f32⟩) main_call6_cst) (constant S_ .f32 0x00000000#32),
    TRef.binary (TRef.of (T := ⟨S217x256, .f32⟩) main_call6_v0) (TRef.of (T := ⟨S_, .f32⟩) main_call6_cst) (TRef.of (T := ⟨S217, .f32⟩) main_call6_v1) (fun x v => Host.reduceAdd x v reducesTo_S217x256_S217_d1 h_S_),
    TRef.unary (TRef.of (T := ⟨S217, .f32⟩) main_call6_v1) (TRef.of (T := ⟨S217x1, .f32⟩) main_call6_v2) (broadcastInDim S217x1 ![0] bcast_S217_S217x1_0),
    TRef.unary (TRef.of (T := ⟨S217x1, .f32⟩) main_call6_v2) (TRef.of (T := ⟨S217x1, .f32⟩) main_v81) Host.sqrt,
    binary main_v80 main_v81 main_v82 (Host.divf : (⟨S217x1, .f32⟩ : BufTy).Contents (Elt F) → (⟨S217x1, .f32⟩ : BufTy).Contents (Elt F) → (⟨S217x1, .f32⟩ : BufTy).Contents (Elt F)),
    unary main_v82 main_v83 (broadcastInDim S217x256 ![0, 1] bcast_S217x1_S217x256_0_1 : (⟨S217x1, .f32⟩ : BufTy).Contents (Elt F) → (⟨S217x256, .f32⟩ : BufTy).Contents (Elt F)),
    binary main_arg10 main_v83 main_v84 (mulf : (⟨S217x256, .f32⟩ : BufTy).Contents (Elt F) → (⟨S217x256, .f32⟩ : BufTy).Contents (Elt F) → (⟨S217x256, .f32⟩ : BufTy).Contents (Elt F)),
    unary main_v84 main_v85 ((transpose S256x217 [1, 0] · transposes_S217x256_S256x217_1_0) : (⟨S217x256, .f32⟩ : BufTy).Contents (Elt F) → (⟨S256x217, .f32⟩ : BufTy).Contents (Elt F)),
    binary main_v79 main_v85 main_v86 ((fun l r => Host.dotGeneral dot_S131072x256_S256x217_S131072x217_1_0_0_1_n_n none l r) : (⟨S131072x256, .f32⟩ : BufTy).Contents (Elt F) → (⟨S256x217, .f32⟩ : BufTy).Contents (Elt F) → (⟨S131072x217, .f32⟩ : BufTy).Contents (Elt F)),
    unary main_arg12 main_v87 (broadcastInDim S1x217 ![1] bcast_S217_S1x217_1 : (⟨S217, .f32⟩ : BufTy).Contents (Elt F) → (⟨S1x217, .f32⟩ : BufTy).Contents (Elt F)),
    unary main_v87 main_v88 (broadcastInDim S131072x217 ![0, 1] bcast_S1x217_S131072x217_0_1 : (⟨S1x217, .f32⟩ : BufTy).Contents (Elt F) → (⟨S131072x217, .f32⟩ : BufTy).Contents (Elt F)),
    binary main_v86 main_v88 main_v89 (addf : (⟨S131072x217, .f32⟩ : BufTy).Contents (Elt F) → (⟨S131072x217, .f32⟩ : BufTy).Contents (Elt F) → (⟨S131072x217, .f32⟩ : BufTy).Contents (Elt F)),
    nullary main_cst_12 (constant S_ .f32 0x42C80000#32),
    unary main_cst_12 main_v90 (broadcastInDim S131072x217 ![] bcast_S_S131072x217 : (⟨S_, .f32⟩ : BufTy).Contents (Elt F) → (⟨S131072x217, .f32⟩ : BufTy).Contents (Elt F)),
    binary main_v90 main_v89 main_v91 (mulf : (⟨S131072x217, .f32⟩ : BufTy).Contents (Elt F) → (⟨S131072x217, .f32⟩ : BufTy).Contents (Elt F) → (⟨S131072x217, .f32⟩ : BufTy).Contents (Elt F)),
    nullary main_cst_13 (constant S_ .f32 0x41A00000#32),
    unary main_cst_13 main_v92 (broadcastInDim S131072x217 ![] bcast_S_S131072x217 : (⟨S_, .f32⟩ : BufTy).Contents (Elt F) → (⟨S131072x217, .f32⟩ : BufTy).Contents (Elt F)),
    binary main_v91 main_v92 main_v93 (cmpf .ogt : (⟨S131072x217, .f32⟩ : BufTy).Contents (Elt F) → (⟨S131072x217, .f32⟩ : BufTy).Contents (Elt F) → (⟨S131072x217, .i1⟩ : BufTy).Contents (Elt F)),
    nullary main_cst_14 (constant S_ .f32 0x41A00000#32),
    unary main_cst_14 main_v94 (broadcastInDim S131072x217 ![] bcast_S_S131072x217 : (⟨S_, .f32⟩ : BufTy).Contents (Elt F) → (⟨S131072x217, .f32⟩ : BufTy).Contents (Elt F)),
    binary main_v91 main_v94 main_v95 (minimumf : (⟨S131072x217, .f32⟩ : BufTy).Contents (Elt F) → (⟨S131072x217, .f32⟩ : BufTy).Contents (Elt F) → (⟨S131072x217, .f32⟩ : BufTy).Contents (Elt F)),
    unary main_v95 main_v96 (Host.exp : (⟨S131072x217, .f32⟩ : BufTy).Contents (Elt F) → (⟨S131072x217, .f32⟩ : BufTy).Contents (Elt F)),
    unary main_v96 main_v97 (Host.log1p : (⟨S131072x217, .f32⟩ : BufTy).Contents (Elt F) → (⟨S131072x217, .f32⟩ : BufTy).Contents (Elt F)),
    nullary main_cst_15 (constant S_ .f32 0x42C80000#32),
    unary main_cst_15 main_v98 (broadcastInDim S131072x217 ![] bcast_S_S131072x217 : (⟨S_, .f32⟩ : BufTy).Contents (Elt F) → (⟨S131072x217, .f32⟩ : BufTy).Contents (Elt F)),
    binary main_v97 main_v98 main_v99 (Host.divf : (⟨S131072x217, .f32⟩ : BufTy).Contents (Elt F) → (⟨S131072x217, .f32⟩ : BufTy).Contents (Elt F) → (⟨S131072x217, .f32⟩ : BufTy).Contents (Elt F)),
    TRef.ternary (TRef.of (T := ⟨S131072x217, .i1⟩) main_v93) (TRef.of (T := ⟨S131072x217, .f32⟩) main_v89) (TRef.of (T := ⟨S131072x217, .f32⟩) main_v99) (TRef.of (T := ⟨S131072x217, .f32⟩) main_v100) select ]
/-- The buffers window 4 writes. -/
abbrev w4_W : List (Ref sig .tc) := [main_v80, main_call6_v0, main_call6_cst, main_call6_v1, main_call6_v2, main_v81, main_v82, main_v83, main_v84, main_v85, main_v86, main_v87, main_v88, main_v89, main_cst_12, main_v90, main_v91, main_cst_13, main_v92, main_v93, main_cst_14, main_v94, main_v95, main_v96, main_v97, main_cst_15, main_v98, main_v99, main_v100]
set_option maxRecDepth 8192 in
theorem w4_writes : (w4 : List (HloOp τ sig (Elt F))).Forall fun op => op.writes ⊆ (w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Window 5: the skip connection. -/
abbrev w5 : List (HloOp τ sig (Elt F)) :=
  [ binary main_v100 main_v16 main_v101 ((fun a b => concatenate S131072x256 1 [⟨S131072x217, a⟩, ⟨S131072x39, b⟩] concatenates_S131072x217_S131072x39_S131072x256_d1) : (⟨S131072x217, .f32⟩ : BufTy).Contents (Elt F) → (⟨S131072x39, .f32⟩ : BufTy).Contents (Elt F) → (⟨S131072x256, .f32⟩ : BufTy).Contents (Elt F)),
    nullary main_cst_16 (constant S_ .f32 0x3F3504F3#32),
    unary main_cst_16 main_v102 (broadcastInDim S131072x256 ![] bcast_S_S131072x256 : (⟨S_, .f32⟩ : BufTy).Contents (Elt F) → (⟨S131072x256, .f32⟩ : BufTy).Contents (Elt F)),
    binary main_v101 main_v102 main_v103 (mulf : (⟨S131072x256, .f32⟩ : BufTy).Contents (Elt F) → (⟨S131072x256, .f32⟩ : BufTy).Contents (Elt F) → (⟨S131072x256, .f32⟩ : BufTy).Contents (Elt F)) ]
/-- The buffers window 5 writes. -/
abbrev w5_W : List (Ref sig .tc) := [main_v101, main_cst_16, main_v102, main_v103]
set_option maxRecDepth 8192 in
theorem w5_writes : (w5 : List (HloOp τ sig (Elt F))).Forall fun op => op.writes ⊆ (w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Window 6: layer 4. -/
abbrev w6 : List (HloOp τ sig (Elt F)) :=
  [ unary main_arg14 main_v104 (broadcastInDim S256x1 ![0] bcast_S256_S256x1_0 : (⟨S256, .f32⟩ : BufTy).Contents (Elt F) → (⟨S256x1, .f32⟩ : BufTy).Contents (Elt F)),
    TRef.binary (TRef.of (T := ⟨S256x256, .f32⟩) main_arg13) (TRef.of (T := ⟨S256x256, .f32⟩) main_arg13) (TRef.of (T := ⟨S256x256, .f32⟩) main_call8_v0) mulf,
    TRef.nullary (TRef.of (T := ⟨S_, .f32⟩) main_call8_cst) (constant S_ .f32 0x00000000#32),
    TRef.binary (TRef.of (T := ⟨S256x256, .f32⟩) main_call8_v0) (TRef.of (T := ⟨S_, .f32⟩) main_call8_cst) (TRef.of (T := ⟨S256, .f32⟩) main_call8_v1) (fun x v => Host.reduceAdd x v reducesTo_S256x256_S256_d1 h_S_),
    TRef.unary (TRef.of (T := ⟨S256, .f32⟩) main_call8_v1) (TRef.of (T := ⟨S256x1, .f32⟩) main_call8_v2) (broadcastInDim S256x1 ![0] bcast_S256_S256x1_0),
    TRef.unary (TRef.of (T := ⟨S256x1, .f32⟩) main_call8_v2) (TRef.of (T := ⟨S256x1, .f32⟩) main_v105) Host.sqrt,
    binary main_v104 main_v105 main_v106 (Host.divf : (⟨S256x1, .f32⟩ : BufTy).Contents (Elt F) → (⟨S256x1, .f32⟩ : BufTy).Contents (Elt F) → (⟨S256x1, .f32⟩ : BufTy).Contents (Elt F)),
    unary main_v106 main_v107 (broadcastInDim S256x256 ![0, 1] bcast_S256x1_S256x256_0_1 : (⟨S256x1, .f32⟩ : BufTy).Contents (Elt F) → (⟨S256x256, .f32⟩ : BufTy).Contents (Elt F)),
    binary main_arg13 main_v107 main_v108 (mulf : (⟨S256x256, .f32⟩ : BufTy).Contents (Elt F) → (⟨S256x256, .f32⟩ : BufTy).Contents (Elt F) → (⟨S256x256, .f32⟩ : BufTy).Contents (Elt F)),
    unary main_v108 main_v109 ((transpose S256x256 [1, 0] · transposes_S256x256_S256x256_1_0) : (⟨S256x256, .f32⟩ : BufTy).Contents (Elt F) → (⟨S256x256, .f32⟩ : BufTy).Contents (Elt F)),
    binary main_v103 main_v109 main_v110 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    unary main_arg15 main_v111 (broadcastInDim S1x256 ![1] bcast_S256_S1x256_1 : (⟨S256, .f32⟩ : BufTy).Contents (Elt F) → (⟨S1x256, .f32⟩ : BufTy).Contents (Elt F)),
    unary main_v111 main_v112 (broadcastInDim S131072x256 ![0, 1] bcast_S1x256_S131072x256_0_1 : (⟨S1x256, .f32⟩ : BufTy).Contents (Elt F) → (⟨S131072x256, .f32⟩ : BufTy).Contents (Elt F)),
    binary main_v110 main_v112 main_v113 (addf : (⟨S131072x256, .f32⟩ : BufTy).Contents (Elt F) → (⟨S131072x256, .f32⟩ : BufTy).Contents (Elt F) → (⟨S131072x256, .f32⟩ : BufTy).Contents (Elt F)),
    nullary main_cst_17 (constant S_ .f32 0x42C80000#32),
    unary main_cst_17 main_v114 (broadcastInDim S131072x256 ![] bcast_S_S131072x256 : (⟨S_, .f32⟩ : BufTy).Contents (Elt F) → (⟨S131072x256, .f32⟩ : BufTy).Contents (Elt F)),
    binary main_v114 main_v113 main_v115 (mulf : (⟨S131072x256, .f32⟩ : BufTy).Contents (Elt F) → (⟨S131072x256, .f32⟩ : BufTy).Contents (Elt F) → (⟨S131072x256, .f32⟩ : BufTy).Contents (Elt F)),
    nullary main_cst_18 (constant S_ .f32 0x41A00000#32),
    unary main_cst_18 main_v116 (broadcastInDim S131072x256 ![] bcast_S_S131072x256 : (⟨S_, .f32⟩ : BufTy).Contents (Elt F) → (⟨S131072x256, .f32⟩ : BufTy).Contents (Elt F)),
    binary main_v115 main_v116 main_v117 (cmpf .ogt : (⟨S131072x256, .f32⟩ : BufTy).Contents (Elt F) → (⟨S131072x256, .f32⟩ : BufTy).Contents (Elt F) → (⟨S131072x256, .i1⟩ : BufTy).Contents (Elt F)),
    nullary main_cst_19 (constant S_ .f32 0x41A00000#32),
    unary main_cst_19 main_v118 (broadcastInDim S131072x256 ![] bcast_S_S131072x256 : (⟨S_, .f32⟩ : BufTy).Contents (Elt F) → (⟨S131072x256, .f32⟩ : BufTy).Contents (Elt F)),
    binary main_v115 main_v118 main_v119 (minimumf : (⟨S131072x256, .f32⟩ : BufTy).Contents (Elt F) → (⟨S131072x256, .f32⟩ : BufTy).Contents (Elt F) → (⟨S131072x256, .f32⟩ : BufTy).Contents (Elt F)),
    unary main_v119 main_v120 (Host.exp : (⟨S131072x256, .f32⟩ : BufTy).Contents (Elt F) → (⟨S131072x256, .f32⟩ : BufTy).Contents (Elt F)),
    unary main_v120 main_v121 (Host.log1p : (⟨S131072x256, .f32⟩ : BufTy).Contents (Elt F) → (⟨S131072x256, .f32⟩ : BufTy).Contents (Elt F)),
    nullary main_cst_20 (constant S_ .f32 0x42C80000#32),
    unary main_cst_20 main_v122 (broadcastInDim S131072x256 ![] bcast_S_S131072x256 : (⟨S_, .f32⟩ : BufTy).Contents (Elt F) → (⟨S131072x256, .f32⟩ : BufTy).Contents (Elt F)),
    binary main_v121 main_v122 main_v123 (Host.divf : (⟨S131072x256, .f32⟩ : BufTy).Contents (Elt F) → (⟨S131072x256, .f32⟩ : BufTy).Contents (Elt F) → (⟨S131072x256, .f32⟩ : BufTy).Contents (Elt F)),
    TRef.ternary (TRef.of (T := ⟨S131072x256, .i1⟩) main_v117) (TRef.of (T := ⟨S131072x256, .f32⟩) main_v113) (TRef.of (T := ⟨S131072x256, .f32⟩) main_v123) (TRef.of (T := ⟨S131072x256, .f32⟩) main_v124) select ]
/-- The buffers window 6 writes. -/
abbrev w6_W : List (Ref sig .tc) := [main_v104, main_call8_v0, main_call8_cst, main_call8_v1, main_call8_v2, main_v105, main_v106, main_v107, main_v108, main_v109, main_v110, main_v111, main_v112, main_v113, main_cst_17, main_v114, main_v115, main_cst_18, main_v116, main_v117, main_cst_19, main_v118, main_v119, main_v120, main_v121, main_cst_20, main_v122, main_v123, main_v124]
set_option maxRecDepth 8192 in
theorem w6_writes : (w6 : List (HloOp τ sig (Elt F))).Forall fun op => op.writes ⊆ (w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Window 7: layer 5. -/
abbrev w7 : List (HloOp τ sig (Elt F)) :=
  [ unary main_arg17 main_v125 (broadcastInDim S256x1 ![0] bcast_S256_S256x1_0 : (⟨S256, .f32⟩ : BufTy).Contents (Elt F) → (⟨S256x1, .f32⟩ : BufTy).Contents (Elt F)),
    TRef.binary (TRef.of (T := ⟨S256x256, .f32⟩) main_arg16) (TRef.of (T := ⟨S256x256, .f32⟩) main_arg16) (TRef.of (T := ⟨S256x256, .f32⟩) main_call10_v0) mulf,
    TRef.nullary (TRef.of (T := ⟨S_, .f32⟩) main_call10_cst) (constant S_ .f32 0x00000000#32),
    TRef.binary (TRef.of (T := ⟨S256x256, .f32⟩) main_call10_v0) (TRef.of (T := ⟨S_, .f32⟩) main_call10_cst) (TRef.of (T := ⟨S256, .f32⟩) main_call10_v1) (fun x v => Host.reduceAdd x v reducesTo_S256x256_S256_d1 h_S_),
    TRef.unary (TRef.of (T := ⟨S256, .f32⟩) main_call10_v1) (TRef.of (T := ⟨S256x1, .f32⟩) main_call10_v2) (broadcastInDim S256x1 ![0] bcast_S256_S256x1_0),
    TRef.unary (TRef.of (T := ⟨S256x1, .f32⟩) main_call10_v2) (TRef.of (T := ⟨S256x1, .f32⟩) main_v126) Host.sqrt,
    binary main_v125 main_v126 main_v127 (Host.divf : (⟨S256x1, .f32⟩ : BufTy).Contents (Elt F) → (⟨S256x1, .f32⟩ : BufTy).Contents (Elt F) → (⟨S256x1, .f32⟩ : BufTy).Contents (Elt F)),
    unary main_v127 main_v128 (broadcastInDim S256x256 ![0, 1] bcast_S256x1_S256x256_0_1 : (⟨S256x1, .f32⟩ : BufTy).Contents (Elt F) → (⟨S256x256, .f32⟩ : BufTy).Contents (Elt F)),
    binary main_arg16 main_v128 main_v129 (mulf : (⟨S256x256, .f32⟩ : BufTy).Contents (Elt F) → (⟨S256x256, .f32⟩ : BufTy).Contents (Elt F) → (⟨S256x256, .f32⟩ : BufTy).Contents (Elt F)),
    unary main_v129 main_v130 ((transpose S256x256 [1, 0] · transposes_S256x256_S256x256_1_0) : (⟨S256x256, .f32⟩ : BufTy).Contents (Elt F) → (⟨S256x256, .f32⟩ : BufTy).Contents (Elt F)),
    binary main_v124 main_v130 main_v131 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    unary main_arg18 main_v132 (broadcastInDim S1x256 ![1] bcast_S256_S1x256_1 : (⟨S256, .f32⟩ : BufTy).Contents (Elt F) → (⟨S1x256, .f32⟩ : BufTy).Contents (Elt F)),
    unary main_v132 main_v133 (broadcastInDim S131072x256 ![0, 1] bcast_S1x256_S131072x256_0_1 : (⟨S1x256, .f32⟩ : BufTy).Contents (Elt F) → (⟨S131072x256, .f32⟩ : BufTy).Contents (Elt F)),
    binary main_v131 main_v133 main_v134 (addf : (⟨S131072x256, .f32⟩ : BufTy).Contents (Elt F) → (⟨S131072x256, .f32⟩ : BufTy).Contents (Elt F) → (⟨S131072x256, .f32⟩ : BufTy).Contents (Elt F)),
    nullary main_cst_21 (constant S_ .f32 0x42C80000#32),
    unary main_cst_21 main_v135 (broadcastInDim S131072x256 ![] bcast_S_S131072x256 : (⟨S_, .f32⟩ : BufTy).Contents (Elt F) → (⟨S131072x256, .f32⟩ : BufTy).Contents (Elt F)),
    binary main_v135 main_v134 main_v136 (mulf : (⟨S131072x256, .f32⟩ : BufTy).Contents (Elt F) → (⟨S131072x256, .f32⟩ : BufTy).Contents (Elt F) → (⟨S131072x256, .f32⟩ : BufTy).Contents (Elt F)),
    nullary main_cst_22 (constant S_ .f32 0x41A00000#32),
    unary main_cst_22 main_v137 (broadcastInDim S131072x256 ![] bcast_S_S131072x256 : (⟨S_, .f32⟩ : BufTy).Contents (Elt F) → (⟨S131072x256, .f32⟩ : BufTy).Contents (Elt F)),
    binary main_v136 main_v137 main_v138 (cmpf .ogt : (⟨S131072x256, .f32⟩ : BufTy).Contents (Elt F) → (⟨S131072x256, .f32⟩ : BufTy).Contents (Elt F) → (⟨S131072x256, .i1⟩ : BufTy).Contents (Elt F)),
    nullary main_cst_23 (constant S_ .f32 0x41A00000#32),
    unary main_cst_23 main_v139 (broadcastInDim S131072x256 ![] bcast_S_S131072x256 : (⟨S_, .f32⟩ : BufTy).Contents (Elt F) → (⟨S131072x256, .f32⟩ : BufTy).Contents (Elt F)),
    binary main_v136 main_v139 main_v140 (minimumf : (⟨S131072x256, .f32⟩ : BufTy).Contents (Elt F) → (⟨S131072x256, .f32⟩ : BufTy).Contents (Elt F) → (⟨S131072x256, .f32⟩ : BufTy).Contents (Elt F)),
    unary main_v140 main_v141 (Host.exp : (⟨S131072x256, .f32⟩ : BufTy).Contents (Elt F) → (⟨S131072x256, .f32⟩ : BufTy).Contents (Elt F)),
    unary main_v141 main_v142 (Host.log1p : (⟨S131072x256, .f32⟩ : BufTy).Contents (Elt F) → (⟨S131072x256, .f32⟩ : BufTy).Contents (Elt F)),
    nullary main_cst_24 (constant S_ .f32 0x42C80000#32),
    unary main_cst_24 main_v143 (broadcastInDim S131072x256 ![] bcast_S_S131072x256 : (⟨S_, .f32⟩ : BufTy).Contents (Elt F) → (⟨S131072x256, .f32⟩ : BufTy).Contents (Elt F)),
    binary main_v142 main_v143 main_v144 (Host.divf : (⟨S131072x256, .f32⟩ : BufTy).Contents (Elt F) → (⟨S131072x256, .f32⟩ : BufTy).Contents (Elt F) → (⟨S131072x256, .f32⟩ : BufTy).Contents (Elt F)),
    TRef.ternary (TRef.of (T := ⟨S131072x256, .i1⟩) main_v138) (TRef.of (T := ⟨S131072x256, .f32⟩) main_v134) (TRef.of (T := ⟨S131072x256, .f32⟩) main_v144) (TRef.of (T := ⟨S131072x256, .f32⟩) main_v145) select ]
/-- The buffers window 7 writes. -/
abbrev w7_W : List (Ref sig .tc) := [main_v125, main_call10_v0, main_call10_cst, main_call10_v1, main_call10_v2, main_v126, main_v127, main_v128, main_v129, main_v130, main_v131, main_v132, main_v133, main_v134, main_cst_21, main_v135, main_v136, main_cst_22, main_v137, main_v138, main_cst_23, main_v139, main_v140, main_v141, main_v142, main_cst_24, main_v143, main_v144, main_v145]
set_option maxRecDepth 8192 in
theorem w7_writes : (w7 : List (HloOp τ sig (Elt F))).Forall fun op => op.writes ⊆ (w7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Window 8: layer 6. -/
abbrev w8 : List (HloOp τ sig (Elt F)) :=
  [ unary main_arg20 main_v146 (broadcastInDim S256x1 ![0] bcast_S256_S256x1_0 : (⟨S256, .f32⟩ : BufTy).Contents (Elt F) → (⟨S256x1, .f32⟩ : BufTy).Contents (Elt F)),
    TRef.binary (TRef.of (T := ⟨S256x256, .f32⟩) main_arg19) (TRef.of (T := ⟨S256x256, .f32⟩) main_arg19) (TRef.of (T := ⟨S256x256, .f32⟩) main_call12_v0) mulf,
    TRef.nullary (TRef.of (T := ⟨S_, .f32⟩) main_call12_cst) (constant S_ .f32 0x00000000#32),
    TRef.binary (TRef.of (T := ⟨S256x256, .f32⟩) main_call12_v0) (TRef.of (T := ⟨S_, .f32⟩) main_call12_cst) (TRef.of (T := ⟨S256, .f32⟩) main_call12_v1) (fun x v => Host.reduceAdd x v reducesTo_S256x256_S256_d1 h_S_),
    TRef.unary (TRef.of (T := ⟨S256, .f32⟩) main_call12_v1) (TRef.of (T := ⟨S256x1, .f32⟩) main_call12_v2) (broadcastInDim S256x1 ![0] bcast_S256_S256x1_0),
    TRef.unary (TRef.of (T := ⟨S256x1, .f32⟩) main_call12_v2) (TRef.of (T := ⟨S256x1, .f32⟩) main_v147) Host.sqrt,
    binary main_v146 main_v147 main_v148 (Host.divf : (⟨S256x1, .f32⟩ : BufTy).Contents (Elt F) → (⟨S256x1, .f32⟩ : BufTy).Contents (Elt F) → (⟨S256x1, .f32⟩ : BufTy).Contents (Elt F)),
    unary main_v148 main_v149 (broadcastInDim S256x256 ![0, 1] bcast_S256x1_S256x256_0_1 : (⟨S256x1, .f32⟩ : BufTy).Contents (Elt F) → (⟨S256x256, .f32⟩ : BufTy).Contents (Elt F)),
    binary main_arg19 main_v149 main_v150 (mulf : (⟨S256x256, .f32⟩ : BufTy).Contents (Elt F) → (⟨S256x256, .f32⟩ : BufTy).Contents (Elt F) → (⟨S256x256, .f32⟩ : BufTy).Contents (Elt F)),
    unary main_v150 main_v151 ((transpose S256x256 [1, 0] · transposes_S256x256_S256x256_1_0) : (⟨S256x256, .f32⟩ : BufTy).Contents (Elt F) → (⟨S256x256, .f32⟩ : BufTy).Contents (Elt F)),
    binary main_v145 main_v151 main_v152 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    unary main_arg21 main_v153 (broadcastInDim S1x256 ![1] bcast_S256_S1x256_1 : (⟨S256, .f32⟩ : BufTy).Contents (Elt F) → (⟨S1x256, .f32⟩ : BufTy).Contents (Elt F)),
    unary main_v153 main_v154 (broadcastInDim S131072x256 ![0, 1] bcast_S1x256_S131072x256_0_1 : (⟨S1x256, .f32⟩ : BufTy).Contents (Elt F) → (⟨S131072x256, .f32⟩ : BufTy).Contents (Elt F)),
    binary main_v152 main_v154 main_v155 (addf : (⟨S131072x256, .f32⟩ : BufTy).Contents (Elt F) → (⟨S131072x256, .f32⟩ : BufTy).Contents (Elt F) → (⟨S131072x256, .f32⟩ : BufTy).Contents (Elt F)),
    nullary main_cst_25 (constant S_ .f32 0x42C80000#32),
    unary main_cst_25 main_v156 (broadcastInDim S131072x256 ![] bcast_S_S131072x256 : (⟨S_, .f32⟩ : BufTy).Contents (Elt F) → (⟨S131072x256, .f32⟩ : BufTy).Contents (Elt F)),
    binary main_v156 main_v155 main_v157 (mulf : (⟨S131072x256, .f32⟩ : BufTy).Contents (Elt F) → (⟨S131072x256, .f32⟩ : BufTy).Contents (Elt F) → (⟨S131072x256, .f32⟩ : BufTy).Contents (Elt F)),
    nullary main_cst_26 (constant S_ .f32 0x41A00000#32),
    unary main_cst_26 main_v158 (broadcastInDim S131072x256 ![] bcast_S_S131072x256 : (⟨S_, .f32⟩ : BufTy).Contents (Elt F) → (⟨S131072x256, .f32⟩ : BufTy).Contents (Elt F)),
    binary main_v157 main_v158 main_v159 (cmpf .ogt : (⟨S131072x256, .f32⟩ : BufTy).Contents (Elt F) → (⟨S131072x256, .f32⟩ : BufTy).Contents (Elt F) → (⟨S131072x256, .i1⟩ : BufTy).Contents (Elt F)),
    nullary main_cst_27 (constant S_ .f32 0x41A00000#32),
    unary main_cst_27 main_v160 (broadcastInDim S131072x256 ![] bcast_S_S131072x256 : (⟨S_, .f32⟩ : BufTy).Contents (Elt F) → (⟨S131072x256, .f32⟩ : BufTy).Contents (Elt F)),
    binary main_v157 main_v160 main_v161 (minimumf : (⟨S131072x256, .f32⟩ : BufTy).Contents (Elt F) → (⟨S131072x256, .f32⟩ : BufTy).Contents (Elt F) → (⟨S131072x256, .f32⟩ : BufTy).Contents (Elt F)),
    unary main_v161 main_v162 (Host.exp : (⟨S131072x256, .f32⟩ : BufTy).Contents (Elt F) → (⟨S131072x256, .f32⟩ : BufTy).Contents (Elt F)),
    unary main_v162 main_v163 (Host.log1p : (⟨S131072x256, .f32⟩ : BufTy).Contents (Elt F) → (⟨S131072x256, .f32⟩ : BufTy).Contents (Elt F)),
    nullary main_cst_28 (constant S_ .f32 0x42C80000#32),
    unary main_cst_28 main_v164 (broadcastInDim S131072x256 ![] bcast_S_S131072x256 : (⟨S_, .f32⟩ : BufTy).Contents (Elt F) → (⟨S131072x256, .f32⟩ : BufTy).Contents (Elt F)),
    binary main_v163 main_v164 main_v165 (Host.divf : (⟨S131072x256, .f32⟩ : BufTy).Contents (Elt F) → (⟨S131072x256, .f32⟩ : BufTy).Contents (Elt F) → (⟨S131072x256, .f32⟩ : BufTy).Contents (Elt F)),
    TRef.ternary (TRef.of (T := ⟨S131072x256, .i1⟩) main_v159) (TRef.of (T := ⟨S131072x256, .f32⟩) main_v155) (TRef.of (T := ⟨S131072x256, .f32⟩) main_v165) (TRef.of (T := ⟨S131072x256, .f32⟩) main_v166) select ]
/-- The buffers window 8 writes. -/
abbrev w8_W : List (Ref sig .tc) := [main_v146, main_call12_v0, main_call12_cst, main_call12_v1, main_call12_v2, main_v147, main_v148, main_v149, main_v150, main_v151, main_v152, main_v153, main_v154, main_v155, main_cst_25, main_v156, main_v157, main_cst_26, main_v158, main_v159, main_cst_27, main_v160, main_v161, main_v162, main_v163, main_cst_28, main_v164, main_v165, main_v166]
set_option maxRecDepth 8192 in
theorem w8_writes : (w8 : List (HloOp τ sig (Elt F))).Forall fun op => op.writes ⊆ (w8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Window 9: layer 7. -/
abbrev w9 : List (HloOp τ sig (Elt F)) :=
  [ unary main_arg23 main_v167 (broadcastInDim S256x1 ![0] bcast_S256_S256x1_0 : (⟨S256, .f32⟩ : BufTy).Contents (Elt F) → (⟨S256x1, .f32⟩ : BufTy).Contents (Elt F)),
    TRef.binary (TRef.of (T := ⟨S256x256, .f32⟩) main_arg22) (TRef.of (T := ⟨S256x256, .f32⟩) main_arg22) (TRef.of (T := ⟨S256x256, .f32⟩) main_call14_v0) mulf,
    TRef.nullary (TRef.of (T := ⟨S_, .f32⟩) main_call14_cst) (constant S_ .f32 0x00000000#32),
    TRef.binary (TRef.of (T := ⟨S256x256, .f32⟩) main_call14_v0) (TRef.of (T := ⟨S_, .f32⟩) main_call14_cst) (TRef.of (T := ⟨S256, .f32⟩) main_call14_v1) (fun x v => Host.reduceAdd x v reducesTo_S256x256_S256_d1 h_S_),
    TRef.unary (TRef.of (T := ⟨S256, .f32⟩) main_call14_v1) (TRef.of (T := ⟨S256x1, .f32⟩) main_call14_v2) (broadcastInDim S256x1 ![0] bcast_S256_S256x1_0),
    TRef.unary (TRef.of (T := ⟨S256x1, .f32⟩) main_call14_v2) (TRef.of (T := ⟨S256x1, .f32⟩) main_v168) Host.sqrt,
    binary main_v167 main_v168 main_v169 (Host.divf : (⟨S256x1, .f32⟩ : BufTy).Contents (Elt F) → (⟨S256x1, .f32⟩ : BufTy).Contents (Elt F) → (⟨S256x1, .f32⟩ : BufTy).Contents (Elt F)),
    unary main_v169 main_v170 (broadcastInDim S256x256 ![0, 1] bcast_S256x1_S256x256_0_1 : (⟨S256x1, .f32⟩ : BufTy).Contents (Elt F) → (⟨S256x256, .f32⟩ : BufTy).Contents (Elt F)),
    binary main_arg22 main_v170 main_v171 (mulf : (⟨S256x256, .f32⟩ : BufTy).Contents (Elt F) → (⟨S256x256, .f32⟩ : BufTy).Contents (Elt F) → (⟨S256x256, .f32⟩ : BufTy).Contents (Elt F)),
    unary main_v171 main_v172 ((transpose S256x256 [1, 0] · transposes_S256x256_S256x256_1_0) : (⟨S256x256, .f32⟩ : BufTy).Contents (Elt F) → (⟨S256x256, .f32⟩ : BufTy).Contents (Elt F)),
    binary main_v166 main_v172 main_v173 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    unary main_arg24 main_v174 (broadcastInDim S1x256 ![1] bcast_S256_S1x256_1 : (⟨S256, .f32⟩ : BufTy).Contents (Elt F) → (⟨S1x256, .f32⟩ : BufTy).Contents (Elt F)),
    unary main_v174 main_v175 (broadcastInDim S131072x256 ![0, 1] bcast_S1x256_S131072x256_0_1 : (⟨S1x256, .f32⟩ : BufTy).Contents (Elt F) → (⟨S131072x256, .f32⟩ : BufTy).Contents (Elt F)),
    binary main_v173 main_v175 main_v176 (addf : (⟨S131072x256, .f32⟩ : BufTy).Contents (Elt F) → (⟨S131072x256, .f32⟩ : BufTy).Contents (Elt F) → (⟨S131072x256, .f32⟩ : BufTy).Contents (Elt F)),
    nullary main_cst_29 (constant S_ .f32 0x42C80000#32),
    unary main_cst_29 main_v177 (broadcastInDim S131072x256 ![] bcast_S_S131072x256 : (⟨S_, .f32⟩ : BufTy).Contents (Elt F) → (⟨S131072x256, .f32⟩ : BufTy).Contents (Elt F)),
    binary main_v177 main_v176 main_v178 (mulf : (⟨S131072x256, .f32⟩ : BufTy).Contents (Elt F) → (⟨S131072x256, .f32⟩ : BufTy).Contents (Elt F) → (⟨S131072x256, .f32⟩ : BufTy).Contents (Elt F)),
    nullary main_cst_30 (constant S_ .f32 0x41A00000#32),
    unary main_cst_30 main_v179 (broadcastInDim S131072x256 ![] bcast_S_S131072x256 : (⟨S_, .f32⟩ : BufTy).Contents (Elt F) → (⟨S131072x256, .f32⟩ : BufTy).Contents (Elt F)),
    binary main_v178 main_v179 main_v180 (cmpf .ogt : (⟨S131072x256, .f32⟩ : BufTy).Contents (Elt F) → (⟨S131072x256, .f32⟩ : BufTy).Contents (Elt F) → (⟨S131072x256, .i1⟩ : BufTy).Contents (Elt F)),
    nullary main_cst_31 (constant S_ .f32 0x41A00000#32),
    unary main_cst_31 main_v181 (broadcastInDim S131072x256 ![] bcast_S_S131072x256 : (⟨S_, .f32⟩ : BufTy).Contents (Elt F) → (⟨S131072x256, .f32⟩ : BufTy).Contents (Elt F)),
    binary main_v178 main_v181 main_v182 (minimumf : (⟨S131072x256, .f32⟩ : BufTy).Contents (Elt F) → (⟨S131072x256, .f32⟩ : BufTy).Contents (Elt F) → (⟨S131072x256, .f32⟩ : BufTy).Contents (Elt F)),
    unary main_v182 main_v183 (Host.exp : (⟨S131072x256, .f32⟩ : BufTy).Contents (Elt F) → (⟨S131072x256, .f32⟩ : BufTy).Contents (Elt F)),
    unary main_v183 main_v184 (Host.log1p : (⟨S131072x256, .f32⟩ : BufTy).Contents (Elt F) → (⟨S131072x256, .f32⟩ : BufTy).Contents (Elt F)),
    nullary main_cst_32 (constant S_ .f32 0x42C80000#32),
    unary main_cst_32 main_v185 (broadcastInDim S131072x256 ![] bcast_S_S131072x256 : (⟨S_, .f32⟩ : BufTy).Contents (Elt F) → (⟨S131072x256, .f32⟩ : BufTy).Contents (Elt F)),
    binary main_v184 main_v185 main_v186 (Host.divf : (⟨S131072x256, .f32⟩ : BufTy).Contents (Elt F) → (⟨S131072x256, .f32⟩ : BufTy).Contents (Elt F) → (⟨S131072x256, .f32⟩ : BufTy).Contents (Elt F)),
    TRef.ternary (TRef.of (T := ⟨S131072x256, .i1⟩) main_v180) (TRef.of (T := ⟨S131072x256, .f32⟩) main_v176) (TRef.of (T := ⟨S131072x256, .f32⟩) main_v186) (TRef.of (T := ⟨S131072x256, .f32⟩) main_v187) select ]
/-- The buffers window 9 writes. -/
abbrev w9_W : List (Ref sig .tc) := [main_v167, main_call14_v0, main_call14_cst, main_call14_v1, main_call14_v2, main_v168, main_v169, main_v170, main_v171, main_v172, main_v173, main_v174, main_v175, main_v176, main_cst_29, main_v177, main_v178, main_cst_30, main_v179, main_v180, main_cst_31, main_v181, main_v182, main_v183, main_v184, main_cst_32, main_v185, main_v186, main_v187]
set_option maxRecDepth 8192 in
theorem w9_writes : (w9 : List (HloOp τ sig (Elt F))).Forall fun op => op.writes ⊆ (w9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Window 10: layer 8. -/
abbrev w10 : List (HloOp τ sig (Elt F)) :=
  [ unary main_arg26 main_v188 (broadcastInDim S260x1 ![0] bcast_S260_S260x1_0 : (⟨S260, .f32⟩ : BufTy).Contents (Elt F) → (⟨S260x1, .f32⟩ : BufTy).Contents (Elt F)),
    TRef.binary (TRef.of (T := ⟨S260x256, .f32⟩) main_arg25) (TRef.of (T := ⟨S260x256, .f32⟩) main_arg25) (TRef.of (T := ⟨S260x256, .f32⟩) main_call16_v0) mulf,
    TRef.nullary (TRef.of (T := ⟨S_, .f32⟩) main_call16_cst) (constant S_ .f32 0x00000000#32),
    TRef.binary (TRef.of (T := ⟨S260x256, .f32⟩) main_call16_v0) (TRef.of (T := ⟨S_, .f32⟩) main_call16_cst) (TRef.of (T := ⟨S260, .f32⟩) main_call16_v1) (fun x v => Host.reduceAdd x v reducesTo_S260x256_S260_d1 h_S_),
    TRef.unary (TRef.of (T := ⟨S260, .f32⟩) main_call16_v1) (TRef.of (T := ⟨S260x1, .f32⟩) main_call16_v2) (broadcastInDim S260x1 ![0] bcast_S260_S260x1_0),
    TRef.unary (TRef.of (T := ⟨S260x1, .f32⟩) main_call16_v2) (TRef.of (T := ⟨S260x1, .f32⟩) main_v189) Host.sqrt,
    binary main_v188 main_v189 main_v190 (Host.divf : (⟨S260x1, .f32⟩ : BufTy).Contents (Elt F) → (⟨S260x1, .f32⟩ : BufTy).Contents (Elt F) → (⟨S260x1, .f32⟩ : BufTy).Contents (Elt F)),
    unary main_v190 main_v191 (broadcastInDim S260x256 ![0, 1] bcast_S260x1_S260x256_0_1 : (⟨S260x1, .f32⟩ : BufTy).Contents (Elt F) → (⟨S260x256, .f32⟩ : BufTy).Contents (Elt F)),
    binary main_arg25 main_v191 main_v192 (mulf : (⟨S260x256, .f32⟩ : BufTy).Contents (Elt F) → (⟨S260x256, .f32⟩ : BufTy).Contents (Elt F) → (⟨S260x256, .f32⟩ : BufTy).Contents (Elt F)),
    unary main_v192 main_v193 ((transpose S256x260 [1, 0] · transposes_S260x256_S256x260_1_0) : (⟨S260x256, .f32⟩ : BufTy).Contents (Elt F) → (⟨S256x260, .f32⟩ : BufTy).Contents (Elt F)),
    binary main_v187 main_v193 main_v194 ((fun l r => Host.dotGeneral dot_S131072x256_S256x260_S131072x260_1_0_0_1_n_n none l r) : (⟨S131072x256, .f32⟩ : BufTy).Contents (Elt F) → (⟨S256x260, .f32⟩ : BufTy).Contents (Elt F) → (⟨S131072x260, .f32⟩ : BufTy).Contents (Elt F)),
    unary main_arg27 main_v195 (broadcastInDim S1x260 ![1] bcast_S260_S1x260_1 : (⟨S260, .f32⟩ : BufTy).Contents (Elt F) → (⟨S1x260, .f32⟩ : BufTy).Contents (Elt F)),
    unary main_v195 main_v196 (broadcastInDim S131072x260 ![0, 1] bcast_S1x260_S131072x260_0_1 : (⟨S1x260, .f32⟩ : BufTy).Contents (Elt F) → (⟨S131072x260, .f32⟩ : BufTy).Contents (Elt F)),
    binary main_v194 main_v196 main_v197 (addf : (⟨S131072x260, .f32⟩ : BufTy).Contents (Elt F) → (⟨S131072x260, .f32⟩ : BufTy).Contents (Elt F) → (⟨S131072x260, .f32⟩ : BufTy).Contents (Elt F)) ]
/-- The buffers window 10 writes. -/
abbrev w10_W : List (Ref sig .tc) := [main_v188, main_call16_v0, main_call16_cst, main_call16_v1, main_call16_v2, main_v189, main_v190, main_v191, main_v192, main_v193, main_v194, main_v195, main_v196, main_v197]
set_option maxRecDepth 8192 in
theorem w10_writes : (w10 : List (HloOp τ sig (Elt F))).Forall fun op => op.writes ⊆ (w10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-! ## The contents after each window -/

variable (m : (ℓ : Loc nD τ sig) → Buf (Elt Ideal) ℓ) (c : Dev nD)

/-- The device's buffer contents at launch. -/
def val0 : Valuation τ sig (Elt Ideal) := launchContents m c

/-- The device's buffer contents after the first 1 window. -/
def val1 : Valuation τ sig (Elt Ideal) := after (w0 (F := Ideal)) (val0 m c)
/-- A buffer window 0 does not write keeps its contents through it. -/
theorem val1_keep (r : Ref sig .tc) (h : r ∉ w0_W) :
    val1 m c (Proc.devRef .tc r) = val0 m c (Proc.devRef .tc r) :=
  after_of_writes_sub (w0 (F := Ideal)) _ w0_writes h

/-- The device's buffer contents after the first 2 windows. -/
def val2 : Valuation τ sig (Elt Ideal) := after (w1 (F := Ideal)) (val1 m c)
/-- A buffer window 1 does not write keeps its contents through it. -/
theorem val2_keep (r : Ref sig .tc) (h : r ∉ w1_W) :
    val2 m c (Proc.devRef .tc r) = val1 m c (Proc.devRef .tc r) :=
  after_of_writes_sub (w1 (F := Ideal)) _ w1_writes h

/-- The device's buffer contents after the first 3 windows. -/
def val3 : Valuation τ sig (Elt Ideal) := after (w2 (F := Ideal)) (val2 m c)
/-- A buffer window 2 does not write keeps its contents through it. -/
theorem val3_keep (r : Ref sig .tc) (h : r ∉ w2_W) :
    val3 m c (Proc.devRef .tc r) = val2 m c (Proc.devRef .tc r) :=
  after_of_writes_sub (w2 (F := Ideal)) _ w2_writes h

/-- The device's buffer contents after the first 4 windows. -/
def val4 : Valuation τ sig (Elt Ideal) := after (w3 (F := Ideal)) (val3 m c)
/-- A buffer window 3 does not write keeps its contents through it. -/
theorem val4_keep (r : Ref sig .tc) (h : r ∉ w3_W) :
    val4 m c (Proc.devRef .tc r) = val3 m c (Proc.devRef .tc r) :=
  after_of_writes_sub (w3 (F := Ideal)) _ w3_writes h

/-- The device's buffer contents after the first 5 windows. -/
def val5 : Valuation τ sig (Elt Ideal) := after (w4 (F := Ideal)) (val4 m c)
/-- A buffer window 4 does not write keeps its contents through it. -/
theorem val5_keep (r : Ref sig .tc) (h : r ∉ w4_W) :
    val5 m c (Proc.devRef .tc r) = val4 m c (Proc.devRef .tc r) :=
  after_of_writes_sub (w4 (F := Ideal)) _ w4_writes h

/-- The device's buffer contents after the first 6 windows. -/
def val6 : Valuation τ sig (Elt Ideal) := after (w5 (F := Ideal)) (val5 m c)
/-- A buffer window 5 does not write keeps its contents through it. -/
theorem val6_keep (r : Ref sig .tc) (h : r ∉ w5_W) :
    val6 m c (Proc.devRef .tc r) = val5 m c (Proc.devRef .tc r) :=
  after_of_writes_sub (w5 (F := Ideal)) _ w5_writes h

/-- The device's buffer contents after the first 7 windows. -/
def val7 : Valuation τ sig (Elt Ideal) := after (w6 (F := Ideal)) (val6 m c)
/-- A buffer window 6 does not write keeps its contents through it. -/
theorem val7_keep (r : Ref sig .tc) (h : r ∉ w6_W) :
    val7 m c (Proc.devRef .tc r) = val6 m c (Proc.devRef .tc r) :=
  after_of_writes_sub (w6 (F := Ideal)) _ w6_writes h

/-- The device's buffer contents after the first 8 windows. -/
def val8 : Valuation τ sig (Elt Ideal) := after (w7 (F := Ideal)) (val7 m c)
/-- A buffer window 7 does not write keeps its contents through it. -/
theorem val8_keep (r : Ref sig .tc) (h : r ∉ w7_W) :
    val8 m c (Proc.devRef .tc r) = val7 m c (Proc.devRef .tc r) :=
  after_of_writes_sub (w7 (F := Ideal)) _ w7_writes h

/-- The device's buffer contents after the first 9 windows. -/
def val9 : Valuation τ sig (Elt Ideal) := after (w8 (F := Ideal)) (val8 m c)
/-- A buffer window 8 does not write keeps its contents through it. -/
theorem val9_keep (r : Ref sig .tc) (h : r ∉ w8_W) :
    val9 m c (Proc.devRef .tc r) = val8 m c (Proc.devRef .tc r) :=
  after_of_writes_sub (w8 (F := Ideal)) _ w8_writes h

/-- The device's buffer contents after the first 10 windows. -/
def val10 : Valuation τ sig (Elt Ideal) := after (w9 (F := Ideal)) (val9 m c)
/-- A buffer window 9 does not write keeps its contents through it. -/
theorem val10_keep (r : Ref sig .tc) (h : r ∉ w9_W) :
    val10 m c (Proc.devRef .tc r) = val9 m c (Proc.devRef .tc r) :=
  after_of_writes_sub (w9 (F := Ideal)) _ w9_writes h

/-- The device's buffer contents after the first 11 windows. -/
def val11 : Valuation τ sig (Elt Ideal) := after (w10 (F := Ideal)) (val10 m c)
/-- A buffer window 10 does not write keeps its contents through it. -/
theorem val11_keep (r : Ref sig .tc) (h : r ∉ w10_W) :
    val11 m c (Proc.devRef .tc r) = val10 m c (Proc.devRef .tc r) :=
  after_of_writes_sub (w10 (F := Ideal)) _ w10_writes h

end Cert.ReferenceIdeal.RefValue

end
-- ==== Proof.RefVals.lean ====
/-
  The buffers the proof follows through the host program, as typed values: the encoded points after window 0, each
  layer's output after its window, and the scaled join after the skip window.  An argument buffer is written by no
  window, so it holds its launch contents after every window; the encoding is not written again after window 0, so
  the skip window still reads it.
-/
import proofs.«146509_j19370302505666_1_alg».proof.Proof.RefWin

noncomputable section

namespace Cert.ReferenceIdeal.RefValue

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

/-- The 28 argument buffers. -/
abbrev argsL : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27]

theorem args_w0 : ∀ r ∈ argsL, r ∉ w0_W := by decide
theorem args_w1 : ∀ r ∈ argsL, r ∉ w1_W := by decide
theorem args_w2 : ∀ r ∈ argsL, r ∉ w2_W := by decide
theorem args_w3 : ∀ r ∈ argsL, r ∉ w3_W := by decide
theorem args_w4 : ∀ r ∈ argsL, r ∉ w4_W := by decide
theorem args_w5 : ∀ r ∈ argsL, r ∉ w5_W := by decide
theorem args_w6 : ∀ r ∈ argsL, r ∉ w6_W := by decide
theorem args_w7 : ∀ r ∈ argsL, r ∉ w7_W := by decide
theorem args_w8 : ∀ r ∈ argsL, r ∉ w8_W := by decide
theorem args_w9 : ∀ r ∈ argsL, r ∉ w9_W := by decide
theorem args_w10 : ∀ r ∈ argsL, r ∉ w10_W := by decide

/-- An argument buffer holds its launch contents after every window. -/
theorem val0_arg (r : Ref sig .tc) : val0 m c (Proc.devRef .tc r) = m ((c.tc : Thread nD τ).loc r) := rfl
theorem val1_arg (r : Ref sig .tc) (h : r ∈ argsL) : val1 m c (Proc.devRef .tc r) = m ((c.tc : Thread nD τ).loc r) :=
  (val1_keep m c r (args_w0 r h)).trans (val0_arg m c r)
theorem val2_arg (r : Ref sig .tc) (h : r ∈ argsL) : val2 m c (Proc.devRef .tc r) = m ((c.tc : Thread nD τ).loc r) :=
  (val2_keep m c r (args_w1 r h)).trans (val1_arg m c r h)
theorem val3_arg (r : Ref sig .tc) (h : r ∈ argsL) : val3 m c (Proc.devRef .tc r) = m ((c.tc : Thread nD τ).loc r) :=
  (val3_keep m c r (args_w2 r h)).trans (val2_arg m c r h)
theorem val4_arg (r : Ref sig .tc) (h : r ∈ argsL) : val4 m c (Proc.devRef .tc r) = m ((c.tc : Thread nD τ).loc r) :=
  (val4_keep m c r (args_w3 r h)).trans (val3_arg m c r h)
theorem val5_arg (r : Ref sig .tc) (h : r ∈ argsL) : val5 m c (Proc.devRef .tc r) = m ((c.tc : Thread nD τ).loc r) :=
  (val5_keep m c r (args_w4 r h)).trans (val4_arg m c r h)
theorem val6_arg (r : Ref sig .tc) (h : r ∈ argsL) : val6 m c (Proc.devRef .tc r) = m ((c.tc : Thread nD τ).loc r) :=
  (val6_keep m c r (args_w5 r h)).trans (val5_arg m c r h)
theorem val7_arg (r : Ref sig .tc) (h : r ∈ argsL) : val7 m c (Proc.devRef .tc r) = m ((c.tc : Thread nD τ).loc r) :=
  (val7_keep m c r (args_w6 r h)).trans (val6_arg m c r h)
theorem val8_arg (r : Ref sig .tc) (h : r ∈ argsL) : val8 m c (Proc.devRef .tc r) = m ((c.tc : Thread nD τ).loc r) :=
  (val8_keep m c r (args_w7 r h)).trans (val7_arg m c r h)
theorem val9_arg (r : Ref sig .tc) (h : r ∈ argsL) : val9 m c (Proc.devRef .tc r) = m ((c.tc : Thread nD τ).loc r) :=
  (val9_keep m c r (args_w8 r h)).trans (val8_arg m c r h)
theorem val10_arg (r : Ref sig .tc) (h : r ∈ argsL) : val10 m c (Proc.devRef .tc r) = m ((c.tc : Thread nD τ).loc r) :=
  (val10_keep m c r (args_w9 r h)).trans (val9_arg m c r h)
theorem val11_arg (r : Ref sig .tc) (h : r ∈ argsL) : val11 m c (Proc.devRef .tc r) = m ((c.tc : Thread nD τ).loc r) :=
  (val11_keep m c r (args_w10 r h)).trans (val10_arg m c r h)

/-! ## The values followed -/

/-- The encoded points: the result of window 0. -/
def enc : FVec Ideal S131072x39 .f32 := val1 m c (Proc.devRef .tc main_v16)
/-- Layer 0's output: the result of window 1. -/
def lay0 : FVec Ideal S131072x256 .f32 := val2 m c (Proc.devRef .tc main_v37)
/-- Layer 1's output: the result of window 2. -/
def lay1 : FVec Ideal S131072x256 .f32 := val3 m c (Proc.devRef .tc main_v58)
/-- Layer 2's output: the result of window 3. -/
def lay2 : FVec Ideal S131072x256 .f32 := val4 m c (Proc.devRef .tc main_v79)
/-- Layer 3's output: the result of window 4. -/
def lay3 : FVec Ideal S131072x217 .f32 := val5 m c (Proc.devRef .tc main_v100)
/-- Layer 4's output: the result of window 6. -/
def lay4 : FVec Ideal S131072x256 .f32 := val7 m c (Proc.devRef .tc main_v124)
/-- Layer 5's output: the result of window 7. -/
def lay5 : FVec Ideal S131072x256 .f32 := val8 m c (Proc.devRef .tc main_v145)
/-- Layer 6's output: the result of window 8. -/
def lay6 : FVec Ideal S131072x256 .f32 := val9 m c (Proc.devRef .tc main_v166)
/-- Layer 7's output: the result of window 9. -/
def lay7 : FVec Ideal S131072x256 .f32 := val10 m c (Proc.devRef .tc main_v187)
/-- Layer 8's output: the result of window 10. -/
def lay8 : FVec Ideal S131072x260 .f32 := val11 m c (Proc.devRef .tc main_v197)
/-- The scaled join of layer 3's output with the encoding: the result of window 5. -/
def skp : FVec Ideal S131072x256 .f32 := val6 m c (Proc.devRef .tc main_v103)

/-- The skip window still reads the encoding of window 0: windows 1 to 4 do not write it. -/
theorem val5_enc : val5 m c (Proc.devRef .tc main_v16) = enc m c :=
  (val5_keep m c main_v16 (by decide)).trans ((val4_keep m c main_v16 (by decide)).trans
    ((val3_keep m c main_v16 (by decide)).trans (val2_keep m c main_v16 (by decide))))

end Cert.ReferenceIdeal.RefValue

end
-- ==== Proof.RefOps.lean ====
/-
  The host program's operation list is the eleven windows one after the other, so its fold over the launch contents
  is the contents after the last window; in particular every argument buffer still holds its launch contents.
-/
import proofs.«146509_j19370302505666_1_alg».proof.Proof.RefRun
import proofs.«146509_j19370302505666_1_alg».proof.Proof.RefVals

noncomputable section

namespace Cert.ReferenceIdeal.RefValue

open Cert.ReferenceIdeal Cert.ReferenceIdeal.Gen Idealize.ShloMosaic Idealize.ShloMosaic.TcCoe Idealize.SL.Sem Idealize.ShloMosaic.StableHlo

set_option maxRecDepth 16384 in
/-- The 268 operations are the eleven windows in order. -/
theorem ops_eq {F : FTy → Type} [FloatOps F] :
    (Cert.ReferenceIdeal.RunP.ops : List (HloOp τ sig (Elt F))) = w0 ++ w1 ++ w2 ++ w3 ++ w4 ++ w5 ++ w6 ++ w7 ++ w8 ++ w9 ++ w10 := rfl

variable (m : (ℓ : Loc nD τ sig) → Buf (Elt Ideal) ℓ) (c : Dev nD)

/-- The fold of the whole list over the launch contents is the contents after the last window. -/
theorem after_ops : after (Cert.ReferenceIdeal.RunP.ops (F := Ideal)) (launchContents m c) = val11 m c := by
  rw [ops_eq]
  simp only [after_append]
  rfl

/-- Every argument buffer holds its launch contents after the whole program. -/
theorem ops_arg (r : Ref sig .tc) (h : r ∈ argsL) :
    after (Cert.ReferenceIdeal.RunP.ops (F := Ideal)) (launchContents m c) (Proc.devRef .tc r) = m ((c.tc : Thread nD τ).loc r) := by
  rw [after_ops]
  exact val11_arg m c r h

end Cert.ReferenceIdeal.RefValue

end
-- ==== Proof.RefWinA.lean ====
/-
  The values of windows 0 and 1: the positional encoding, and layer 0.
-/
import proofs.«146509_j19370302505666_1_alg».proof.Proof.RefVals
import proofs.«146509_j19370302505666_1_alg».proof.Proof.NetSpec
import proofs.«146509_j19370302505666_1_alg».proof.Proof.LayerRow

noncomputable section

namespace Cert.ReferenceIdeal.RefValue

open Cert.ReferenceIdeal Cert.ReferenceIdeal.Gen Idealize.ShloMosaic Idealize.ShloMosaic.TcCoe Idealize.SL.Sem Idealize.ShloMosaic.StableHlo Cert.Rows

variable (m : (ℓ : Loc nD τ sig) → Buf (Elt Ideal) ℓ) (c : Dev nD)

set_option maxRecDepth 8192 in
/-- Window 0: the encoding of the points, as the shared term. -/
theorem enc_eq : enc m c = (embedT (F := Ideal) (m ((c.tc : Thread nD τ).loc main_arg0)) : FVec Ideal SN39 .f32) := by
  unfold enc val1
  simp only [w0]
  after_results_simp
  rfl

set_option maxRecDepth 8192 in
/-- Window 1: layer 0's output is the activation of the affine map of its input, with the weight-normalised matrix and the bias
    both broadcast the host's way. -/
theorem lay0_eq : lay0 m c
    = (hAct bcast_S_S131072x256
      (addf (Host.dotGeneral (φ₁ := .f32) dot_S131072x39_S39x256_S131072x256_1_0_0_1_n_n none (enc m c)
          (wnT (F := Ideal) w_g_256_39 w_r_256_39 w_h0 w_s_256_39 w_t_256_39 (m ((c.tc : Thread nD τ).loc main_arg1)) (m ((c.tc : Thread nD τ).loc main_arg2))))
        (broadcastInDim S131072x256 ![0, 1] bcast_S1x256_S131072x256_0_1 (broadcastInDim S1x256 ![1] bcast_S256_S1x256_1 (m ((c.tc : Thread nD τ).loc main_arg3))))) : FVec Ideal S131072x256 .f32) := by
  unfold lay0 val2
  simp only [w1]
  after_results_simp
  simp only [TRef.toBuf, TRef.ofBuf, cast_eq]
  rw [val1_arg m c main_arg1 (by decide), val1_arg m c main_arg2 (by decide), val1_arg m c main_arg3 (by decide)]
  unfold enc
  generalize val1 m c (Proc.devRef .tc main_v16) = hh
  rfl

end Cert.ReferenceIdeal.RefValue

end
-- ==== Proof.RefWinB.lean ====
/-
  The values of windows 2, 3 and 4: layers 1, 2 and 3.
-/
import proofs.«146509_j19370302505666_1_alg».proof.Proof.RefVals
import proofs.«146509_j19370302505666_1_alg».proof.Proof.NetSpec
import proofs.«146509_j19370302505666_1_alg».proof.Proof.LayerRow

noncomputable section

namespace Cert.ReferenceIdeal.RefValue

open Cert.ReferenceIdeal Cert.ReferenceIdeal.Gen Idealize.ShloMosaic Idealize.ShloMosaic.TcCoe Idealize.SL.Sem Idealize.ShloMosaic.StableHlo Cert.Rows

variable (m : (ℓ : Loc nD τ sig) → Buf (Elt Ideal) ℓ) (c : Dev nD)

set_option maxRecDepth 8192 in
/-- Window 2: layer 1's output is the activation of the affine map of its input, with the weight-normalised matrix and the bias
    both broadcast the host's way. -/
theorem lay1_eq : lay1 m c
    = (hAct bcast_S_S131072x256
      (addf (Host.dotGeneral (φ₁ := .f32) dot_S131072x256_S256x256_S131072x256_1_0_0_1_n_n none (lay0 m c)
          (wnT (F := Ideal) w_g_256_256 w_r_256_256 w_h0 w_s_256_256 w_t_256_256 (m ((c.tc : Thread nD τ).loc main_arg4)) (m ((c.tc : Thread nD τ).loc main_arg5))))
        (broadcastInDim S131072x256 ![0, 1] bcast_S1x256_S131072x256_0_1 (broadcastInDim S1x256 ![1] bcast_S256_S1x256_1 (m ((c.tc : Thread nD τ).loc main_arg6))))) : FVec Ideal S131072x256 .f32) := by
  unfold lay1 val3
  simp only [w2]
  after_results_simp
  simp only [TRef.toBuf, TRef.ofBuf, cast_eq]
  rw [val2_arg m c main_arg4 (by decide), val2_arg m c main_arg5 (by decide), val2_arg m c main_arg6 (by decide)]
  unfold lay0
  generalize val2 m c (Proc.devRef .tc main_v37) = hh
  rfl

set_option maxRecDepth 8192 in
/-- Window 3: layer 2's output is the activation of the affine map of its input, with the weight-normalised matrix and the bias
    both broadcast the host's way. -/
theorem lay2_eq : lay2 m c
    = (hAct bcast_S_S131072x256
      (addf (Host.dotGeneral (φ₁ := .f32) dot_S131072x256_S256x256_S131072x256_1_0_0_1_n_n none (lay1 m c)
          (wnT (F := Ideal) w_g_256_256 w_r_256_256 w_h0 w_s_256_256 w_t_256_256 (m ((c.tc : Thread nD τ).loc main_arg7)) (m ((c.tc : Thread nD τ).loc main_arg8))))
        (broadcastInDim S131072x256 ![0, 1] bcast_S1x256_S131072x256_0_1 (broadcastInDim S1x256 ![1] bcast_S256_S1x256_1 (m ((c.tc : Thread nD τ).loc main_arg9))))) : FVec Ideal S131072x256 .f32) := by
  unfold lay2 val4
  simp only [w3]
  after_results_simp
  simp only [TRef.toBuf, TRef.ofBuf, cast_eq]
  rw [val3_arg m c main_arg7 (by decide), val3_arg m c main_arg8 (by decide), val3_arg m c main_arg9 (by decide)]
  unfold lay1
  generalize val3 m c (Proc.devRef .tc main_v58) = hh
  rfl

set_option maxRecDepth 8192 in
/-- Window 4: layer 3's output is the activation of the affine map of its input, with the weight-normalised matrix and the bias
    both broadcast the host's way. -/
theorem lay3_eq : lay3 m c
    = (hAct bcast_S_S131072x217
      (addf (Host.dotGeneral (φ₁ := .f32) dot_S131072x256_S256x217_S131072x217_1_0_0_1_n_n none (lay2 m c)
          (wnT (F := Ideal) w_g_217_256 w_r_217_256 w_h0 w_s_217_256 w_t_217_256 (m ((c.tc : Thread nD τ).loc main_arg10)) (m ((c.tc : Thread nD τ).loc main_arg11))))
        (broadcastInDim S131072x217 ![0, 1] bcast_S1x217_S131072x217_0_1 (broadcastInDim S1x217 ![1] bcast_S217_S1x217_1 (m ((c.tc : Thread nD τ).loc main_arg12))))) : FVec Ideal S131072x217 .f32) := by
  unfold lay3 val5
  simp only [w4]
  after_results_simp
  simp only [TRef.toBuf, TRef.ofBuf, cast_eq]
  rw [val4_arg m c main_arg10 (by decide), val4_arg m c main_arg11 (by decide), val4_arg m c main_arg12 (by decide)]
  unfold lay2
  generalize val4 m c (Proc.devRef .tc main_v79) = hh
  rfl

end Cert.ReferenceIdeal.RefValue

end
-- ==== Proof.RefWinC.lean ====
/-
  The values of windows 5, 6 and 7: the skip connection, and layers 4 and 5.
-/
import proofs.«146509_j19370302505666_1_alg».proof.Proof.RefVals
import proofs.«146509_j19370302505666_1_alg».proof.Proof.NetSpec
import proofs.«146509_j19370302505666_1_alg».proof.Proof.LayerRow

noncomputable section

namespace Cert.ReferenceIdeal.RefValue

open Cert.ReferenceIdeal Cert.ReferenceIdeal.Gen Idealize.ShloMosaic Idealize.ShloMosaic.TcCoe Idealize.SL.Sem Idealize.ShloMosaic.StableHlo Cert.Rows

variable (m : (ℓ : Loc nD τ sig) → Buf (Elt Ideal) ℓ) (c : Dev nD)

/-- Window 5: the skip connection joins layer 3's output with the encoding along the columns and scales by the word for `1/√2`. -/
theorem skp_eq : skp m c
    = (mulf (concatenate S131072x256 1 [⟨S131072x217, lay3 m c⟩, ⟨S131072x39, enc m c⟩] concatenates_S131072x217_S131072x39_S131072x256_d1)
        (broadcastInDim S131072x256 ![] bcast_S_S131072x256 (constant (F := Ideal) S_ .f32 0x3F3504F3#32)) : FVec Ideal S131072x256 .f32) := by
  unfold skp val6
  simp only [w5]
  after_results_simp
  rw [val5_enc]
  rfl

set_option maxRecDepth 8192 in
/-- Window 6: layer 4's output is the activation of the affine map of its input, with the weight-normalised matrix and the bias
    both broadcast the host's way. -/
theorem lay4_eq : lay4 m c
    = (hAct bcast_S_S131072x256
      (addf (Host.dotGeneral (φ₁ := .f32) dot_S131072x256_S256x256_S131072x256_1_0_0_1_n_n none (skp m c)
          (wnT (F := Ideal) w_g_256_256 w_r_256_256 w_h0 w_s_256_256 w_t_256_256 (m ((c.tc : Thread nD τ).loc main_arg13)) (m ((c.tc : Thread nD τ).loc main_arg14))))
        (broadcastInDim S131072x256 ![0, 1] bcast_S1x256_S131072x256_0_1 (broadcastInDim S1x256 ![1] bcast_S256_S1x256_1 (m ((c.tc : Thread nD τ).loc main_arg15))))) : FVec Ideal S131072x256 .f32) := by
  unfold lay4 val7
  simp only [w6]
  after_results_simp
  simp only [TRef.toBuf, TRef.ofBuf, cast_eq]
  rw [val6_arg m c main_arg13 (by decide), val6_arg m c main_arg14 (by decide), val6_arg m c main_arg15 (by decide)]
  unfold skp
  generalize val6 m c (Proc.devRef .tc main_v103) = hh
  rfl

set_option maxRecDepth 8192 in
/-- Window 7: layer 5's output is the activation of the affine map of its input, with the weight-normalised matrix and the bias
    both broadcast the host's way. -/
theorem lay5_eq : lay5 m c
    = (hAct bcast_S_S131072x256
      (addf (Host.dotGeneral (φ₁ := .f32) dot_S131072x256_S256x256_S131072x256_1_0_0_1_n_n none (lay4 m c)
          (wnT (F := Ideal) w_g_256_256 w_r_256_256 w_h0 w_s_256_256 w_t_256_256 (m ((c.tc : Thread nD τ).loc main_arg16)) (m ((c.tc : Thread nD τ).loc main_arg17))))
        (broadcastInDim S131072x256 ![0, 1] bcast_S1x256_S131072x256_0_1 (broadcastInDim S1x256 ![1] bcast_S256_S1x256_1 (m ((c.tc : Thread nD τ).loc main_arg18))))) : FVec Ideal S131072x256 .f32) := by
  unfold lay5 val8
  simp only [w7]
  after_results_simp
  simp only [TRef.toBuf, TRef.ofBuf, cast_eq]
  rw [val7_arg m c main_arg16 (by decide), val7_arg m c main_arg17 (by decide), val7_arg m c main_arg18 (by decide)]
  unfold lay4
  generalize val7 m c (Proc.devRef .tc main_v124) = hh
  rfl

end Cert.ReferenceIdeal.RefValue

end
-- ==== Proof.RefWinD.lean ====
/-
  The values of windows 8, 9 and 10: layers 6, 7 and 8 (the last one has no activation).
-/
import proofs.«146509_j19370302505666_1_alg».proof.Proof.RefVals
import proofs.«146509_j19370302505666_1_alg».proof.Proof.NetSpec
import proofs.«146509_j19370302505666_1_alg».proof.Proof.LayerRow

noncomputable section

namespace Cert.ReferenceIdeal.RefValue

open Cert.ReferenceIdeal Cert.ReferenceIdeal.Gen Idealize.ShloMosaic Idealize.ShloMosaic.TcCoe Idealize.SL.Sem Idealize.ShloMosaic.StableHlo Cert.Rows

variable (m : (ℓ : Loc nD τ sig) → Buf (Elt Ideal) ℓ) (c : Dev nD)

set_option maxRecDepth 8192 in
/-- Window 8: layer 6's output is the activation of the affine map of its input, with the weight-normalised matrix and the bias
    both broadcast the host's way. -/
theorem lay6_eq : lay6 m c
    = (hAct bcast_S_S131072x256
      (addf (Host.dotGeneral (φ₁ := .f32) dot_S131072x256_S256x256_S131072x256_1_0_0_1_n_n none (lay5 m c)
          (wnT (F := Ideal) w_g_256_256 w_r_256_256 w_h0 w_s_256_256 w_t_256_256 (m ((c.tc : Thread nD τ).loc main_arg19)) (m ((c.tc : Thread nD τ).loc main_arg20))))
        (broadcastInDim S131072x256 ![0, 1] bcast_S1x256_S131072x256_0_1 (broadcastInDim S1x256 ![1] bcast_S256_S1x256_1 (m ((c.tc : Thread nD τ).loc main_arg21))))) : FVec Ideal S131072x256 .f32) := by
  unfold lay6 val9
  simp only [w8]
  after_results_simp
  simp only [TRef.toBuf, TRef.ofBuf, cast_eq]
  rw [val8_arg m c main_arg19 (by decide), val8_arg m c main_arg20 (by decide), val8_arg m c main_arg21 (by decide)]
  unfold lay5
  generalize val8 m c (Proc.devRef .tc main_v145) = hh
  rfl

set_option maxRecDepth 8192 in
/-- Window 9: layer 7's output is the activation of the affine map of its input, with the weight-normalised matrix and the bias
    both broadcast the host's way. -/
theorem lay7_eq : lay7 m c
    = (hAct bcast_S_S131072x256
      (addf (Host.dotGeneral (φ₁ := .f32) dot_S131072x256_S256x256_S131072x256_1_0_0_1_n_n none (lay6 m c)
          (wnT (F := Ideal) w_g_256_256 w_r_256_256 w_h0 w_s_256_256 w_t_256_256 (m ((c.tc : Thread nD τ).loc main_arg22)) (m ((c.tc : Thread nD τ).loc main_arg23))))
        (broadcastInDim S131072x256 ![0, 1] bcast_S1x256_S131072x256_0_1 (broadcastInDim S1x256 ![1] bcast_S256_S1x256_1 (m ((c.tc : Thread nD τ).loc main_arg24))))) : FVec Ideal S131072x256 .f32) := by
  unfold lay7 val10
  simp only [w9]
  after_results_simp
  simp only [TRef.toBuf, TRef.ofBuf, cast_eq]
  rw [val9_arg m c main_arg22 (by decide), val9_arg m c main_arg23 (by decide), val9_arg m c main_arg24 (by decide)]
  unfold lay6
  generalize val9 m c (Proc.devRef .tc main_v166) = hh
  rfl

set_option maxRecDepth 8192 in
/-- Window 10: layer 8's output is the affine map of its input, with the weight-normalised matrix and the bias
    both broadcast the host's way. -/
theorem lay8_eq : lay8 m c
    = (addf (Host.dotGeneral (φ₁ := .f32) dot_S131072x256_S256x260_S131072x260_1_0_0_1_n_n none (lay7 m c)
          (wnT (F := Ideal) w_g_260_256 w_r_260_256 w_h0 w_s_260_256 w_t_260_256 (m ((c.tc : Thread nD τ).loc main_arg25)) (m ((c.tc : Thread nD τ).loc main_arg26))))
        (broadcastInDim S131072x260 ![0, 1] bcast_S1x260_S131072x260_0_1 (broadcastInDim S1x260 ![1] bcast_S260_S1x260_1 (m ((c.tc : Thread nD τ).loc main_arg27)))) : FVec Ideal S131072x260 .f32) := by
  unfold lay8 val11
  simp only [w10]
  after_results_simp
  simp only [TRef.toBuf, TRef.ofBuf, cast_eq]
  rw [val10_arg m c main_arg25 (by decide), val10_arg m c main_arg26 (by decide), val10_arg m c main_arg27 (by decide)]
  unfold lay7
  generalize val10 m c (Proc.devRef .tc main_v187) = hh
  rfl

end Cert.ReferenceIdeal.RefValue

end
-- ==== Proof.RefNetRows.lean ====
/-
  The reference's result on a row.

  Each layer's output array is the activation of an affine map of the previous array (`RefWinA` …: the windows' values);
  read on row `n` that is the row function of `Rows` on row `n` of the previous array, with layer `l`'s matrix the
  weight-normalised `V_l`, transposed, and its bias `b_l` — the parameters `paramsOf` of the argument arrays.  The skip
  window joins row `n` of layer 3's output with row `n` of the encoding and scales it.  Composing the nine layers, row `n`
  of the result is the network `net` on row `n` of the encoding.
-/
import proofs.«146509_j19370302505666_1_alg».proof.Proof.RefVals
import proofs.«146509_j19370302505666_1_alg».proof.Proof.NetSpec
import proofs.«146509_j19370302505666_1_alg».proof.Proof.LayerRow
import proofs.«146509_j19370302505666_1_alg».proof.Proof.RefWinA
import proofs.«146509_j19370302505666_1_alg».proof.Proof.RefWinB
import proofs.«146509_j19370302505666_1_alg».proof.Proof.RefWinC
import proofs.«146509_j19370302505666_1_alg».proof.Proof.RefWinD

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Rows

variable (m : (ℓ : Loc nD τ sig) → Buf (Elt Ideal) ℓ) (c : Dev nD)

/-! ## The printed dimension numbers are the plain ones -/

theorem d_39_256 : dot_S131072x39_S39x256_S131072x256_1_0_0_1_n_n = DotDims.plain 131072 39 256 := rfl
theorem d_256_256 : dot_S131072x256_S256x256_S131072x256_1_0_0_1_n_n = DotDims.plain 131072 256 256 := rfl
theorem d_256_217 : dot_S131072x256_S256x217_S131072x217_1_0_0_1_n_n = DotDims.plain 131072 256 217 := rfl
theorem d_256_260 : dot_S131072x256_S256x260_S131072x260_1_0_0_1_n_n = DotDims.plain 131072 256 260 := rfl

/-- The network's parameters, of the reference's argument arrays. -/
abbrev P : Params := (paramsOf (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)))

/-! ## The layers on a row -/

/-- Layer 0 on row `n`. -/
theorem lay0_row (n : Fin 131072) : rowOf (lay0 m c) n = actRow (dense (P m c).W0 (P m c).b0 (rowOf (enc m c) n)) := by
  rw [lay0_eq, hAct_row, hAffine_row _ d_39_256]
  rfl

/-- Layer 1 on row `n`. -/
theorem lay1_row (n : Fin 131072) : rowOf (lay1 m c) n = actRow (dense (P m c).W1 (P m c).b1 (rowOf (lay0 m c) n)) := by
  rw [lay1_eq, hAct_row, hAffine_row _ d_256_256]
  rfl

/-- Layer 2 on row `n`. -/
theorem lay2_row (n : Fin 131072) : rowOf (lay2 m c) n = actRow (dense (P m c).W2 (P m c).b2 (rowOf (lay1 m c) n)) := by
  rw [lay2_eq, hAct_row, hAffine_row _ d_256_256]
  rfl

/-- Layer 3 on row `n`. -/
theorem lay3_row (n : Fin 131072) : rowOf (lay3 m c) n = actRow (dense (P m c).W3 (P m c).b3 (rowOf (lay2 m c) n)) := by
  rw [lay3_eq, hAct_row, hAffine_row _ d_256_217]
  rfl

/-- Layer 4 on row `n`. -/
theorem lay4_row (n : Fin 131072) : rowOf (lay4 m c) n = actRow (dense (P m c).W4 (P m c).b4 (rowOf (skp m c) n)) := by
  rw [lay4_eq, hAct_row, hAffine_row _ d_256_256]
  rfl

/-- Layer 5 on row `n`. -/
theorem lay5_row (n : Fin 131072) : rowOf (lay5 m c) n = actRow (dense (P m c).W5 (P m c).b5 (rowOf (lay4 m c) n)) := by
  rw [lay5_eq, hAct_row, hAffine_row _ d_256_256]
  rfl

/-- Layer 6 on row `n`. -/
theorem lay6_row (n : Fin 131072) : rowOf (lay6 m c) n = actRow (dense (P m c).W6 (P m c).b6 (rowOf (lay5 m c) n)) := by
  rw [lay6_eq, hAct_row, hAffine_row _ d_256_256]
  rfl

/-- Layer 7 on row `n`. -/
theorem lay7_row (n : Fin 131072) : rowOf (lay7 m c) n = actRow (dense (P m c).W7 (P m c).b7 (rowOf (lay6 m c) n)) := by
  rw [lay7_eq, hAct_row, hAffine_row _ d_256_256]
  rfl

/-- Layer 8 on row `n`. -/
theorem lay8_row (n : Fin 131072) : rowOf (lay8 m c) n = dense (P m c).W8 (P m c).b8 (rowOf (lay7 m c) n) := by
  rw [lay8_eq, hAffine_row _ d_256_260]
  rfl

/-- The skip connection on row `n`: layer 3's row joined with the encoding's row, scaled. -/
theorem skp_row (n : Fin 131072) : rowOf (skp m c) n = skipRow (rowOf (lay3 m c) n) (rowOf (enc m c) n) := by
  rw [skp_eq]
  funext k
  show concatenate S131072x256 1 [⟨S131072x217, lay3 m c⟩, ⟨S131072x39, enc m c⟩] concatenates_S131072x217_S131072x39_S131072x256_d1 (ix2 n k) * cSkip
      = joinRow (A := 217) (B := 39) (C := 256) rfl (rowOf (lay3 m c) n) (rowOf (enc m c) n) k * cSkip
  exact congrArg (· * cSkip) (congrFun (concat_row (A := 217) (B := 39) (C := 256) rfl (lay3 m c) (enc m c) concatenates_S131072x217_S131072x39_S131072x256_d1 n) k)

/-- Row `n` of the result is the network on row `n` of the encoding. -/
theorem net_row (n : Fin 131072) : rowOf (lay8 m c) n = net (P m c) (rowOf (enc m c) n) := by
  rw [lay8_row, lay7_row, lay6_row, lay5_row, lay4_row, skp_row, lay3_row, lay2_row, lay1_row, lay0_row]
  rfl

end Cert.ReferenceIdeal.RefValue

end
-- ==== Proof.RefValue.lean ====
/-
  The reference's result array, and its arguments, after the run.

  The fold of all 268 host operations is the contents after the last window (`RefOps`).  There the result buffer holds layer 8's output, whose entry `(n, j)` is the network on row `n` of the encoding
  at column `j` (`RefNetRows.net_row`), the encoding being the shared term `embedT` of the points: `Gout` of the argument
  arrays.  An argument buffer is written by no window and holds its launch contents.
-/
import proofs.«146509_j19370302505666_1_alg».proof.Proof.RefRun
import proofs.«146509_j19370302505666_1_alg».proof.Proof.RefOps
import proofs.«146509_j19370302505666_1_alg».proof.Proof.RefNetRows

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Rows

variable (m : (ℓ : Loc nD τ sig) → Buf (Elt Ideal) ℓ) (c : Dev nD)

/-- The result buffer ends at `Gout` of the argument arrays. -/
theorem result_eq : after (Cert.ReferenceIdeal.RunP.ops (F := Ideal)) (launchContents m c) (Proc.devRef .tc main_v197)
    = (Gout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) : FVec Ideal SN260 .f32) := by
  rw [after_ops]
  show lay8 m c = _
  funext i
  obtain ⟨n, j, rfl⟩ : ∃ (n : Fin 131072) (j : Fin 260), i = ix2 n j := ⟨i 0, i 1, eq_ix2 i⟩
  have h := congrFun (net_row m c n) j
  rw [enc_eq] at h
  exact h

/-- An argument buffer ends at its launch contents. -/
theorem arg_kept (r : Ref sig .tc) (h : r ∈ argsL) :
    after (Cert.ReferenceIdeal.RunP.ops (F := Ideal)) (launchContents m c) (Proc.devRef .tc r) = m ((c.tc : Thread nD τ).loc r) := by
  exact ops_arg m c r h

end Cert.ReferenceIdeal.RefValue

end
-- ==== Proof.RefNet.lean ====
/-
  The reference's run, read: every weakly fair execution of the reference ends with its result array at `Gout` of the
  argument arrays (entry `(n, j)`: the network on row `n` of the encoded points, at column `j`) and the argument arrays as
  launched — the run's fold of the 268 host operations, read window by window in `RefValue`.
-/
import proofs.«146509_j19370302505666_1_alg».proof.Proof.RefRun
import proofs.«146509_j19370302505666_1_alg».proof.Proof.RefValue
import proofs.«146509_j19370302505666_1_alg».proof.Proof.NetSpec

noncomputable section

namespace Cert.ReferenceIdeal.RefNet

open Cert.ReferenceIdeal Cert.ReferenceIdeal.Gen Idealize.ShloMosaic Idealize.ShloMosaic.TcCoe Idealize.SL.Sem Idealize.ShloMosaic.StableHlo Cert.Rows

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v197) = (Gout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) : FVec Ideal SN260 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run defs _ _).mono (fun r h c => ⟨(h c main_v197).trans (Cert.ReferenceIdeal.RefValue.result_eq m c),
      (h c main_arg0).trans (Cert.ReferenceIdeal.RefValue.arg_kept m c main_arg0 (by decide)),
      (h c main_arg1).trans (Cert.ReferenceIdeal.RefValue.arg_kept m c main_arg1 (by decide)),
      (h c main_arg2).trans (Cert.ReferenceIdeal.RefValue.arg_kept m c main_arg2 (by decide)),
      (h c main_arg3).trans (Cert.ReferenceIdeal.RefValue.arg_kept m c main_arg3 (by decide)),
      (h c main_arg4).trans (Cert.ReferenceIdeal.RefValue.arg_kept m c main_arg4 (by decide)),
      (h c main_arg5).trans (Cert.ReferenceIdeal.RefValue.arg_kept m c main_arg5 (by decide)),
      (h c main_arg6).trans (Cert.ReferenceIdeal.RefValue.arg_kept m c main_arg6 (by decide)),
      (h c main_arg7).trans (Cert.ReferenceIdeal.RefValue.arg_kept m c main_arg7 (by decide)),
      (h c main_arg8).trans (Cert.ReferenceIdeal.RefValue.arg_kept m c main_arg8 (by decide)),
      (h c main_arg9).trans (Cert.ReferenceIdeal.RefValue.arg_kept m c main_arg9 (by decide)),
      (h c main_arg10).trans (Cert.ReferenceIdeal.RefValue.arg_kept m c main_arg10 (by decide)),
      (h c main_arg11).trans (Cert.ReferenceIdeal.RefValue.arg_kept m c main_arg11 (by decide)),
      (h c main_arg12).trans (Cert.ReferenceIdeal.RefValue.arg_kept m c main_arg12 (by decide)),
      (h c main_arg13).trans (Cert.ReferenceIdeal.RefValue.arg_kept m c main_arg13 (by decide)),
      (h c main_arg14).trans (Cert.ReferenceIdeal.RefValue.arg_kept m c main_arg14 (by decide)),
      (h c main_arg15).trans (Cert.ReferenceIdeal.RefValue.arg_kept m c main_arg15 (by decide)),
      (h c main_arg16).trans (Cert.ReferenceIdeal.RefValue.arg_kept m c main_arg16 (by decide)),
      (h c main_arg17).trans (Cert.ReferenceIdeal.RefValue.arg_kept m c main_arg17 (by decide)),
      (h c main_arg18).trans (Cert.ReferenceIdeal.RefValue.arg_kept m c main_arg18 (by decide)),
      (h c main_arg19).trans (Cert.ReferenceIdeal.RefValue.arg_kept m c main_arg19 (by decide)),
      (h c main_arg20).trans (Cert.ReferenceIdeal.RefValue.arg_kept m c main_arg20 (by decide)),
      (h c main_arg21).trans (Cert.ReferenceIdeal.RefValue.arg_kept m c main_arg21 (by decide)),
      (h c main_arg22).trans (Cert.ReferenceIdeal.RefValue.arg_kept m c main_arg22 (by decide)),
      (h c main_arg23).trans (Cert.ReferenceIdeal.RefValue.arg_kept m c main_arg23 (by decide)),
      (h c main_arg24).trans (Cert.ReferenceIdeal.RefValue.arg_kept m c main_arg24 (by decide)),
      (h c main_arg25).trans (Cert.ReferenceIdeal.RefValue.arg_kept m c main_arg25 (by decide)),
      (h c main_arg26).trans (Cert.ReferenceIdeal.RefValue.arg_kept m c main_arg26 (by decide)),
      (h c main_arg27).trans (Cert.ReferenceIdeal.RefValue.arg_kept m c main_arg27 (by decide))⟩)
    (Cert.ReferenceIdeal.RunP.run (F := Ideal) m ρ)

end Cert.ReferenceIdeal.RefNet

end
-- ==== Proof.lean ====
/-
  A nine-layer network with weight-normalised layers, softplus activations and one skip connection, evaluated on 131072
  points: the kernel computes it in blocks of 4096 rows with the weights resident, the reference as whole-array host
  operations.  At the extended reals both results are ONE function of the 28 argument arrays, `Gout` (module `NetSpec`):
  entry `(n, j)` is the network `net` (module `Rows`) on row `n` of the positional encoding of the points, at column `j`,
  layer `l` with the weight-normalised `V_l`, transposed, and the bias `b_l`.

  The kernel's side (`KernelValue`): what a grid point writes back is the body's value on its blocks; row `r` of a block
  depends on row `r` of the block of encoded points only (`PayRows`: every operation of a layer is pointwise or a matrix
  product contracting the columns), the weight and bias windows hold the whole arrays the host operations before the
  region computed (`KHostA`–`KHostD`), and the 32 blocks cover the array.  The reference's side (`RefNet`): the fold of its
  268 host operations read window by window.  The two programs' matrix products are the same sum over the contracted
  coordinate (`MatRow`), the changes of float format are the identity, and the encoding and the weight normalisation
  are the same host terms of the same arguments, carried whole — so no law of arithmetic beyond re-indexing a finite sum
  is used, and the precondition (finite inputs) is never opened.  The three frames: the two generated ones, and the
  reference's run with its result dropped.  The idealisation rewrote nothing, so `preserves` is `True`.
-/
import proofs.«146509_j19370302505666_1_alg».proof.Defs
import proofs.«146509_j19370302505666_1_alg».proof.Proof.Gen.Kernel
import proofs.«146509_j19370302505666_1_alg».proof.Proof.Gen.Kernel.Frame
import proofs.«146509_j19370302505666_1_alg».proof.Proof.Gen.KernelIdeal
import proofs.«146509_j19370302505666_1_alg».proof.Proof.Gen.KernelIdeal.Frame
import proofs.«146509_j19370302505666_1_alg».proof.Proof.Gen.ReferenceIdeal
import proofs.«146509_j19370302505666_1_alg».proof.Proof.Gen.Pre_finite_inputs
import proofs.«146509_j19370302505666_1_alg».proof.Proof.KernelValue
import proofs.«146509_j19370302505666_1_alg».proof.Proof.RefNet
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefNet.run m ρ)

/-- The idealisation rewrote nothing. -/
theorem preserves : Cert.preserves_Kernel_KernelIdeal := trivial

/-- Both runs end at `Gout` of their argument arrays, and the arguments agree. -/
theorem algebraic : Cert.algebraic_KernelIdeal_ReferenceIdeal := by
  intro m ρ m' ρ' _ hagree
  refine ⟨fun c => Cert.KernelIdeal.NetValue.G m c, Cert.KernelIdeal.NetValue.run m ρ, ?_⟩
  refine (θ_run Cert.ReferenceIdeal.defs _ _).mono (fun _ h c => ⟨(h c).1.trans ?_, (h c).2⟩)
    (Cert.ReferenceIdeal.RefNet.run m' ρ')
  obtain ⟨h0, h1, h2, h3, h4, h5, h6, h7, h8, h9, h10, h11, h12, h13, h14, h15, h16, h17, h18, h19, h20, h21, h22, h23, h24, h25, h26, h27⟩ := hagree c
  rw [h0, h1, h2, h3, h4, h5, h6, h7, h8, h9, h10, h11, h12, h13, h14, h15, h16, h17, h18, h19, h20, h21, h22, h23, h24, h25, h26, h27]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
